-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1x128 : Shape := ⟨3, ![20000, 1, 128]⟩
abbrev S20000x3x128 : Shape := ⟨3, ![20000, 3, 128]⟩
abbrev S20000x5x128 : Shape := ⟨3, ![20000, 5, 128]⟩
abbrev S20000x7x128 : Shape := ⟨3, ![20000, 7, 128]⟩
abbrev S20000x9x128 : Shape := ⟨3, ![20000, 9, 128]⟩
abbrev S20000x11x128 : Shape := ⟨3, ![20000, 11, 128]⟩
abbrev S6x128x256 : Shape := ⟨3, ![6, 128, 256]⟩
abbrev S_ : Shape := ⟨0, ![]⟩

class Facts : Prop where
  bcast_S_S20000x1x128 : S_.BroadcastsInDim S20000x1x128 (![] : Fin 0 → Fin S20000x1x128.rank)
  reducesTo_S20000x1x128_S_d0_1_2 : S20000x1x128.ReducesTo [0, 1, 2] S_
  h_S_ : 0 < S_.numel
  bcast_S_S20000x3x128 : S_.BroadcastsInDim S20000x3x128 (![] : Fin 0 → Fin S20000x3x128.rank)
  reducesTo_S20000x3x128_S_d0_1_2 : S20000x3x128.ReducesTo [0, 1, 2] S_
  bcast_S_S20000x5x128 : S_.BroadcastsInDim S20000x5x128 (![] : Fin 0 → Fin S20000x5x128.rank)
  reducesTo_S20000x5x128_S_d0_1_2 : S20000x5x128.ReducesTo [0, 1, 2] S_
  bcast_S_S20000x7x128 : S_.BroadcastsInDim S20000x7x128 (![] : Fin 0 → Fin S20000x7x128.rank)
  reducesTo_S20000x7x128_S_d0_1_2 : S20000x7x128.ReducesTo [0, 1, 2] S_
  bcast_S_S20000x9x128 : S_.BroadcastsInDim S20000x9x128 (![] : Fin 0 → Fin S20000x9x128.rank)
  reducesTo_S20000x9x128_S_d0_1_2 : S20000x9x128.ReducesTo [0, 1, 2] S_
  bcast_S_S20000x11x128 : S_.BroadcastsInDim S20000x11x128 (![] : Fin 0 → Fin S20000x11x128.rank)
  reducesTo_S20000x11x128_S_d0_1_2 : S20000x11x128.ReducesTo [0, 1, 2] S_
  bcast_S_S6x128x256 : S_.BroadcastsInDim S6x128x256 (![] : Fin 0 → Fin S6x128x256.rank)
  reducesTo_S6x128x256_S_d0_1_2 : S6x128x256.ReducesTo [0, 1, 2] S_

variable [Facts]

def fn_part1 {F : FTy → Type} [FloatOps F] (main_arg4 : FVec F S20000x9x128 .f32) (main_arg5 : FVec F S20000x11x128 .f32) (main_arg6 : FVec F S6x128x256 .f32) (main_v13 : IVec S_ 1) (main_v16 : IVec S20000x7x128 1) : IVec S_ 1 :=
  let main_c_5 : IVec S_ 1 := constantI S_ 1 1#1
  let main_v17 : IVec S_ 1 := (fun x v => Host.reduce IntOp.andi x v reducesTo_S20000x7x128_S_d0_1_2 h_S_) main_v16 main_c_5
  let main_v18 : IVec S_ 1 := andi main_v13 main_v17
  let main_v19 : FVec F S20000x9x128 .f32 := Host.absf main_arg4
  let main_cst_6 : FVec F S_ .f32 := constant S_ .f32 0x7F800000#32
  let main_v20 : FVec F S20000x9x128 .f32 := broadcastInDim S20000x9x128 ![] bcast_S_S20000x9x128 main_cst_6
  let main_v21 : IVec S20000x9x128 1 := cmpf .olt main_v19 main_v20
  let main_c_7 : IVec S_ 1 := constantI S_ 1 1#1
  let main_v22 : IVec S_ 1 := (fun x v => Host.reduce IntOp.andi x v reducesTo_S20000x9x128_S_d0_1_2 h_S_) main_v21 main_c_7
  let main_v23 : IVec S_ 1 := andi main_v18 main_v22
  let main_v24 : FVec F S20000x11x128 .f32 := Host.absf main_arg5
  let main_cst_8 : FVec F S_ .f32 := constant S_ .f32 0x7F800000#32
  let main_v25 : FVec F S20000x11x128 .f32 := broadcastInDim S20000x11x128 ![] bcast_S_S20000x11x128 main_cst_8
  let main_v26 : IVec S20000x11x128 1 := cmpf .olt main_v24 main_v25
  let main_c_9 : IVec S_ 1 := constantI S_ 1 1#1
  let main_v27 : IVec S_ 1 := (fun x v => Host.reduce IntOp.andi x v reducesTo_S20000x11x128_S_d0_1_2 h_S_) main_v26 main_c_9
  let main_v28 : IVec S_ 1 := andi main_v23 main_v27
  let main_v29 : FVec F S6x128x256 .f32 := Host.absf main_arg6
  let main_cst_10 : FVec F S_ .f32 := constant S_ .f32 0x7F800000#32
  let main_v30 : FVec F S6x128x256 .f32 := broadcastInDim S6x128x256 ![] bcast_S_S6x128x256 main_cst_10
  let main_v31 : IVec S6x128x256 1 := cmpf .olt main_v29 main_v30
  let main_c_11 : IVec S_ 1 := constantI S_ 1 1#1
  let main_v32 : IVec S_ 1 := (fun x v => Host.reduce IntOp.andi x v reducesTo_S6x128x256_S_d0_1_2 h_S_) main_v31 main_c_11
  let main_v33 : IVec S_ 1 := andi main_v28 main_v32
  main_v33

def fn {F : FTy → Type} [FloatOps F] (main_arg0 : FVec F S20000x1x128 .f32) (main_arg1 : FVec F S20000x3x128 .f32) (main_arg2 : FVec F S20000x5x128 .f32) (main_arg3 : FVec F S20000x7x128 .f32) (main_arg4 : FVec F S20000x9x128 .f32) (main_arg5 : FVec F S20000x11x128 .f32) (main_arg6 : FVec F S6x128x256 .f32) : IVec S_ 1 :=
  let main_v0 : FVec F S20000x1x128 .f32 := Host.absf main_arg0
  let main_cst : FVec F S_ .f32 := constant S_ .f32 0x7F800000#32
  let main_v1 : FVec F S20000x1x128 .f32 := broadcastInDim S20000x1x128 ![] bcast_S_S20000x1x128 main_cst
  let main_v2 : IVec S20000x1x128 1 := cmpf .olt main_v0 main_v1
  let main_c : IVec S_ 1 := constantI S_ 1 1#1
  let main_v3 : IVec S_ 1 := (fun x v => Host.reduce IntOp.andi x v reducesTo_S20000x1x128_S_d0_1_2 h_S_) main_v2 main_c
  let main_v4 : FVec F S20000x3x128 .f32 := Host.absf main_arg1
  let main_cst_0 : FVec F S_ .f32 := constant S_ .f32 0x7F800000#32
  let main_v5 : FVec F S20000x3x128 .f32 := broadcastInDim S20000x3x128 ![] bcast_S_S20000x3x128 main_cst_0
  let main_v6 : IVec S20000x3x128 1 := cmpf .olt main_v4 main_v5
  let main_c_1 : IVec S_ 1 := constantI S_ 1 1#1
  let main_v7 : IVec S_ 1 := (fun x v => Host.reduce IntOp.andi x v reducesTo_S20000x3x128_S_d0_1_2 h_S_) main_v6 main_c_1
  let main_v8 : IVec S_ 1 := andi main_v3 main_v7
  let main_v9 : FVec F S20000x5x128 .f32 := Host.absf main_arg2
  let main_cst_2 : FVec F S_ .f32 := constant S_ .f32 0x7F800000#32
  let main_v10 : FVec F S20000x5x128 .f32 := broadcastInDim S20000x5x128 ![] bcast_S_S20000x5x128 main_cst_2
  let main_v11 : IVec S20000x5x128 1 := cmpf .olt main_v9 main_v10
  let main_c_3 : IVec S_ 1 := constantI S_ 1 1#1
  let main_v12 : IVec S_ 1 := (fun x v => Host.reduce IntOp.andi x v reducesTo_S20000x5x128_S_d0_1_2 h_S_) main_v11 main_c_3
  let main_v13 : IVec S_ 1 := andi main_v8 main_v12
  let main_v14 : FVec F S20000x7x128 .f32 := Host.absf main_arg3
  let main_cst_4 : FVec F S_ .f32 := constant S_ .f32 0x7F800000#32
  let main_v15 : FVec F S20000x7x128 .f32 := broadcastInDim S20000x7x128 ![] bcast_S_S20000x7x128 main_cst_4
  let main_v16 : IVec S20000x7x128 1 := cmpf .olt main_v14 main_v15
  fn_part1 (F := F) main_arg4 main_arg5 main_arg6 main_v13 main_v16
-- ==== Kernel.lean ====
abbrev S20000x1x128 : Shape := ⟨3, ![20000, 1, 128]⟩
abbrev S20000x3x128 : Shape := ⟨3, ![20000, 3, 128]⟩
abbrev S20000x5x128 : Shape := ⟨3, ![20000, 5, 128]⟩
abbrev S20000x7x128 : Shape := ⟨3, ![20000, 7, 128]⟩
abbrev S20000x9x128 : Shape := ⟨3, ![20000, 9, 128]⟩
abbrev S20000x11x128 : Shape := ⟨3, ![20000, 11, 128]⟩
abbrev S6x128x256 : Shape := ⟨3, ![6, 128, 256]⟩
abbrev S360 : Shape := ⟨1, ![360]⟩
abbrev S20000x128 : Shape := ⟨2, ![20000, 128]⟩
abbrev S60000x128 : Shape := ⟨2, ![60000, 128]⟩
abbrev S100000x128 : Shape := ⟨2, ![100000, 128]⟩
abbrev S140000x128 : Shape := ⟨2, ![140000, 128]⟩
abbrev S180000x128 : Shape := ⟨2, ![180000, 128]⟩
abbrev S220000x128 : Shape := ⟨2, ![220000, 128]⟩
abbrev S720000x256 : Shape := ⟨2, ![720000, 256]⟩
abbrev S2000x128 : Shape := ⟨2, ![2000, 128]⟩
abbrev S1 : Shape := ⟨1, ![1]⟩
abbrev S1x128x256 : Shape := ⟨3, ![1, 128, 256]⟩
abbrev S2000x256 : Shape := ⟨2, ![2000, 256]⟩
abbrev S128x256 : Shape := ⟨2, ![128, 256]⟩

abbrev nBuf : Space → Nat
  | .hbm => 14
  | .vmem => 16
  | .smem => 2
  | _ => 0

abbrev bufTy : (tb : Table) → Fin (tcTables nBuf tb) → BufTy
  | .hbm, ⟨0, _⟩ => ⟨S20000x1x128, .f32⟩
  | .hbm, ⟨1, _⟩ => ⟨S20000x3x128, .f32⟩
  | .hbm, ⟨2, _⟩ => ⟨S20000x5x128, .f32⟩
  | .hbm, ⟨3, _⟩ => ⟨S20000x7x128, .f32⟩
  | .hbm, ⟨4, _⟩ => ⟨S20000x9x128, .f32⟩
  | .hbm, ⟨5, _⟩ => ⟨S20000x11x128, .f32⟩
  | .hbm, ⟨6, _⟩ => ⟨S6x128x256, .f32⟩
  | .hbm, ⟨7, _⟩ => ⟨S20000x128, .f32⟩
  | .hbm, ⟨8, _⟩ => ⟨S60000x128, .f32⟩
  | .hbm, ⟨9, _⟩ => ⟨S100000x128, .f32⟩
  | .hbm, ⟨10, _⟩ => ⟨S140000x128, .f32⟩
  | .hbm, ⟨11, _⟩ => ⟨S180000x128, .f32⟩
  | .hbm, ⟨12, _⟩ => ⟨S220000x128, .f32⟩
  | .hbm, ⟨13, _⟩ => ⟨S720000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x128x256, .f32⟩
  | .local _ .vmem, ⟨13, _⟩ => ⟨S1x128x256, .f32⟩
  | .local _ .vmem, ⟨14, _⟩ => ⟨S2000x256, .f32⟩
  | .local _ .vmem, ⟨15, _⟩ => ⟨S2000x256, .f32⟩
  | .local _ .smem, ⟨0, _⟩ => ⟨S360, .i32⟩
  | .local _ .smem, ⟨1, _⟩ => ⟨S360, .i32⟩
  | _, _ => ⟨S20000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![360], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v5 : BitVec 1 := Scalar.cmpi .eq v1 c0_i32
  let v6 : BitVec 32 := Scalar.extui v5
  let c0_i32_2 : BitVec 32 := 0#32
  let v7 : BitVec 1 := Scalar.cmpi .ne v6 c0_i32_2
  v7

def k0_cond2 (v1 : BitVec 32) : BitVec 1 :=
  let c1_i32 : BitVec 32 := 1#32
  let v8 : BitVec 1 := Scalar.cmpi .eq v1 c1_i32
  let v9 : BitVec 32 := Scalar.extui v8
  let c0_i32_3 : BitVec 32 := 0#32
  let v10 : BitVec 1 := Scalar.cmpi .ne v9 c0_i32_3
  v10

def k0_cond3 (v1 : BitVec 32) : BitVec 1 :=
  let c2_i32 : BitVec 32 := 2#32
  let v11 : BitVec 1 := Scalar.cmpi .eq v1 c2_i32
  let v12 : BitVec 32 := Scalar.extui v11
  let c0_i32_4 : BitVec 32 := 0#32
  let v13 : BitVec 1 := Scalar.cmpi .ne v12 c0_i32_4
  v13

def k0_cond4 (v1 : BitVec 32) : BitVec 1 :=
  let c3_i32 : BitVec 32 := 3#32
  let v14 : BitVec 1 := Scalar.cmpi .eq v1 c3_i32
  let v15 : BitVec 32 := Scalar.extui v14
  let c0_i32_5 : BitVec 32 := 0#32
  let v16 : BitVec 1 := Scalar.cmpi .ne v15 c0_i32_5
  v16

def k0_cond5 (v1 : BitVec 32) : BitVec 1 :=
  let c4_i32 : BitVec 32 := 4#32
  let v17 : BitVec 1 := Scalar.cmpi .eq v1 c4_i32
  let v18 : BitVec 32 := Scalar.extui v17
  let c0_i32_6 : BitVec 32 := 0#32
  let v19 : BitVec 1 := Scalar.cmpi .ne v18 c0_i32_6
  v19

def k0_cond6 (v1 : BitVec 32) : BitVec 1 :=
  let c5_i32 : BitVec 32 := 5#32
  let v20 : BitVec 1 := Scalar.cmpi .eq v1 c5_i32
  let v21 : BitVec 32 := Scalar.extui v20
  let c0_i32_7 : BitVec 32 := 0#32
  let v22 : BitVec 1 := Scalar.cmpi .ne v21 c0_i32_7
  v22

def cc0_transform_0 (k0_off1_inb : ∀ i : grid0.Coords, ∀ a, (k0_off1 i) a + S1.size a ≤ S360.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S360) ![v0.toNat] S1.size (k0_off1_inb i)) numel1_S1
  let c0_i32 : BitVec 32 := 0#32
  let v2 : BitVec 1 := Scalar.cmpi .eq v1 c0_i32
  let v3 : Index := Scalar.indexCast arg0
  let v4 : BitVec 32 := pf.at 1 (Rect.unit (s := S360) ![v3.toNat] S1.size (k0_off1_inb i)) numel1_S1
  let c0_i32_0 : BitVec 32 := 0#32
  let v5 : BitVec 32 := Scalar.select v2 v4 c0_i32_0
  let c0_i32_1 : BitVec 32 := 0#32
  let c0_i32_2 : BitVec 32 := 0#32
  ![v5.toNat, c0_i32_1.toNat]

def cc0_transform_1 (k0_off1_inb : ∀ i : grid0.Coords, ∀ a, (k0_off1 i) a + S1.size a ≤ S360.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S360) ![v0.toNat] S1.size (k0_off1_inb i)) numel1_S1
  let c1_i32 : BitVec 32 := 1#32
  let v2 : BitVec 1 := Scalar.cmpi .eq v1 c1_i32
  let v3 : Index := Scalar.indexCast arg0
  let v4 : BitVec 32 := pf.at 1 (Rect.unit (s := S360) ![v3.toNat] S1.size (k0_off1_inb i)) numel1_S1
  let c0_i32 : BitVec 32 := 0#32
  let v5 : BitVec 32 := Scalar.select v2 v4 c0_i32
  let c0_i32_0 : BitVec 32 := 0#32
  let c0_i32_1 : BitVec 32 := 0#32
  ![v5.toNat, c0_i32_0.toNat]

def cc0_transform_2 (k0_off1_inb : ∀ i : grid0.Coords, ∀ a, (k0_off1 i) a + S1.size a ≤ S360.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S360) ![v0.toNat] S1.size (k0_off1_inb i)) numel1_S1
  let c2_i32 : BitVec 32 := 2#32
  let v2 : BitVec 1 := Scalar.cmpi .eq v1 c2_i32
  let v3 : Index := Scalar.indexCast arg0
  let v4 : BitVec 32 := pf.at 1 (Rect.unit (s := S360) ![v3.toNat] S1.size (k0_off1_inb i)) numel1_S1
  let c0_i32 : BitVec 32 := 0#32
  let v5 : BitVec 32 := Scalar.select v2 v4 c0_i32
  let c0_i32_0 : BitVec 32 := 0#32
  let c0_i32_1 : BitVec 32 := 0#32
  ![v5.toNat, c0_i32_0.toNat]

def cc0_transform_3 (k0_off1_inb : ∀ i : grid0.Coords, ∀ a, (k0_off1 i) a + S1.size a ≤ S360.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S360) ![v0.toNat] S1.size (k0_off1_inb i)) numel1_S1
  let c3_i32 : BitVec 32 := 3#32
  let v2 : BitVec 1 := Scalar.cmpi .eq v1 c3_i32
  let v3 : Index := Scalar.indexCast arg0
  let v4 : BitVec 32 := pf.at 1 (Rect.unit (s := S360) ![v3.toNat] S1.size (k0_off1_inb i)) numel1_S1
  let c0_i32 : BitVec 32 := 0#32
  let v5 : BitVec 32 := Scalar.select v2 v4 c0_i32
  let c0_i32_0 : BitVec 32 := 0#32
  let c0_i32_1 : BitVec 32 := 0#32
  ![v5.toNat, c0_i32_0.toNat]

def cc0_transform_4 (k0_off1_inb : ∀ i : grid0.Coords, ∀ a, (k0_off1 i) a + S1.size a ≤ S360.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S360) ![v0.toNat] S1.size (k0_off1_inb i)) numel1_S1
  let c4_i32 : BitVec 32 := 4#32
  let v2 : BitVec 1 := Scalar.cmpi .eq v1 c4_i32
  let v3 : Index := Scalar.indexCast arg0
  let v4 : BitVec 32 := pf.at 1 (Rect.unit (s := S360) ![v3.toNat] S1.size (k0_off1_inb i)) numel1_S1
  let c0_i32 : BitVec 32 := 0#32
  let v5 : BitVec 32 := Scalar.select v2 v4 c0_i32
  let c0_i32_0 : BitVec 32 := 0#32
  let c0_i32_1 : BitVec 32 := 0#32
  ![v5.toNat, c0_i32_0.toNat]

def cc0_transform_5 (k0_off1_inb : ∀ i : grid0.Coords, ∀ a, (k0_off1 i) a + S1.size a ≤ S360.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S360) ![v0.toNat] S1.size (k0_off1_inb i)) numel1_S1
  let c5_i32 : BitVec 32 := 5#32
  let v2 : BitVec 1 := Scalar.cmpi .eq v1 c5_i32
  let v3 : Index := Scalar.indexCast arg0
  let v4 : BitVec 32 := pf.at 1 (Rect.unit (s := S360) ![v3.toNat] S1.size (k0_off1_inb i)) numel1_S1
  let c0_i32 : BitVec 32 := 0#32
  let v5 : BitVec 32 := Scalar.select v2 v4 c0_i32
  let c0_i32_0 : BitVec 32 := 0#32
  let c0_i32_1 : BitVec 32 := 0#32
  ![v5.toNat, c0_i32_0.toNat]

def cc0_transform_6 (k0_off1_inb : ∀ i : grid0.Coords, ∀ a, (k0_off1 i) a + S1.size a ≤ S360.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S360) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S20000x1x128_S20000x128 : S20000x1x128.ShapeCasts S20000x128
  shapeCasts_S20000x3x128_S60000x128 : S20000x3x128.ShapeCasts S60000x128
  shapeCasts_S20000x5x128_S100000x128 : S20000x5x128.ShapeCasts S100000x128
  shapeCasts_S20000x7x128_S140000x128 : S20000x7x128.ShapeCasts S140000x128
  shapeCasts_S20000x9x128_S180000x128 : S20000x9x128.ShapeCasts S180000x128
  shapeCasts_S20000x11x128_S220000x128 : S20000x11x128.ShapeCasts S220000x128
  numel1_S1 : S1.numel = 1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x256_S2000x256_0_0 : ∀ a, (![0, 0] : Fin 2 → Nat) a + S2000x256.size a ≤ S2000x256.size a
  h_S2000x256 : 0 < S2000x256.numel
  dot_S2000x128_S128x256_S2000x256_1_0_0_1_n_n_wf : DotDims.WF S2000x128 S128x256 S2000x256 [1] [0] [0] [1] [] []
  hrank0 : 0 < grid0.rank
  k0_off1_inb : ∀ i : grid0.Coords, ∀ a, (k0_off1 i) a + S1.size a ≤ S360.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S720000x256.size a
  hwx0_7 : ∀ i : grid0.Coords, EltTy.bits .f32 = 32 ∨ (Rect.block (s := S720000x256) S2000x256.size (cc0_transform_7 i) (hinb0_7 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev spec0_0 : Pipeline.WinSpec sig grid0.rank :=
  Pipeline.WinSpec.ofSpec (Memref.whole main_v0) S2000x128.size reads0_0 false false 2 stage0_0 sem0_0 nbuf0_0 hstage0_0

abbrev spec0_1 : Pipeline.WinSpec sig grid0.rank :=
  Pipeline.WinSpec.ofSpec (Memref.whole main_v1) S2000x128.size reads0_1 false false 2 stage0_1 sem0_1 nbuf0_1 hstage0_1

abbrev spec0_2 : Pipeline.WinSpec sig grid0.rank :=
  Pipeline.WinSpec.ofSpec (Memref.whole main_v2) S2000x128.size reads0_2 false false 2 stage0_2 sem0_2 nbuf0_2 hstage0_2

abbrev spec0_3 : Pipeline.WinSpec sig grid0.rank :=
  Pipeline.WinSpec.ofSpec (Memref.whole main_v3) S2000x128.size reads0_3 false false 2 stage0_3 sem0_3 nbuf0_3 hstage0_3

abbrev spec0_4 : Pipeline.WinSpec sig grid0.rank :=
  Pipeline.WinSpec.ofSpec (Memref.whole main_v4) S2000x128.size reads0_4 false false 2 stage0_4 sem0_4 nbuf0_4 hstage0_4

abbrev spec0_5 : Pipeline.WinSpec sig grid0.rank :=
  Pipeline.WinSpec.ofSpec (Memref.whole main_v5) S2000x128.size reads0_5 false false 2 stage0_5 sem0_5 nbuf0_5 hstage0_5

abbrev spec0_6 : Pipeline.WinSpec sig grid0.rank :=
  Pipeline.WinSpec.ofSpec (Memref.whole main_arg6) S1x128x256.size reads0_6 false false 2 stage0_6 sem0_6 nbuf0_6 hstage0_6

abbrev spec0_7 : Pipeline.WinSpec sig grid0.rank :=
  Pipeline.WinSpec.ofSpec (Memref.whole main_v6) S2000x256.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 pf | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S2000x128.size a ≤ S20000x128.size a), EltTy.bits .f32 = 32 ∨ (Rect.block (s := S20000x128) S2000x128.size (cc0_transform_0 k0_off1_inb numel1_S1 pf i) h).WholeWords (EltTy.packing .f32)) ∧
  (∀ i : grid0.Coords, ∃ h : (∀ a, (cc0_transform_1 k0_off1_inb numel1_S1 pf i a + 1) * S2000x128.size a ≤ S60000x128.size a), EltTy.bits .f32 = 32 ∨ (Rect.block (s := S60000x128) S2000x128.size (cc0_transform_1 k0_off1_inb numel1_S1 pf i) h).WholeWords (EltTy.packing .f32)) ∧
  (∀ i : grid0.Coords, ∃ h : (∀ a, (cc0_transform_2 k0_off1_inb numel1_S1 pf i a + 1) * S2000x128.size a ≤ S100000x128.size a), EltTy.bits .f32 = 32 ∨ (Rect.block (s := S100000x128) S2000x128.size (cc0_transform_2 k0_off1_inb numel1_S1 pf i) h).WholeWords (EltTy.packing .f32)) ∧
  (∀ i : grid0.Coords, ∃ h : (∀ a, (cc0_transform_3 k0_off1_inb numel1_S1 pf i a + 1) * S2000x128.size a ≤ S140000x128.size a), EltTy.bits .f32 = 32 ∨ (Rect.block (s := S140000x128) S2000x128.size (cc0_transform_3 k0_off1_inb numel1_S1 pf i) h).WholeWords (EltTy.packing .f32)) ∧
  (∀ i : grid0.Coords, ∃ h : (∀ a, (cc0_transform_4 k0_off1_inb numel1_S1 pf i a + 1) * S2000x128.size a ≤ S180000x128.size a), EltTy.bits .f32 = 32 ∨ (Rect.block (s := S180000x128) S2000x128.size (cc0_transform_4 k0_off1_inb numel1_S1 pf i) h).WholeWords (EltTy.packing .f32)) ∧
  (∀ i : grid0.Coords, ∃ h : (∀ a, (cc0_transform_5 k0_off1_inb numel1_S1 pf i a + 1) * S2000x128.size a ≤ S220000x128.size a), EltTy.bits .f32 = 32 ∨ (Rect.block (s := S220000x128) S2000x128.size (cc0_transform_5 k0_off1_inb numel1_S1 pf i) h).WholeWords (EltTy.packing .f32)) ∧
  (∀ i : grid0.Coords, ∃ h : (∀ a, (cc0_transform_6 k0_off1_inb numel1_S1 pf i a + 1) * S1x128x256.size a ≤ S6x128x256.size a), EltTy.bits .f32 = 32 ∨ (Rect.block (s := S6x128x256) S1x128x256.size (cc0_transform_6 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2 i).elim fun h _ => h a | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2 i).elim fun _ h => h | 7 => hwx0_7 | ⟨_ + 8, h⟩ => absurd h (Nat.not_lt.2 (Nat.le_add_left _ _))
abbrev idle0 (pf : pre0.Contents (Elt F)) : Fin 8 → grid0.Coords → Bool := fun | 0 => fun _ => false | 1 => fun _ => false | 2 => fun _ => false | 3 => fun _ => false | 4 => fun _ => false | 5 => fun _ => false | 6 => fun _ => false | 7 => fun i => !(k0_cond1 (pf.atD 0 (k0_off1 i)) == 1#1) && !(k0_cond2 (pf.atD 0 (k0_off1 i)) == 1#1) && !(k0_cond3 (pf.atD 0 (k0_off1 i)) == 1#1) && !(k0_cond4 (pf.atD 0 (k0_off1 i)) == 1#1) && !(k0_cond5 (pf.atD 0 (k0_off1 i)) == 1#1) && !(k0_cond6 (pf.atD 0 (k0_off1 i)) == 1#1) | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S20000x1x128 : Shape := ⟨3, ![20000, 1, 128]⟩
abbrev S20000x3x128 : Shape := ⟨3, ![20000, 3, 128]⟩
abbrev S20000x5x128 : Shape := ⟨3, ![20000, 5, 128]⟩
abbrev S20000x7x128 : Shape := ⟨3, ![20000, 7, 128]⟩
abbrev S20000x9x128 : Shape := ⟨3, ![20000, 9, 128]⟩
abbrev S20000x11x128 : Shape := ⟨3, ![20000, 11, 128]⟩
abbrev S6x128x256 : Shape := ⟨3, ![6, 128, 256]⟩
abbrev S1x128x256 : Shape := ⟨3, ![1, 128, 256]⟩
abbrev S128x256 : Shape := ⟨2, ![128, 256]⟩
abbrev S20000x1x256 : Shape := ⟨3, ![20000, 1, 256]⟩
abbrev S20000x256 : Shape := ⟨2, ![20000, 256]⟩
abbrev S20000x3x256 : Shape := ⟨3, ![20000, 3, 256]⟩
abbrev S60000x256 : Shape := ⟨2, ![60000, 256]⟩
abbrev S20000x5x256 : Shape := ⟨3, ![20000, 5, 256]⟩
abbrev S100000x256 : Shape := ⟨2, ![100000, 256]⟩
abbrev S20000x7x256 : Shape := ⟨3, ![20000, 7, 256]⟩
abbrev S140000x256 : Shape := ⟨2, ![140000, 256]⟩
abbrev S20000x9x256 : Shape := ⟨3, ![20000, 9, 256]⟩
abbrev S180000x256 : Shape := ⟨2, ![180000, 256]⟩
abbrev S20000x11x256 : Shape := ⟨3, ![20000, 11, 256]⟩
abbrev S220000x256 : Shape := ⟨2, ![220000, 256]⟩
abbrev S720000x256 : Shape := ⟨2, ![720000, 256]⟩

abbrev nBuf : Space → Nat
  | .hbm => 32
  | .vmem => 0
  | .smem => 0
  | _ => 0

abbrev bufTy : (tb : Table) → Fin (tcTables nBuf tb) → BufTy
  | .hbm, ⟨0, _⟩ => ⟨S20000x1x128, .f32⟩
  | .hbm, ⟨1, _⟩ => ⟨S20000x3x128, .f32⟩
  | .hbm, ⟨2, _⟩ => ⟨S20000x5x128, .f32⟩
  | .hbm, ⟨3, _⟩ => ⟨S20000x7x128, .f32⟩
  | .hbm, ⟨4, _⟩ => ⟨S20000x9x128, .f32⟩
  | .hbm, ⟨5, _⟩ => ⟨S20000x11x128, .f32⟩
  | .hbm, ⟨6, _⟩ => ⟨S6x128x256, .f32⟩
  | .hbm, ⟨7, _⟩ => ⟨S1x128x256, .f32⟩
  | .hbm, ⟨8, _⟩ => ⟨S128x256, .f32⟩
  | .hbm, ⟨9, _⟩ => ⟨S20000x1x256, .f32⟩
  | .hbm, ⟨10, _⟩ => ⟨S20000x256, .f32⟩
  | .hbm, ⟨11, _⟩ => ⟨S1x128x256, .f32⟩
  | .hbm, ⟨12, _⟩ => ⟨S128x256, .f32⟩
  | .hbm, ⟨13, _⟩ => ⟨S20000x3x256, .f32⟩
  | .hbm, ⟨14, _⟩ => ⟨S60000x256, .f32⟩
  | .hbm, ⟨15, _⟩ => ⟨S1x128x256, .f32⟩
  | .hbm, ⟨16, _⟩ => ⟨S128x256, .f32⟩
  | .hbm, ⟨17, _⟩ => ⟨S20000x5x256, .f32⟩
  | .hbm, ⟨18, _⟩ => ⟨S100000x256, .f32⟩
  | .hbm, ⟨19, _⟩ => ⟨S1x128x256, .f32⟩
  | .hbm, ⟨20, _⟩ => ⟨S128x256, .f32⟩
  | .hbm, ⟨21, _⟩ => ⟨S20000x7x256, .f32⟩
  | .hbm, ⟨22, _⟩ => ⟨S140000x256, .f32⟩
  | .hbm, ⟨23, _⟩ => ⟨S1x128x256, .f32⟩
  | .hbm, ⟨24, _⟩ => ⟨S128x256, .f32⟩
  | .hbm, ⟨25, _⟩ => ⟨S20000x9x256, .f32⟩
  | .hbm, ⟨26, _⟩ => ⟨S180000x256, .f32⟩
  | .hbm, ⟨27, _⟩ => ⟨S1x128x256, .f32⟩
  | .hbm, ⟨28, _⟩ => ⟨S128x256, .f32⟩
  | .hbm, ⟨29, _⟩ => ⟨S20000x11x256, .f32⟩
  | .hbm, ⟨30, _⟩ => ⟨S220000x256, .f32⟩
  | .hbm, ⟨31, _⟩ => ⟨S720000x256, .f32⟩
  | _, _ => ⟨S20000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  slices_S6x128x256_S1x128x256_0_0_0 : S6x128x256.Slices ![0, 0, 0] S1x128x256
  shapeCasts_S1x128x256_S128x256 : S1x128x256.ShapeCasts S128x256
  shapeCasts_S20000x1x256_S20000x256 : S20000x1x256.ShapeCasts S20000x256
  slices_S6x128x256_S1x128x256_1_0_0 : S6x128x256.Slices ![1, 0, 0] S1x128x256
  shapeCasts_S20000x3x256_S60000x256 : S20000x3x256.ShapeCasts S60000x256
  slices_S6x128x256_S1x128x256_2_0_0 : S6x128x256.Slices ![2, 0, 0] S1x128x256
  shapeCasts_S20000x5x256_S100000x256 : S20000x5x256.ShapeCasts S100000x256
  slices_S6x128x256_S1x128x256_3_0_0 : S6x128x256.Slices ![3, 0, 0] S1x128x256
  shapeCasts_S20000x7x256_S140000x256 : S20000x7x256.ShapeCasts S140000x256
  slices_S6x128x256_S1x128x256_4_0_0 : S6x128x256.Slices ![4, 0, 0] S1x128x256
  shapeCasts_S20000x9x256_S180000x256 : S20000x9x256.ShapeCasts S180000x256
  slices_S6x128x256_S1x128x256_5_0_0 : S6x128x256.Slices ![5, 0, 0] S1x128x256
  shapeCasts_S20000x11x256_S220000x256 : S20000x11x256.ShapeCasts S220000x256
  concatenates_S20000x256_S60000x256_S100000x256_S140000x256_S180000x256_S220000x256_S720000x256_d0 : Shape.Concatenates [S20000x256, S60000x256, S100000x256, S140000x256, S180000x256, S220000x256] S720000x256 0
  dot_S20000x1x128_S128x256_S20000x1x256_2_0_01_1_n_n_wf : DotDims.WF S20000x1x128 S128x256 S20000x1x256 [2] [0] [0, 1] [1] [] []
  dot_S20000x3x128_S128x256_S20000x3x256_2_0_01_1_n_n_wf : DotDims.WF S20000x3x128 S128x256 S20000x3x256 [2] [0] [0, 1] [1] [] []
  dot_S20000x5x128_S128x256_S20000x5x256_2_0_01_1_n_n_wf : DotDims.WF S20000x5x128 S128x256 S20000x5x256 [2] [0] [0, 1] [1] [] []
  dot_S20000x7x128_S128x256_S20000x7x256_2_0_01_1_n_n_wf : DotDims.WF S20000x7x128 S128x256 S20000x7x256 [2] [0] [0, 1] [1] [] []
  dot_S20000x9x128_S128x256_S20000x9x256_2_0_01_1_n_n_wf : DotDims.WF S20000x9x128 S128x256 S20000x9x256 [2] [0] [0, 1] [1] [] []
  dot_S20000x11x128_S128x256_S20000x11x256_2_0_01_1_n_n_wf : DotDims.WF S20000x11x128 S128x256 S20000x11x256 [2] [0] [0, 1] [1] [] []

variable [Facts₀]

def dot_S20000x1x128_S128x256_S20000x1x256_2_0_01_1_n_n : DotDims S20000x1x128 S128x256 S20000x1x256 where
  lhsContracting := [2]
  rhsContracting := [0]
  lhsNonContracting := [0, 1]
  rhsNonContracting := [1]
  lhsBatch := []
  rhsBatch := []
  wf := dot_S20000x1x128_S128x256_S20000x1x256_2_0_01_1_n_n_wf
def dot_S20000x3x128_S128x256_S20000x3x256_2_0_01_1_n_n : DotDims S20000x3x128 S128x256 S20000x3x256 where
  lhsContracting := [2]
  rhsContracting := [0]
  lhsNonContracting := [0, 1]
  rhsNonContracting := [1]
  lhsBatch := []
  rhsBatch := []
  wf := dot_S20000x3x128_S128x256_S20000x3x256_2_0_01_1_n_n_wf
def dot_S20000x5x128_S128x256_S20000x5x256_2_0_01_1_n_n : DotDims S20000x5x128 S128x256 S20000x5x256 where
  lhsContracting := [2]
  rhsContracting := [0]
  lhsNonContracting := [0, 1]
  rhsNonContracting := [1]
  lhsBatch := []
  rhsBatch := []
  wf := dot_S20000x5x128_S128x256_S20000x5x256_2_0_01_1_n_n_wf
def dot_S20000x7x128_S128x256_S20000x7x256_2_0_01_1_n_n : DotDims S20000x7x128 S128x256 S20000x7x256 where
  lhsContracting := [2]
  rhsContracting := [0]
  lhsNonContracting := [0, 1]
  rhsNonContracting := [1]
  lhsBatch := []
  rhsBatch := []
  wf := dot_S20000x7x128_S128x256_S20000x7x256_2_0_01_1_n_n_wf
def dot_S20000x9x128_S128x256_S20000x9x256_2_0_01_1_n_n : DotDims S20000x9x128 S128x256 S20000x9x256 where
  lhsContracting := [2]
  rhsContracting := [0]
  lhsNonContracting := [0, 1]
  rhsNonContracting := [1]
  lhsBatch := []
  rhsBatch := []
  wf := dot_S20000x9x128_S128x256_S20000x9x256_2_0_01_1_n_n_wf
def dot_S20000x11x128_S128x256_S20000x11x256_2_0_01_1_n_n : DotDims S20000x11x128 S128x256 S20000x11x256 where
  lhsContracting := [2]
  rhsContracting := [0]
  lhsNonContracting := [0, 1]
  rhsNonContracting := [1]
  lhsBatch := []
  rhsBatch := []
  wf := dot_S20000x11x128_S128x256_S20000x11x256_2_0_01_1_n_n_wf

class Facts : Prop extends Facts₀ where

variable [Facts]
-- ==== Proof.AtBits.Entry.lean ====
/-
  What the region finds when it is entered, for the program `Kernel`.

  @main is eight host operations and then one pallas_call over a grid of 360 tiles. The first two host operations
  write two constant tables of 360 words each: for tile i, the first table holds the angular order l(i) of the tile
  (l = 0, …, 5; the tiles of order l are the 10·(2l+1) consecutive tiles from 10·l² on) and the second holds the
  tile's position i − 10·l² among the tiles of its order. The other six host operations reshape the six value
  arrays [20000, 2l+1, 128] to [20000·(2l+1), 128]. This module names the buffers' contents after those eight
  operations, reads the two tables back as their literals, and proves the one fact the pipeline needs of the tables:
  at every tile, the block each index map names lies inside its array (for the array of order l: a block of 2000
  rows at position < 10·(2l+1); for the weights: one of the six [128, 256] slices).
-/
import proofs.«161469_j48060684042913_2_alg».proof.Proof.Gen.Kernel.Launch
import proofs.«161469_j48060684042913_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the host operations -/

/-- Core `c`'s buffers when the region is entered: the launch memory after the eight host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.reshape_writes, Finset.mem_singleton]
    repeat' apply And.intro
    all_goals exact StableHlo.devRef_ne_of_ne (by decide)))

/-! ## The two tables -/

/-- The tables' contents when the region is entered (there is one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The first table holds the literal list of the tiles' angular orders. -/
theorem tbl_order (x : S360.Idx) : (tbl m 0 : S360.Idx → BitVec 32) x = lit0 (S360.rowMajor x) := by
  unfold tbl; show V m 0 main_c x = _; unfold V; after_results

/-- The second table holds the literal list of the tiles' positions within their order. -/
theorem tbl_pos (x : S360.Idx) : (tbl m 1 : S360.Idx → BitVec 32) x = lit1 (S360.rowMajor x) := by
  unfold tbl; show V m 0 main_c_0 x = _; unfold V; after_results

/-- The one index of a one-word rectangle at offset `n` of a 360-word table is position `n`. -/
theorem rowMajor_unit (n : Fin 360) (off : Fin 1 → Nat) (hoff : off 0 = n.val) (inb : ∀ a, off a + S1.size a ≤ S360.size a)
    (h1 : 0 < S1.numel) : S360.rowMajor ((Rect.unit (s := S360) off S1.size inb).idx (Shape.Idx.first h1)) = n := by
  apply Fin.ext
  rw [Shape.rowMajor_val_one]
  show off 0 + 1 * (Shape.Idx.first h1 (0 : Fin 1)).val = n.val
  have : (Shape.Idx.first h1 (0 : Fin 1)).val = 0 := by
    have := (Shape.Idx.first h1 (0 : Fin 1)).isLt
    have e : S1.size (0 : Fin 1) = 1 := by decide
    omega
  rw [this, hoff]; omega

/-- The word an index map reads from the first table at tile `i` is the tile's order. -/
theorem at_order (i : grid0.Coords) (inb : ∀ a, (k0_off1 i) a + S1.size a ≤ S360.size a) (h1 : S1.numel = 1) :
    (tbl m).at 0 (Rect.unit (s := S360) (k0_off1 i) S1.size inb) h1 = lit0 (i 0) :=
  (tbl_order m _).trans (congrArg lit0 (rowMajor_unit (i 0) _ (congrFun (k0_off1_eq i) 0) inb _))

/-- The word an index map reads from the second table at tile `i` is the tile's position within its order. -/
theorem at_pos (i : grid0.Coords) (inb : ∀ a, (k0_off1 i) a + S1.size a ≤ S360.size a) (h1 : S1.numel = 1) :
    (tbl m).at 1 (Rect.unit (s := S360) (k0_off1 i) S1.size inb) h1 = lit1 (i 0) :=
  (tbl_pos m _).trans (congrArg lit1 (rowMajor_unit (i 0) _ (congrFun (k0_off1_eq i) 0) inb _))

/-! ## Every block the tables name is inside its array -/

/-- Tile by tile over the literal tables: the position of a tile of order l is below 10·(2l+1), and at a tile of
    another order the map of order l names block 0; the order itself is below 6. -/
theorem pos_lt0 : ∀ n : Fin 360, (Scalar.select (Scalar.cmpi .eq (lit0 n) 0#32) (lit1 n) 0#32).toNat < 10 := by decide +kernel
theorem pos_lt1 : ∀ n : Fin 360, (Scalar.select (Scalar.cmpi .eq (lit0 n) 1#32) (lit1 n) 0#32).toNat < 30 := by decide +kernel
theorem pos_lt2 : ∀ n : Fin 360, (Scalar.select (Scalar.cmpi .eq (lit0 n) 2#32) (lit1 n) 0#32).toNat < 50 := by decide +kernel
theorem pos_lt3 : ∀ n : Fin 360, (Scalar.select (Scalar.cmpi .eq (lit0 n) 3#32) (lit1 n) 0#32).toNat < 70 := by decide +kernel
theorem pos_lt4 : ∀ n : Fin 360, (Scalar.select (Scalar.cmpi .eq (lit0 n) 4#32) (lit1 n) 0#32).toNat < 90 := by decide +kernel
theorem pos_lt5 : ∀ n : Fin 360, (Scalar.select (Scalar.cmpi .eq (lit0 n) 5#32) (lit1 n) 0#32).toNat < 110 := by decide +kernel
theorem order_lt : ∀ n : Fin 360, (lit0 n).toNat < 6 := by decide +kernel

/-- The block index the map of order `l` computes at tile `i`, read off the tables the region holds, is bounded as the
    literal tables say. -/
theorem sel_lt (l : BitVec 32) (N : Nat) (h : ∀ n : Fin 360, (Scalar.select (Scalar.cmpi .eq (lit0 n) l) (lit1 n) 0#32).toNat < N)
    (i : grid0.Coords) (inb : ∀ a, (k0_off1 i) a + S1.size a ≤ S360.size a) (h1 : S1.numel = 1) :
    (Scalar.select (Scalar.cmpi .eq ((tbl m).at 0 (Rect.unit (s := S360) (k0_off1 i) S1.size inb) h1) l)
      ((tbl m).at 1 (Rect.unit (s := S360) (k0_off1 i) S1.size inb) h1) 0#32).toNat < N := by
  rw [at_order, at_pos]; exact h (i 0)

theorem ord_lt (i : grid0.Coords) (inb : ∀ a, (k0_off1 i) a + S1.size a ≤ S360.size a) (h1 : S1.numel = 1) :
    ((tbl m).at 0 (Rect.unit (s := S360) (k0_off1 i) S1.size inb) h1).toNat < 6 := by
  rw [at_order]; exact order_lt (i 0)

/-- The pipeline's side condition of the tables. -/
abbrev Ok : Prop := ok0 (F := F) (tbl m)

theorem ok : Ok m := by
  refine ⟨fun i => ?_, fun i => ?_, fun i => ?_, fun i => ?_, fun i => ?_, fun i => ?_, fun i => ?_⟩
  · obtain ⟨w, hw, e⟩ : ∃ w : BitVec 32, w.toNat < 10 ∧ cc0_transform_0 k0_off1_inb numel1_S1 (tbl m) i = ![w.toNat, 0] :=
      ⟨_, sel_lt m 0#32 10 pos_lt0 i _ _, rfl⟩
    refine ⟨fun a => ?_, Or.inl rfl⟩
    rw [e]; fin_cases a <;> simp [S2000x128, S20000x128] <;> omega
  · obtain ⟨w, hw, e⟩ : ∃ w : BitVec 32, w.toNat < 30 ∧ cc0_transform_1 k0_off1_inb numel1_S1 (tbl m) i = ![w.toNat, 0] :=
      ⟨_, sel_lt m 1#32 30 pos_lt1 i _ _, rfl⟩
    refine ⟨fun a => ?_, Or.inl rfl⟩
    rw [e]; fin_cases a <;> simp [S2000x128, S60000x128] <;> omega
  · obtain ⟨w, hw, e⟩ : ∃ w : BitVec 32, w.toNat < 50 ∧ cc0_transform_2 k0_off1_inb numel1_S1 (tbl m) i = ![w.toNat, 0] :=
      ⟨_, sel_lt m 2#32 50 pos_lt2 i _ _, rfl⟩
    refine ⟨fun a => ?_, Or.inl rfl⟩
    rw [e]; fin_cases a <;> simp [S2000x128, S100000x128] <;> omega
  · obtain ⟨w, hw, e⟩ : ∃ w : BitVec 32, w.toNat < 70 ∧ cc0_transform_3 k0_off1_inb numel1_S1 (tbl m) i = ![w.toNat, 0] :=
      ⟨_, sel_lt m 3#32 70 pos_lt3 i _ _, rfl⟩
    refine ⟨fun a => ?_, Or.inl rfl⟩
    rw [e]; fin_cases a <;> simp [S2000x128, S140000x128] <;> omega
  · obtain ⟨w, hw, e⟩ : ∃ w : BitVec 32, w.toNat < 90 ∧ cc0_transform_4 k0_off1_inb numel1_S1 (tbl m) i = ![w.toNat, 0] :=
      ⟨_, sel_lt m 4#32 90 pos_lt4 i _ _, rfl⟩
    refine ⟨fun a => ?_, Or.inl rfl⟩
    rw [e]; fin_cases a <;> simp [S2000x128, S180000x128] <;> omega
  · obtain ⟨w, hw, e⟩ : ∃ w : BitVec 32, w.toNat < 110 ∧ cc0_transform_5 k0_off1_inb numel1_S1 (tbl m) i = ![w.toNat, 0] :=
      ⟨_, sel_lt m 5#32 110 pos_lt5 i _ _, rfl⟩
    refine ⟨fun a => ?_, Or.inl rfl⟩
    rw [e]; fin_cases a <;> simp [S2000x128, S220000x128] <;> omega
  · obtain ⟨w, hw, e⟩ : ∃ w : BitVec 32, w.toNat < 6 ∧ cc0_transform_6 k0_off1_inb numel1_S1 (tbl m) i = ![w.toNat, 0, 0] :=
      ⟨_, ord_lt m i _ _, rfl⟩
    refine ⟨fun a => ?_, Or.inl rfl⟩
    rw [e]; fin_cases a <;> simp [S1x128x256, S6x128x256] <;> omega

/-- The tables as admissible contents, and the pipeline at them. -/
abbrev adm : (pcfg0 (F := F)).Adm := ⟨tbl m, ok m⟩
abbrev cfgM : Pipeline.Cfg sig Λ₀ := cfg0 (adm m)

end Cert.Kernel.Tiles

end
-- ==== Proof.AtBits.Blocks.lean ====
/-
  The blocks of the pallas_call of `Kernel`: what the body is handed at a tile and what the frame needs of it.

  At tile t the pipeline hands the body one staging buffer per window — six value windows of 2000 × 128, the weight
  window 1 × 128 × 256, the output window 2000 × 256 — and the two tables, read-only. A value window holds the
  block of 2000 rows of its array that its index map names at t, the weight window the slice of the tile's order;
  the body never writes them. The output's block index is the tile number itself, so the output block is written
  back after every tile. Here: the tables as the body holds them, each window's block at a tile as a function of
  the region-entry arrays, that an input window's buffer holds that block at every tile, and how the frame claim's
  post follows from the library's run.
-/
import proofs.«161469_j48060684042913_2_alg».proof.Proof.AtBits.Entry

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables as the body holds them -/

abbrev tbM0 : Memref sig .tc .smem S360 .i32 := Memref.whole main_c
abbrev htbM0 : tbM0.IsWhole := Memref.isWhole_whole _
abbrev tbM1 : Memref sig .tc .smem S360 .i32 := Memref.whole main_c_0
abbrev htbM1 : tbM1.IsWhole := Memref.isWhole_whole _

/-- A table's buffer on core `c`: its contents type, and the buffer held at half the full share (the pipeline
    keeps the other half: the body may read the table, nothing may write it). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at tile `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every tile, fetched there or not. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every tile, fetched there or not. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every tile, fetched there or not. -/
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every tile, fetched there or not. -/
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every tile, fetched there or not. -/
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every tile, fetched there or not. -/
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every tile, fetched there or not. -/
theorem before6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The output window is written back after every tile, whatever the tables hold (its index map reads none). -/
theorem flush7 (a : (pcfg0 (F := F)).Adm) : ∀ t : Fin (cfg0 a).N, ((cfg0 a).win 7).flush t = true :=
  (by decide +kernel : ∀ t : Fin grid0.N, Pipeline.Window.flushOf grid0 true cc0_transform_7 t = true)

/-! ## The staging memrefs and the body at a tile -/

abbrev ms0 (t : Fin (cfgM m).N) : Memref sig .tc .vmem S2000x128 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S2000x128 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2000x128 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2000x128 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S2000x128 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S2000x128 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x128x256 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S2000x256 .f32 := spec0_7.stage ((cfgM m).slots t 7)
abbrev hs7 (t : Fin (cfgM m).N) : (ms7 m t).IsWhole := hstage0_7 (((cfgM m).slots t 7).cast nbuf0_7)

/-- The kernel body at tile `t`, on what the pipeline calls it with. -/
abbrev bodyAt (t : Fin (cfgM m).N) : Prog (TpuEff nD τ sig (Elt F) Λ₀ .tc) PUnit :=
  cc0__fused_kernel (grid0.coords t) tbM0 htbM0 tbM1 htbM1 (ms0 m t) (hs0 m t) (ms1 m t) (hs1 m t) (ms2 m t) (hs2 m t) (ms3 m t) (hs3 m t)
    (ms4 m t) (hs4 m t) (ms5 m t) (hs5 m t) (ms6 m t) (hs6 m t) (ms7 m t) (hs7 m t)

/-! ## The frame claim's post from the library's run -/

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 6).trans (((dats 0 c).arrAt_in 6 rfl _).trans ((hA c 6).trans (V_main_arg6 m c)))⟩) h

end Cert.Kernel.Tiles

end
-- ==== Proof.AtBits.Case0.lean ====
/-
  The kernel body of `Kernel` at a tile of angular order 0.
-/
import proofs.«161469_j48060684042913_2_alg».proof.Proof.AtBits.Blocks

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 0: only the branch of order 0 runs. It loads the weight slice and the
    first value block, multiplies them on the matrix unit into a zero accumulator and stores the product over the whole
    output block; the other five value buffers are not touched. The witness is the list of stores the output buffer ends with. -/
noncomputable def run0 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : (k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg3 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg3 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg3.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [HW]
    · iexists _; isplitr; · ipureintro; exact harg9.read_unread _
      iexact HW
    isplitl [H1]; · iexists _; iexact H1
    isplitl [HT0]; · iexact HT0
    iexact HT1

end Cert.Kernel.Tiles

end
-- ==== Proof.AtBits.Case1.lean ====
/-
  The kernel body of `Kernel` at a tile of angular order 1.
-/
import proofs.«161469_j48060684042913_2_alg».proof.Proof.AtBits.Blocks

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 1: only the branch of order 1 runs. It loads the weight slice and the
    order-1 value block, multiplies them on the matrix unit into a zero accumulator and stores the product over the whole
    output block; the other five value buffers are not touched. The witness is the list of stores the output buffer ends with. -/
noncomputable def run1 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : (k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg4 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg4 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg4.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg4.read_unread _
      iexact H0
    isplitl [HW]
    · iexists _; isplitr; · ipureintro; exact harg9.read_unread _
      iexact HW
    isplitl [H1]; · iexists _; iexact H1
    isplitl [HT0]; · iexact HT0
    iexact HT1

end Cert.Kernel.Tiles

end
-- ==== Proof.AtBits.Case2.lean ====
/-
  The kernel body of `Kernel` at a tile of angular order 2.
-/
import proofs.«161469_j48060684042913_2_alg».proof.Proof.AtBits.Blocks

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 2: only the branch of order 2 runs. It loads the weight slice and the
    order-2 value block, multiplies them on the matrix unit into a zero accumulator and stores the product over the whole
    output block; the other five value buffers are not touched. The witness is the list of stores the output buffer ends with. -/
noncomputable def run2 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : (k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg5 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg5 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg5.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg5.read_unread _
      iexact H0
    isplitl [HW]
    · iexists _; isplitr; · ipureintro; exact harg9.read_unread _
      iexact HW
    isplitl [H1]; · iexists _; iexact H1
    isplitl [HT0]; · iexact HT0
    iexact HT1

end Cert.Kernel.Tiles

end
-- ==== Proof.AtBits.Case3.lean ====
/-
  The kernel body of `Kernel` at a tile of angular order 3.
-/
import proofs.«161469_j48060684042913_2_alg».proof.Proof.AtBits.Blocks

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 3: only the branch of order 3 runs. It loads the weight slice and the
    order-3 value block, multiplies them on the matrix unit into a zero accumulator and stores the product over the whole
    output block; the other five value buffers are not touched. The witness is the list of stores the output buffer ends with. -/
noncomputable def run3 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : (k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg6 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg6 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg6.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg6.read_unread _
      iexact H0
    isplitl [HW]
    · iexists _; isplitr; · ipureintro; exact harg9.read_unread _
      iexact HW
    isplitl [H1]; · iexists _; iexact H1
    isplitl [HT0]; · iexact HT0
    iexact HT1

end Cert.Kernel.Tiles

end
-- ==== Proof.AtBits.Case4.lean ====
/-
  The kernel body of `Kernel` at a tile of angular order 4.
-/
import proofs.«161469_j48060684042913_2_alg».proof.Proof.AtBits.Blocks

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 4: only the branch of order 4 runs. It loads the weight slice and the
    order-4 value block, multiplies them on the matrix unit into a zero accumulator and stores the product over the whole
    output block; the other five value buffers are not touched. The witness is the list of stores the output buffer ends with. -/
noncomputable def run4 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : (k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg7 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg7 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg7.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg7.read_unread _
      iexact H0
    isplitl [HW]
    · iexists _; isplitr; · ipureintro; exact harg9.read_unread _
      iexact HW
    isplitl [H1]; · iexists _; iexact H1
    isplitl [HT0]; · iexact HT0
    iexact HT1

end Cert.Kernel.Tiles

end
-- ==== Proof.AtBits.Case5.lean ====
/-
  The kernel body of `Kernel` at a tile of angular order 5.
-/
import proofs.«161469_j48060684042913_2_alg».proof.Proof.AtBits.Blocks

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 5: only the branch of order 5 runs. It loads the weight slice and the
    order-5 value block, multiplies them on the matrix unit into a zero accumulator and stores the product over the whole
    output block; the other five value buffers are not touched. The witness is the list of stores the output buffer ends with. -/
noncomputable def run5 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : (k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg8 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg8 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg8.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg8.read_unread _
      iexact H0
    isplitl [HW]
    · iexists _; isplitr; · ipureintro; exact harg9.read_unread _
      iexact HW
    isplitl [H1]; · iexists _; iexact H1
    isplitl [HT0]; · iexact HT0
    iexact HT1

end Cert.Kernel.Tiles

end
-- ==== Proof.AtBits.Frame.lean ====
/-
  The frame of `Kernel`: every tile's body runs, and the run of @main leaves the argument arrays as they were.

  At tile t the first table's word is the tile's angular order l (one of 0, …, 5, by the literal table), so exactly
  the branch of order l runs (Case0 … Case5) and leaves in the output's staging buffer the product of the order-l
  value block with the weight slice of order l; the output block is written back after every tile. The proof data
  names what each window's buffer holds after the body — an input window its block, the output window that product —
  and the library's frame run for a pipeline with prefetched tables does the rest.
-/
import proofs.«161469_j48060684042913_2_alg».proof.Proof.AtBits.Case0
import proofs.«161469_j48060684042913_2_alg».proof.Proof.AtBits.Case1
import proofs.«161469_j48060684042913_2_alg».proof.Proof.AtBits.Case2
import proofs.«161469_j48060684042913_2_alg».proof.Proof.AtBits.Case3
import proofs.«161469_j48060684042913_2_alg».proof.Proof.AtBits.Case4
import proofs.«161469_j48060684042913_2_alg».proof.Proof.AtBits.Case5

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The word the body loads is the tile's order -/

/-- The word the body loads from the first table at tile `i` is the tile's order in the literal table. -/
theorem word_eq (i : grid0.Coords) : (tbM0.view.readAt (Elt F) (Rect.unit (s := S360) (k0_off1 i) S1.size (k0_off1_inb i)).toLoadRect (tbl m 0) (Shape.Idx.first (numel1_S1.symm ▸ Nat.one_pos))) = lit0 (i 0) :=
  (tbl_order m _).trans (congrArg lit0 (rowMajor_unit (i 0) _ (congrFun (k0_off1_eq i) 0) _ _))

theorem hc1 (i : grid0.Coords) {v : BitVec 32} (h : lit0 (i 0) = v) : k0_cond1 (tbM0.view.readAt (Elt F) (Rect.unit (s := S360) (k0_off1 i) S1.size (k0_off1_inb i)).toLoadRect (tbl m 0) (Shape.Idx.first (numel1_S1.symm ▸ Nat.one_pos))) = 1#1 ↔ k0_cond1 v = 1#1 := by
  rw [word_eq m i, h]
theorem hc2 (i : grid0.Coords) {v : BitVec 32} (h : lit0 (i 0) = v) : k0_cond2 (tbM0.view.readAt (Elt F) (Rect.unit (s := S360) (k0_off1 i) S1.size (k0_off1_inb i)).toLoadRect (tbl m 0) (Shape.Idx.first (numel1_S1.symm ▸ Nat.one_pos))) = 1#1 ↔ k0_cond2 v = 1#1 := by
  rw [word_eq m i, h]
theorem hc3 (i : grid0.Coords) {v : BitVec 32} (h : lit0 (i 0) = v) : k0_cond3 (tbM0.view.readAt (Elt F) (Rect.unit (s := S360) (k0_off1 i) S1.size (k0_off1_inb i)).toLoadRect (tbl m 0) (Shape.Idx.first (numel1_S1.symm ▸ Nat.one_pos))) = 1#1 ↔ k0_cond3 v = 1#1 := by
  rw [word_eq m i, h]
theorem hc4 (i : grid0.Coords) {v : BitVec 32} (h : lit0 (i 0) = v) : k0_cond4 (tbM0.view.readAt (Elt F) (Rect.unit (s := S360) (k0_off1 i) S1.size (k0_off1_inb i)).toLoadRect (tbl m 0) (Shape.Idx.first (numel1_S1.symm ▸ Nat.one_pos))) = 1#1 ↔ k0_cond4 v = 1#1 := by
  rw [word_eq m i, h]
theorem hc5 (i : grid0.Coords) {v : BitVec 32} (h : lit0 (i 0) = v) : k0_cond5 (tbM0.view.readAt (Elt F) (Rect.unit (s := S360) (k0_off1 i) S1.size (k0_off1_inb i)).toLoadRect (tbl m 0) (Shape.Idx.first (numel1_S1.symm ▸ Nat.one_pos))) = 1#1 ↔ k0_cond5 v = 1#1 := by
  rw [word_eq m i, h]
theorem hc6 (i : grid0.Coords) {v : BitVec 32} (h : lit0 (i 0) = v) : k0_cond6 (tbM0.view.readAt (Elt F) (Rect.unit (s := S360) (k0_off1 i) S1.size (k0_off1_inb i)).toLoadRect (tbl m 0) (Shape.Idx.first (numel1_S1.symm ▸ Nat.one_pos))) = 1#1 ↔ k0_cond6 v = 1#1 := by
  rw [word_eq m i, h]

/-- A word below 6 is one of the six orders. -/
theorem ord_cases (v : BitVec 32) (h : v.toNat < 6) : v = 0#32 ∨ v = 1#32 ∨ v = 2#32 ∨ v = 3#32 ∨ v = 4#32 ∨ v = 5#32 := by
  have h' : v.toNat = 0 ∨ v.toNat = 1 ∨ v.toNat = 2 ∨ v.toNat = 3 ∨ v.toNat = 4 ∨ v.toNat = 5 := by omega
  rcases h' with h | h | h | h | h | h
  · exact .inl (BitVec.eq_of_toNat_eq (by rw [h]; rfl))
  · exact .inr (.inl (BitVec.eq_of_toNat_eq (by rw [h]; rfl)))
  · exact .inr (.inr (.inl (BitVec.eq_of_toNat_eq (by rw [h]; rfl))))
  · exact .inr (.inr (.inr (.inl (BitVec.eq_of_toNat_eq (by rw [h]; rfl)))))
  · exact .inr (.inr (.inr (.inr (.inl (BitVec.eq_of_toNat_eq (by rw [h]; rfl))))))
  · exact .inr (.inr (.inr (.inr (.inr (BitVec.eq_of_toNat_eq (by rw [h]; rfl))))))

/-! ## What each case leaves in the output's staging buffer -/

/-- One staging buffer of the output window, through which its contents are stated (the choice does not matter). -/
abbrev VO : View sig .tc .vmem S2000x256 .f32 := (Memref.whole cc0_stg7_0 : Memref sig .tc .vmem S2000x256 .f32).view

/-- The one store of case 0 covers the whole output block. -/
theorem cover0 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : (k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run0 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run0 c i arg3 harg3 arg4 harg4 arg5 harg5 arg6 harg6 arg7 harg7 arg8 harg8 arg9 harg9 arg10 harg10 x xw xt0 xt1 hc1 hc2 hc3 hc4 hc5 hc6).1 (by sl_whole_mem) y

/-- What case 0 leaves in the output's staging buffer: its stores read back. -/
def out0 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : (k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run0 c i arg3 harg3 arg4 harg4 arg5 harg5 arg6 harg6 arg7 harg7 arg8 harg8 arg9 harg9 arg10 harg10 x xw xt0 xt1 hc1 hc2 hc3 hc4 hc5 hc6).1)

/-- The one store of case 1 covers the whole output block. -/
theorem cover1 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : (k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run1 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run1 c i arg3 harg3 arg4 harg4 arg5 harg5 arg6 harg6 arg7 harg7 arg8 harg8 arg9 harg9 arg10 harg10 x xw xt0 xt1 hc1 hc2 hc3 hc4 hc5 hc6).1 (by sl_whole_mem) y

/-- What case 1 leaves in the output's staging buffer: its stores read back. -/
def out1 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : (k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run1 c i arg3 harg3 arg4 harg4 arg5 harg5 arg6 harg6 arg7 harg7 arg8 harg8 arg9 harg9 arg10 harg10 x xw xt0 xt1 hc1 hc2 hc3 hc4 hc5 hc6).1)

/-- The one store of case 2 covers the whole output block. -/
theorem cover2 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : (k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run2 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run2 c i arg3 harg3 arg4 harg4 arg5 harg5 arg6 harg6 arg7 harg7 arg8 harg8 arg9 harg9 arg10 harg10 x xw xt0 xt1 hc1 hc2 hc3 hc4 hc5 hc6).1 (by sl_whole_mem) y

/-- What case 2 leaves in the output's staging buffer: its stores read back. -/
def out2 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : (k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run2 c i arg3 harg3 arg4 harg4 arg5 harg5 arg6 harg6 arg7 harg7 arg8 harg8 arg9 harg9 arg10 harg10 x xw xt0 xt1 hc1 hc2 hc3 hc4 hc5 hc6).1)

/-- The one store of case 3 covers the whole output block. -/
theorem cover3 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : (k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run3 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run3 c i arg3 harg3 arg4 harg4 arg5 harg5 arg6 harg6 arg7 harg7 arg8 harg8 arg9 harg9 arg10 harg10 x xw xt0 xt1 hc1 hc2 hc3 hc4 hc5 hc6).1 (by sl_whole_mem) y

/-- What case 3 leaves in the output's staging buffer: its stores read back. -/
def out3 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : (k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run3 c i arg3 harg3 arg4 harg4 arg5 harg5 arg6 harg6 arg7 harg7 arg8 harg8 arg9 harg9 arg10 harg10 x xw xt0 xt1 hc1 hc2 hc3 hc4 hc5 hc6).1)

/-- The one store of case 4 covers the whole output block. -/
theorem cover4 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : (k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run4 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run4 c i arg3 harg3 arg4 harg4 arg5 harg5 arg6 harg6 arg7 harg7 arg8 harg8 arg9 harg9 arg10 harg10 x xw xt0 xt1 hc1 hc2 hc3 hc4 hc5 hc6).1 (by sl_whole_mem) y

/-- What case 4 leaves in the output's staging buffer: its stores read back. -/
def out4 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : (k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run4 c i arg3 harg3 arg4 harg4 arg5 harg5 arg6 harg6 arg7 harg7 arg8 harg8 arg9 harg9 arg10 harg10 x xw xt0 xt1 hc1 hc2 hc3 hc4 hc5 hc6).1)

/-- The one store of case 5 covers the whole output block. -/
theorem cover5 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : (k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run5 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run5 c i arg3 harg3 arg4 harg4 arg5 harg5 arg6 harg6 arg7 harg7 arg8 harg8 arg9 harg9 arg10 harg10 x xw xt0 xt1 hc1 hc2 hc3 hc4 hc5 hc6).1 (by sl_whole_mem) y

/-- What case 5 leaves in the output's staging buffer: its stores read back. -/
def out5 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : (k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run5 c i arg3 harg3 arg4 harg4 arg5 harg5 arg6 harg6 arg7 harg7 arg8 harg8 arg9 harg9 arg10 harg10 x xw xt0 xt1 hc1 hc2 hc3 hc4 hc5 hc6).1)

/-- What the output's staging buffer holds after the body at tile `t`: the case of the tile's order, at the tile's blocks. -/
def outAt (c : Dev nD) (t : Fin (cfgM m).N) : Vec F S2000x256 .f32 :=
  if h0 : lit0 (grid0.coords t 0) = 0#32 then
    out0 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 0 t) (iblk m c 6 t) (tbl m 0) (tbl m 1) ((hc1 m (grid0.coords t) h0).mpr (by decide)) (fun e => absurd ((hc2 m (grid0.coords t) h0).mp e) (by decide)) (fun e => absurd ((hc3 m (grid0.coords t) h0).mp e) (by decide)) (fun e => absurd ((hc4 m (grid0.coords t) h0).mp e) (by decide)) (fun e => absurd ((hc5 m (grid0.coords t) h0).mp e) (by decide)) (fun e => absurd ((hc6 m (grid0.coords t) h0).mp e) (by decide))
  else if h1 : lit0 (grid0.coords t 0) = 1#32 then
    out1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 1 t) (iblk m c 6 t) (tbl m 0) (tbl m 1) (fun e => absurd ((hc1 m (grid0.coords t) h1).mp e) (by decide)) ((hc2 m (grid0.coords t) h1).mpr (by decide)) (fun e => absurd ((hc3 m (grid0.coords t) h1).mp e) (by decide)) (fun e => absurd ((hc4 m (grid0.coords t) h1).mp e) (by decide)) (fun e => absurd ((hc5 m (grid0.coords t) h1).mp e) (by decide)) (fun e => absurd ((hc6 m (grid0.coords t) h1).mp e) (by decide))
  else if h2 : lit0 (grid0.coords t 0) = 2#32 then
    out2 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 2 t) (iblk m c 6 t) (tbl m 0) (tbl m 1) (fun e => absurd ((hc1 m (grid0.coords t) h2).mp e) (by decide)) (fun e => absurd ((hc2 m (grid0.coords t) h2).mp e) (by decide)) ((hc3 m (grid0.coords t) h2).mpr (by decide)) (fun e => absurd ((hc4 m (grid0.coords t) h2).mp e) (by decide)) (fun e => absurd ((hc5 m (grid0.coords t) h2).mp e) (by decide)) (fun e => absurd ((hc6 m (grid0.coords t) h2).mp e) (by decide))
  else if h3 : lit0 (grid0.coords t 0) = 3#32 then
    out3 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 3 t) (iblk m c 6 t) (tbl m 0) (tbl m 1) (fun e => absurd ((hc1 m (grid0.coords t) h3).mp e) (by decide)) (fun e => absurd ((hc2 m (grid0.coords t) h3).mp e) (by decide)) (fun e => absurd ((hc3 m (grid0.coords t) h3).mp e) (by decide)) ((hc4 m (grid0.coords t) h3).mpr (by decide)) (fun e => absurd ((hc5 m (grid0.coords t) h3).mp e) (by decide)) (fun e => absurd ((hc6 m (grid0.coords t) h3).mp e) (by decide))
  else if h4 : lit0 (grid0.coords t 0) = 4#32 then
    out4 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 4 t) (iblk m c 6 t) (tbl m 0) (tbl m 1) (fun e => absurd ((hc1 m (grid0.coords t) h4).mp e) (by decide)) (fun e => absurd ((hc2 m (grid0.coords t) h4).mp e) (by decide)) (fun e => absurd ((hc3 m (grid0.coords t) h4).mp e) (by decide)) (fun e => absurd ((hc4 m (grid0.coords t) h4).mp e) (by decide)) ((hc5 m (grid0.coords t) h4).mpr (by decide)) (fun e => absurd ((hc6 m (grid0.coords t) h4).mp e) (by decide))
  else if h5 : lit0 (grid0.coords t 0) = 5#32 then
    out5 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 5 t) (iblk m c 6 t) (tbl m 0) (tbl m 1) (fun e => absurd ((hc1 m (grid0.coords t) h5).mp e) (by decide)) (fun e => absurd ((hc2 m (grid0.coords t) h5).mp e) (by decide)) (fun e => absurd ((hc3 m (grid0.coords t) h5).mp e) (by decide)) (fun e => absurd ((hc4 m (grid0.coords t) h5).mp e) (by decide)) (fun e => absurd ((hc5 m (grid0.coords t) h5).mp e) (by decide)) ((hc6 m (grid0.coords t) h5).mpr (by decide))
  else VO.read (Elt F) VO.junk

theorem outAt_0 (c : Dev nD) (t : Fin (cfgM m).N) (h : lit0 (grid0.coords t 0) = 0#32) :
    outAt m c t = out0 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 0 t) (iblk m c 6 t) (tbl m 0) (tbl m 1) ((hc1 m (grid0.coords t) h).mpr (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide)) := by
  unfold outAt
  rw [dif_pos h]
theorem outAt_1 (c : Dev nD) (t : Fin (cfgM m).N) (h : lit0 (grid0.coords t 0) = 1#32) :
    outAt m c t = out1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 1 t) (iblk m c 6 t) (tbl m 0) (tbl m 1) (fun e => absurd ((hc1 m (grid0.coords t) h).mp e) (by decide)) ((hc2 m (grid0.coords t) h).mpr (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide)) := by
  unfold outAt
  rw [dif_neg (by rw [h]; decide), dif_pos h]
theorem outAt_2 (c : Dev nD) (t : Fin (cfgM m).N) (h : lit0 (grid0.coords t 0) = 2#32) :
    outAt m c t = out2 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 2 t) (iblk m c 6 t) (tbl m 0) (tbl m 1) (fun e => absurd ((hc1 m (grid0.coords t) h).mp e) (by decide)) (fun e => absurd ((hc2 m (grid0.coords t) h).mp e) (by decide)) ((hc3 m (grid0.coords t) h).mpr (by decide)) (fun e => absurd ((hc4 m (grid0.coords t) h).mp e) (by decide)) (fun e => absurd ((hc5 m (grid0.coords t) h).mp e) (by decide)) (fun e => absurd ((hc6 m (grid0.coords t) h).mp e) (by decide)) := by
  unfold outAt
  rw [dif_neg (by rw [h]; decide), dif_neg (by rw [h]; decide), dif_pos h]
theorem outAt_3 (c : Dev nD) (t : Fin (cfgM m).N) (h : lit0 (grid0.coords t 0) = 3#32) :
    outAt m c t = out3 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 3 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) ((hc4 m (grid0.coords t) h).mpr (by decide)) (fun e => absurd ((hc5 m (grid0.coords t) h).mp e) (by decide)) (fun e => absurd ((hc6 m (grid0.coords t) h).mp e) (by decide)) := by
  unfold outAt
  rw [dif_neg (by rw [h]; decide), dif_neg (by rw [h]; decide), dif_neg (by rw [h]; decide), dif_pos h]
theorem outAt_4 (c : Dev nD) (t : Fin (cfgM m).N) (h : lit0 (grid0.coords t 0) = 4#32) :
    outAt m c t = out4 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 4 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) ((hc5 m (grid0.coords t) h).mpr (by decide)) (fun e => absurd ((hc6 m (grid0.coords t) h).mp e) (by decide)) := by
  unfold outAt
  rw [dif_neg (by rw [h]; decide), dif_neg (by rw [h]; decide), dif_neg (by rw [h]; decide), dif_neg (by rw [h]; decide), dif_pos h]
theorem outAt_5 (c : Dev nD) (t : Fin (cfgM m).N) (h : lit0 (grid0.coords t 0) = 5#32) :
    outAt m c t = out5 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 5 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) ((hc6 m (grid0.coords t) h).mpr (by decide)) := by
  unfold outAt
  rw [dif_neg (by rw [h]; decide), dif_neg (by rw [h]; decide), dif_neg (by rw [h]; decide), dif_neg (by rw [h]; decide), dif_neg (by rw [h]; decide), dif_pos h]

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = iblk m c 6 t := by dsimp only [dats]; try rfl
theorem after7 (c : Dev nD) (t : Fin (cfgM m).N) : (dats m 0 c).after 7 t = outAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d
theorem before4 (c : Dev nD) (t : Fin (cfgM m).N) (d) : (dats m 0 c).before 4 t d = iblk m c 4 t :=
  before4_of m (dats m 0 c) (A_eq m c 4) (after4 m c) t d
theorem before5 (c : Dev nD) (t : Fin (cfgM m).N) (d) : (dats m 0 c).before 5 t d = iblk m c 5 t :=
  before5_of m (dats m 0 c) (A_eq m c 5) (after5 m c) t d
theorem before6 (c : Dev nD) (t : Fin (cfgM m).N) (d) : (dats m 0 c).before 6 t d = iblk m c 6 t :=
  before6_of m (dats m 0 c) (A_eq m c 6) (after6 m c) t d

/-! ## The body obligation -/

/-- What the output window's buffer is handed back as: the library's statement for a window that may be idle, which for a
    window written back at every tile is `after` either way. -/
def post7 (c : Dev nD) (t : Fin (cfgM m).N) : sProp 𝕄 :=
  match (cfgM m).idle 7 ((cfgM m).grid.coords t) with
  | true =>
    match ((cfgM m).win 7).flush t with
    | false => iprop(∃ d, owns (c : Thread nD τ) (ms7 m t) fullShare ((dats m 0 c).before 7 t d))
    | true => owns (c : Thread nD τ) (ms7 m t) fullShare ((dats m 0 c).after 7 t)
  | false => owns (c : Thread nD τ) (ms7 m t) fullShare ((dats m 0 c).after 7 t)

theorem post7_intro (c : Dev nD) (t : Fin (cfgM m).N) :
    owns (c : Thread nD τ) (ms7 m t) fullShare ((dats m 0 c).after 7 t) ⊢ post7 m c t := by
  unfold post7
  split
  · split
    · rename_i hf; exact absurd (flush7 (adm m) t) (by rw [hf]; decide)
    · exact .rfl
  · exact .rfl

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ post7 m c t)

/-- The body at a tile of order 0. -/
theorem sound_body0 (c : Dev nD) (t : Fin (cfgM m).N) (h : lit0 (grid0.coords t 0) = 0#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 0 t) (iblk m c 6 t) (tbl m 0) (tbl m 1) ((hc1 m (grid0.coords t) h).mpr (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide))).2 Set.univ _)
  isplitl [H0]; · iexact H0
  isplitl [H6]; · iexact H6
  isplitl [H7]; · iexists _; iexact H7
  isplitl [HT0]; · iexact HT0
  isplitl [HT1]; · iexact HT1
  iintro ⟨H0, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_0 m c t h]
  unfold out0
  unfold owns; iexists _; isplitr
  swap; · iexact H7
  ipureintro; exact View.read_writes_of_cover _ _ _ _ _ (cover0 c _ _ _ _ _ _ _ _ _ _ _ _ _ _ _ _ _ _ _ _ _ _ _ _ _ _ _)

/-- The body at a tile of order 1. -/
theorem sound_body1 (c : Dev nD) (t : Fin (cfgM m).N) (h : lit0 (grid0.coords t 0) = 1#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 1 t) (iblk m c 6 t) (tbl m 0) (tbl m 1) (fun e => absurd ((hc1 m (grid0.coords t) h).mp e) (by decide)) ((hc2 m (grid0.coords t) h).mpr (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide))).2 Set.univ _)
  isplitl [H1]; · iexact H1
  isplitl [H6]; · iexact H6
  isplitl [H7]; · iexists _; iexact H7
  isplitl [HT0]; · iexact HT0
  isplitl [HT1]; · iexact HT1
  iintro ⟨H1, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_1 m c t h]
  unfold out1
  unfold owns; iexists _; isplitr
  swap; · iexact H7
  ipureintro; exact View.read_writes_of_cover _ _ _ _ _ (cover1 c _ _ _ _ _ _ _ _ _ _ _ _ _ _ _ _ _ _ _ _ _ _ _ _ _ _ _)

/-- The body at a tile of order 2. -/
theorem sound_body2 (c : Dev nD) (t : Fin (cfgM m).N) (h : lit0 (grid0.coords t 0) = 2#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run2 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 2 t) (iblk m c 6 t) (tbl m 0) (tbl m 1) (fun e => absurd ((hc1 m (grid0.coords t) h).mp e) (by decide)) (fun e => absurd ((hc2 m (grid0.coords t) h).mp e) (by decide)) ((hc3 m (grid0.coords t) h).mpr (by decide)) (fun e => absurd ((hc4 m (grid0.coords t) h).mp e) (by decide)) (fun e => absurd ((hc5 m (grid0.coords t) h).mp e) (by decide)) (fun e => absurd ((hc6 m (grid0.coords t) h).mp e) (by decide))).2 Set.univ _)
  isplitl [H2]; · iexact H2
  isplitl [H6]; · iexact H6
  isplitl [H7]; · iexists _; iexact H7
  isplitl [HT0]; · iexact HT0
  isplitl [HT1]; · iexact HT1
  iintro ⟨H2, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_2 m c t h]
  unfold out2
  unfold owns; iexists _; isplitr
  swap; · iexact H7
  ipureintro; exact View.read_writes_of_cover _ _ _ _ _ (cover2 c _ _ _ _ _ _ _ _ _ _ _ _ _ _ _ _ _ _ _ _ _ _ _ _ _ _ _)

/-- The body at a tile of order 3. -/
theorem sound_body3 (c : Dev nD) (t : Fin (cfgM m).N) (h : lit0 (grid0.coords t 0) = 3#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run3 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 3 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) ((hc4 m (grid0.coords t) h).mpr (by decide)) (fun e => absurd ((hc5 m (grid0.coords t) h).mp e) (by decide)) (fun e => absurd ((hc6 m (grid0.coords t) h).mp e) (by decide))).2 Set.univ _)
  isplitl [H3]; · iexact H3
  isplitl [H6]; · iexact H6
  isplitl [H7]; · iexists _; iexact H7
  isplitl [HT0]; · iexact HT0
  isplitl [HT1]; · iexact HT1
  iintro ⟨H3, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_3 m c t h]
  unfold out3
  unfold owns; iexists _; isplitr
  swap; · iexact H7
  ipureintro; exact View.read_writes_of_cover _ _ _ _ _ (cover3 c _ _ _ _ _ _ _ _ _ _ _ _ _ _ _ _ _ _ _ _ _ _ _ _ _ _ _)

/-- The body at a tile of order 4. -/
theorem sound_body4 (c : Dev nD) (t : Fin (cfgM m).N) (h : lit0 (grid0.coords t 0) = 4#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run4 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 4 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) ((hc5 m (grid0.coords t) h).mpr (by decide)) (fun e => absurd ((hc6 m (grid0.coords t) h).mp e) (by decide))).2 Set.univ _)
  isplitl [H4]; · iexact H4
  isplitl [H6]; · iexact H6
  isplitl [H7]; · iexists _; iexact H7
  isplitl [HT0]; · iexact HT0
  isplitl [HT1]; · iexact HT1
  iintro ⟨H4, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_4 m c t h]
  unfold out4
  unfold owns; iexists _; isplitr
  swap; · iexact H7
  ipureintro; exact View.read_writes_of_cover _ _ _ _ _ (cover4 c _ _ _ _ _ _ _ _ _ _ _ _ _ _ _ _ _ _ _ _ _ _ _ _ _ _ _)

/-- The body at a tile of order 5. -/
theorem sound_body5 (c : Dev nD) (t : Fin (cfgM m).N) (h : lit0 (grid0.coords t 0) = 5#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run5 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 5 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) ((hc6 m (grid0.coords t) h).mpr (by decide))).2 Set.univ _)
  isplitl [H5]; · iexact H5
  isplitl [H6]; · iexact H6
  isplitl [H7]; · iexists _; iexact H7
  isplitl [HT0]; · iexact HT0
  isplitl [HT1]; · iexact HT1
  iintro ⟨H5, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_5 m c t h]
  unfold out5
  unfold owns; iexists _; isplitr
  swap; · iexact H7
  ipureintro; exact View.read_writes_of_cover _ _ _ _ _ (cover5 c _ _ _ _ _ _ _ _ _ _ _ _ _ _ _ _ _ _ _ _ _ _ _ _ _ _ _)

/-- The body at any tile: the tile's order is one of the six. -/
theorem sound_body (c : Dev nD) (t : Fin (cfgM m).N) :
    bodyPre m c t ⊢ wp frame (wpE (defs₀ (F := F)) Variants.none c none) Set.univ (bodyAt m t) (fun _ => bodyPost m c t) := by
  rcases ord_cases (lit0 (grid0.coords t 0)) (order_lt _) with h | h | h | h | h | h
  · exact sound_body0 m c t h
  · exact sound_body1 m c t h
  · exact sound_body2 m c t h
  · exact sound_body3 m c t h
  · exact sound_body4 m c t h
  · exact sound_body5 m c t h

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the library computes from
    the proof data, every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame of `Kernel`, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Tiles

end
-- ==== Proof.AtIdeal.Entry.lean ====
/-
  What the region finds when it is entered, for the program `KernelIdeal`.

  @main is eight host operations and then one pallas_call over a grid of 360 tiles. The first two host operations
  write two constant tables of 360 words each: for tile i, the first table holds the angular order l(i) of the tile
  (l = 0, …, 5; the tiles of order l are the 10·(2l+1) consecutive tiles from 10·l² on) and the second holds the
  tile's position i − 10·l² among the tiles of its order. The other six host operations reshape the six value
  arrays [20000, 2l+1, 128] to [20000·(2l+1), 128]. This module names the buffers' contents after those eight
  operations, reads the two tables back as their literals, and proves the one fact the pipeline needs of the tables:
  at every tile, the block each index map names lies inside its array (for the array of order l: a block of 2000
  rows at position < 10·(2l+1); for the weights: one of the six [128, 256] slices).
-/
import proofs.«161469_j48060684042913_2_alg».proof.Proof.Gen.KernelIdeal.Launch
import proofs.«161469_j48060684042913_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the host operations -/

/-- Core `c`'s buffers when the region is entered: the launch memory after the eight host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.reshape_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.reshape_writes, Finset.mem_singleton]
    repeat' apply And.intro
    all_goals exact StableHlo.devRef_ne_of_ne (by decide)))

/-! ## The two tables -/

/-- The tables' contents when the region is entered (there is one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The first table holds the literal list of the tiles' angular orders. -/
theorem tbl_order (x : S360.Idx) : (tbl m 0 : S360.Idx → BitVec 32) x = lit0 (S360.rowMajor x) := by
  unfold tbl; show V m 0 main_c x = _; unfold V; after_results

/-- The second table holds the literal list of the tiles' positions within their order. -/
theorem tbl_pos (x : S360.Idx) : (tbl m 1 : S360.Idx → BitVec 32) x = lit1 (S360.rowMajor x) := by
  unfold tbl; show V m 0 main_c_0 x = _; unfold V; after_results

/-- The one index of a one-word rectangle at offset `n` of a 360-word table is position `n`. -/
theorem rowMajor_unit (n : Fin 360) (off : Fin 1 → Nat) (hoff : off 0 = n.val) (inb : ∀ a, off a + S1.size a ≤ S360.size a)
    (h1 : 0 < S1.numel) : S360.rowMajor ((Rect.unit (s := S360) off S1.size inb).idx (Shape.Idx.first h1)) = n := by
  apply Fin.ext
  rw [Shape.rowMajor_val_one]
  show off 0 + 1 * (Shape.Idx.first h1 (0 : Fin 1)).val = n.val
  have : (Shape.Idx.first h1 (0 : Fin 1)).val = 0 := by
    have := (Shape.Idx.first h1 (0 : Fin 1)).isLt
    have e : S1.size (0 : Fin 1) = 1 := by decide
    omega
  rw [this, hoff]; omega

/-- The word an index map reads from the first table at tile `i` is the tile's order. -/
theorem at_order (i : grid0.Coords) (inb : ∀ a, (k0_off1 i) a + S1.size a ≤ S360.size a) (h1 : S1.numel = 1) :
    (tbl m).at 0 (Rect.unit (s := S360) (k0_off1 i) S1.size inb) h1 = lit0 (i 0) :=
  (tbl_order m _).trans (congrArg lit0 (rowMajor_unit (i 0) _ (congrFun (k0_off1_eq i) 0) inb _))

/-- The word an index map reads from the second table at tile `i` is the tile's position within its order. -/
theorem at_pos (i : grid0.Coords) (inb : ∀ a, (k0_off1 i) a + S1.size a ≤ S360.size a) (h1 : S1.numel = 1) :
    (tbl m).at 1 (Rect.unit (s := S360) (k0_off1 i) S1.size inb) h1 = lit1 (i 0) :=
  (tbl_pos m _).trans (congrArg lit1 (rowMajor_unit (i 0) _ (congrFun (k0_off1_eq i) 0) inb _))

/-! ## Every block the tables name is inside its array -/

/-- Tile by tile over the literal tables: the position of a tile of order l is below 10·(2l+1), and at a tile of
    another order the map of order l names block 0; the order itself is below 6. -/
theorem pos_lt0 : ∀ n : Fin 360, (Scalar.select (Scalar.cmpi .eq (lit0 n) 0#32) (lit1 n) 0#32).toNat < 10 := by decide +kernel
theorem pos_lt1 : ∀ n : Fin 360, (Scalar.select (Scalar.cmpi .eq (lit0 n) 1#32) (lit1 n) 0#32).toNat < 30 := by decide +kernel
theorem pos_lt2 : ∀ n : Fin 360, (Scalar.select (Scalar.cmpi .eq (lit0 n) 2#32) (lit1 n) 0#32).toNat < 50 := by decide +kernel
theorem pos_lt3 : ∀ n : Fin 360, (Scalar.select (Scalar.cmpi .eq (lit0 n) 3#32) (lit1 n) 0#32).toNat < 70 := by decide +kernel
theorem pos_lt4 : ∀ n : Fin 360, (Scalar.select (Scalar.cmpi .eq (lit0 n) 4#32) (lit1 n) 0#32).toNat < 90 := by decide +kernel
theorem pos_lt5 : ∀ n : Fin 360, (Scalar.select (Scalar.cmpi .eq (lit0 n) 5#32) (lit1 n) 0#32).toNat < 110 := by decide +kernel
theorem order_lt : ∀ n : Fin 360, (lit0 n).toNat < 6 := by decide +kernel

/-- The block index the map of order `l` computes at tile `i`, read off the tables the region holds, is bounded as the
    literal tables say. -/
theorem sel_lt (l : BitVec 32) (N : Nat) (h : ∀ n : Fin 360, (Scalar.select (Scalar.cmpi .eq (lit0 n) l) (lit1 n) 0#32).toNat < N)
    (i : grid0.Coords) (inb : ∀ a, (k0_off1 i) a + S1.size a ≤ S360.size a) (h1 : S1.numel = 1) :
    (Scalar.select (Scalar.cmpi .eq ((tbl m).at 0 (Rect.unit (s := S360) (k0_off1 i) S1.size inb) h1) l)
      ((tbl m).at 1 (Rect.unit (s := S360) (k0_off1 i) S1.size inb) h1) 0#32).toNat < N := by
  rw [at_order, at_pos]; exact h (i 0)

theorem ord_lt (i : grid0.Coords) (inb : ∀ a, (k0_off1 i) a + S1.size a ≤ S360.size a) (h1 : S1.numel = 1) :
    ((tbl m).at 0 (Rect.unit (s := S360) (k0_off1 i) S1.size inb) h1).toNat < 6 := by
  rw [at_order]; exact order_lt (i 0)

/-- The pipeline's side condition of the tables. -/
abbrev Ok : Prop := ok0 (F := F) (tbl m)

theorem ok : Ok m := by
  refine ⟨fun i => ?_, fun i => ?_, fun i => ?_, fun i => ?_, fun i => ?_, fun i => ?_, fun i => ?_⟩
  · obtain ⟨w, hw, e⟩ : ∃ w : BitVec 32, w.toNat < 10 ∧ cc0_transform_0 k0_off1_inb numel1_S1 (tbl m) i = ![w.toNat, 0] :=
      ⟨_, sel_lt m 0#32 10 pos_lt0 i _ _, rfl⟩
    refine ⟨fun a => ?_, Or.inl rfl⟩
    rw [e]; fin_cases a <;> simp [S2000x128, S20000x128] <;> omega
  · obtain ⟨w, hw, e⟩ : ∃ w : BitVec 32, w.toNat < 30 ∧ cc0_transform_1 k0_off1_inb numel1_S1 (tbl m) i = ![w.toNat, 0] :=
      ⟨_, sel_lt m 1#32 30 pos_lt1 i _ _, rfl⟩
    refine ⟨fun a => ?_, Or.inl rfl⟩
    rw [e]; fin_cases a <;> simp [S2000x128, S60000x128] <;> omega
  · obtain ⟨w, hw, e⟩ : ∃ w : BitVec 32, w.toNat < 50 ∧ cc0_transform_2 k0_off1_inb numel1_S1 (tbl m) i = ![w.toNat, 0] :=
      ⟨_, sel_lt m 2#32 50 pos_lt2 i _ _, rfl⟩
    refine ⟨fun a => ?_, Or.inl rfl⟩
    rw [e]; fin_cases a <;> simp [S2000x128, S100000x128] <;> omega
  · obtain ⟨w, hw, e⟩ : ∃ w : BitVec 32, w.toNat < 70 ∧ cc0_transform_3 k0_off1_inb numel1_S1 (tbl m) i = ![w.toNat, 0] :=
      ⟨_, sel_lt m 3#32 70 pos_lt3 i _ _, rfl⟩
    refine ⟨fun a => ?_, Or.inl rfl⟩
    rw [e]; fin_cases a <;> simp [S2000x128, S140000x128] <;> omega
  · obtain ⟨w, hw, e⟩ : ∃ w : BitVec 32, w.toNat < 90 ∧ cc0_transform_4 k0_off1_inb numel1_S1 (tbl m) i = ![w.toNat, 0] :=
      ⟨_, sel_lt m 4#32 90 pos_lt4 i _ _, rfl⟩
    refine ⟨fun a => ?_, Or.inl rfl⟩
    rw [e]; fin_cases a <;> simp [S2000x128, S180000x128] <;> omega
  · obtain ⟨w, hw, e⟩ : ∃ w : BitVec 32, w.toNat < 110 ∧ cc0_transform_5 k0_off1_inb numel1_S1 (tbl m) i = ![w.toNat, 0] :=
      ⟨_, sel_lt m 5#32 110 pos_lt5 i _ _, rfl⟩
    refine ⟨fun a => ?_, Or.inl rfl⟩
    rw [e]; fin_cases a <;> simp [S2000x128, S220000x128] <;> omega
  · obtain ⟨w, hw, e⟩ : ∃ w : BitVec 32, w.toNat < 6 ∧ cc0_transform_6 k0_off1_inb numel1_S1 (tbl m) i = ![w.toNat, 0, 0] :=
      ⟨_, ord_lt m i _ _, rfl⟩
    refine ⟨fun a => ?_, Or.inl rfl⟩
    rw [e]; fin_cases a <;> simp [S1x128x256, S6x128x256] <;> omega

/-- The tables as admissible contents, and the pipeline at them. -/
abbrev adm : (pcfg0 (F := F)).Adm := ⟨tbl m, ok m⟩
abbrev cfgM : Pipeline.Cfg sig Λ₀ := cfg0 (adm m)

end Cert.KernelIdeal.Tiles

end
-- ==== Proof.AtIdeal.Blocks.lean ====
/-
  The blocks of the pallas_call of `KernelIdeal`: what the body is handed at a tile and what the frame needs of it.

  At tile t the pipeline hands the body one staging buffer per window — six value windows of 2000 × 128, the weight
  window 1 × 128 × 256, the output window 2000 × 256 — and the two tables, read-only. A value window holds the
  block of 2000 rows of its array that its index map names at t, the weight window the slice of the tile's order;
  the body never writes them. The output's block index is the tile number itself, so the output block is written
  back after every tile. Here: the tables as the body holds them, each window's block at a tile as a function of
  the region-entry arrays, that an input window's buffer holds that block at every tile, and how the frame claim's
  post follows from the library's run.
-/
import proofs.«161469_j48060684042913_2_alg».proof.Proof.AtIdeal.Entry

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables as the body holds them -/

abbrev tbM0 : Memref sig .tc .smem S360 .i32 := Memref.whole main_c
abbrev htbM0 : tbM0.IsWhole := Memref.isWhole_whole _
abbrev tbM1 : Memref sig .tc .smem S360 .i32 := Memref.whole main_c_0
abbrev htbM1 : tbM1.IsWhole := Memref.isWhole_whole _

/-- A table's buffer on core `c`: its contents type, and the buffer held at half the full share (the pipeline
    keeps the other half: the body may read the table, nothing may write it). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at tile `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every tile, fetched there or not. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every tile, fetched there or not. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every tile, fetched there or not. -/
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every tile, fetched there or not. -/
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every tile, fetched there or not. -/
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every tile, fetched there or not. -/
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every tile, fetched there or not. -/
theorem before6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The output window is written back after every tile, whatever the tables hold (its index map reads none). -/
theorem flush7 (a : (pcfg0 (F := F)).Adm) : ∀ t : Fin (cfg0 a).N, ((cfg0 a).win 7).flush t = true :=
  (by decide +kernel : ∀ t : Fin grid0.N, Pipeline.Window.flushOf grid0 true cc0_transform_7 t = true)

/-! ## The staging memrefs and the body at a tile -/

abbrev ms0 (t : Fin (cfgM m).N) : Memref sig .tc .vmem S2000x128 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S2000x128 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2000x128 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2000x128 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S2000x128 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S2000x128 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x128x256 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S2000x256 .f32 := spec0_7.stage ((cfgM m).slots t 7)
abbrev hs7 (t : Fin (cfgM m).N) : (ms7 m t).IsWhole := hstage0_7 (((cfgM m).slots t 7).cast nbuf0_7)

/-- The kernel body at tile `t`, on what the pipeline calls it with. -/
abbrev bodyAt (t : Fin (cfgM m).N) : Prog (TpuEff nD τ sig (Elt F) Λ₀ .tc) PUnit :=
  cc0__fused_kernel (grid0.coords t) tbM0 htbM0 tbM1 htbM1 (ms0 m t) (hs0 m t) (ms1 m t) (hs1 m t) (ms2 m t) (hs2 m t) (ms3 m t) (hs3 m t)
    (ms4 m t) (hs4 m t) (ms5 m t) (hs5 m t) (ms6 m t) (hs6 m t) (ms7 m t) (hs7 m t)

/-! ## The frame claim's post from the library's run -/

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 6).trans (((dats 0 c).arrAt_in 6 rfl _).trans ((hA c 6).trans (V_main_arg6 m c)))⟩) h

end Cert.KernelIdeal.Tiles

end
-- ==== Proof.AtIdeal.Case0.lean ====
/-
  The kernel body of `KernelIdeal` at a tile of angular order 0.
-/
import proofs.«161469_j48060684042913_2_alg».proof.Proof.AtIdeal.Blocks

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 0: only the branch of order 0 runs. It loads the weight slice and the
    first value block, multiplies them on the matrix unit into a zero accumulator and stores the product over the whole
    output block; the other five value buffers are not touched. The witness is the list of stores the output buffer ends with. -/
noncomputable def run0 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : (k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg3 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg3 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg3.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [HW]
    · iexists _; isplitr; · ipureintro; exact harg9.read_unread _
      iexact HW
    isplitl [H1]; · iexists _; iexact H1
    isplitl [HT0]; · iexact HT0
    iexact HT1

end Cert.KernelIdeal.Tiles

end
-- ==== Proof.AtIdeal.Case1.lean ====
/-
  The kernel body of `KernelIdeal` at a tile of angular order 1.
-/
import proofs.«161469_j48060684042913_2_alg».proof.Proof.AtIdeal.Blocks

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 1: only the branch of order 1 runs. It loads the weight slice and the
    order-1 value block, multiplies them on the matrix unit into a zero accumulator and stores the product over the whole
    output block; the other five value buffers are not touched. The witness is the list of stores the output buffer ends with. -/
noncomputable def run1 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : (k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg4 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg4 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg4.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg4.read_unread _
      iexact H0
    isplitl [HW]
    · iexists _; isplitr; · ipureintro; exact harg9.read_unread _
      iexact HW
    isplitl [H1]; · iexists _; iexact H1
    isplitl [HT0]; · iexact HT0
    iexact HT1

end Cert.KernelIdeal.Tiles

end
-- ==== Proof.AtIdeal.Case2.lean ====
/-
  The kernel body of `KernelIdeal` at a tile of angular order 2.
-/
import proofs.«161469_j48060684042913_2_alg».proof.Proof.AtIdeal.Blocks

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 2: only the branch of order 2 runs. It loads the weight slice and the
    order-2 value block, multiplies them on the matrix unit into a zero accumulator and stores the product over the whole
    output block; the other five value buffers are not touched. The witness is the list of stores the output buffer ends with. -/
noncomputable def run2 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : (k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg5 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg5 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg5.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg5.read_unread _
      iexact H0
    isplitl [HW]
    · iexists _; isplitr; · ipureintro; exact harg9.read_unread _
      iexact HW
    isplitl [H1]; · iexists _; iexact H1
    isplitl [HT0]; · iexact HT0
    iexact HT1

end Cert.KernelIdeal.Tiles

end
-- ==== Proof.AtIdeal.Case3.lean ====
/-
  The kernel body of `KernelIdeal` at a tile of angular order 3.
-/
import proofs.«161469_j48060684042913_2_alg».proof.Proof.AtIdeal.Blocks

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 3: only the branch of order 3 runs. It loads the weight slice and the
    order-3 value block, multiplies them on the matrix unit into a zero accumulator and stores the product over the whole
    output block; the other five value buffers are not touched. The witness is the list of stores the output buffer ends with. -/
noncomputable def run3 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : (k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg6 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg6 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg6.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg6.read_unread _
      iexact H0
    isplitl [HW]
    · iexists _; isplitr; · ipureintro; exact harg9.read_unread _
      iexact HW
    isplitl [H1]; · iexists _; iexact H1
    isplitl [HT0]; · iexact HT0
    iexact HT1

end Cert.KernelIdeal.Tiles

end
-- ==== Proof.AtIdeal.Case4.lean ====
/-
  The kernel body of `KernelIdeal` at a tile of angular order 4.
-/
import proofs.«161469_j48060684042913_2_alg».proof.Proof.AtIdeal.Blocks

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 4: only the branch of order 4 runs. It loads the weight slice and the
    order-4 value block, multiplies them on the matrix unit into a zero accumulator and stores the product over the whole
    output block; the other five value buffers are not touched. The witness is the list of stores the output buffer ends with. -/
noncomputable def run4 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : (k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg7 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg7 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg7.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg7.read_unread _
      iexact H0
    isplitl [HW]
    · iexists _; isplitr; · ipureintro; exact harg9.read_unread _
      iexact HW
    isplitl [H1]; · iexists _; iexact H1
    isplitl [HT0]; · iexact HT0
    iexact HT1

end Cert.KernelIdeal.Tiles

end
-- ==== Proof.AtIdeal.Case5.lean ====
/-
  The kernel body of `KernelIdeal` at a tile of angular order 5.
-/
import proofs.«161469_j48060684042913_2_alg».proof.Proof.AtIdeal.Blocks

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a tile whose table word says order 5: only the branch of order 5 runs. It loads the weight slice and the
    order-5 value block, multiplies them on the matrix unit into a zero accumulator and stores the product over the whole
    output block; the other five value buffers are not touched. The witness is the list of stores the output buffer ends with. -/
noncomputable def run5 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : (k0_cond6 (tbM0.view.readAt (Elt F) (Rect.unit (s := S360) (k0_off1 i) S1.size (k0_off1_inb i)).toLoadRect xt0 (Shape.Idx.first (numel1_S1.symm ▸ Nat.one_pos))) = 1#1)) :
    { L : List (View.Piece (Elt F) S2000x256 .f32) //
      ∀ (E : Set ℕ) (K : PUnit → sProp 𝕄),
        iprop(owns (c : Thread nD τ) arg8 fullShare x ∗ owns (c : Thread nD τ) arg9 fullShare xw ∗ (∃ d, owns (c : Thread nD τ) arg10 fullShare d) ∗ tbPt c tbM0 xt0 ∗ tbPt c tbM1 xt1
            ∗ (iprop(owns (c : Thread nD τ) arg8 fullShare x ∗ owns (c : Thread nD τ) arg9 fullShare xw ∗ (∃ f, arg10.view.loc (c : Thread nD τ) ↦[arg10.view.set]{fullShare} arg10.view.writes (Elt F) f L) ∗ tbPt c tbM0 xt0 ∗ tbPt c tbM1 xt1) -∗ K ⟨⟩))
          ⊢ wp frame (wpE (defs₀ (F := F)) Variants.none c none) E (cc0__fused_kernel i tbM0 htbM0 tbM1 htbM1 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%fw, %hfw, HW⟩, ⟨%d1, %f1, -, H1⟩, HT0, HT1, Hk⟩
    obtain rfl := harg8.eq_unread hf0
    obtain rfl := harg9.eq_unread hfw
    sl_exec (disch := first | sl_exact hc1 | sl_exact hc2 | sl_exact hc3 | sl_exact hc4 | sl_exact hc5 | sl_exact hc6)
    sl_step
    iapply Hk
    isplitl [H0]
    · iexists _; isplitr; · ipureintro; exact harg8.read_unread _
      iexact H0
    isplitl [HW]
    · iexists _; isplitr; · ipureintro; exact harg9.read_unread _
      iexact HW
    isplitl [H1]; · iexists _; iexact H1
    isplitl [HT0]; · iexact HT0
    iexact HT1

end Cert.KernelIdeal.Tiles

end
-- ==== Proof.AtIdeal.Frame.lean ====
/-
  The frame of `KernelIdeal`: every tile's body runs, and the run of @main leaves the argument arrays as they were.

  At tile t the first table's word is the tile's angular order l (one of 0, …, 5, by the literal table), so exactly
  the branch of order l runs (Case0 … Case5) and leaves in the output's staging buffer the product of the order-l
  value block with the weight slice of order l; the output block is written back after every tile. The proof data
  names what each window's buffer holds after the body — an input window its block, the output window that product —
  and the library's frame run for a pipeline with prefetched tables does the rest.
-/
import proofs.«161469_j48060684042913_2_alg».proof.Proof.AtIdeal.Case0
import proofs.«161469_j48060684042913_2_alg».proof.Proof.AtIdeal.Case1
import proofs.«161469_j48060684042913_2_alg».proof.Proof.AtIdeal.Case2
import proofs.«161469_j48060684042913_2_alg».proof.Proof.AtIdeal.Case3
import proofs.«161469_j48060684042913_2_alg».proof.Proof.AtIdeal.Case4
import proofs.«161469_j48060684042913_2_alg».proof.Proof.AtIdeal.Case5

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The word the body loads is the tile's order -/

/-- The word the body loads from the first table at tile `i` is the tile's order in the literal table. -/
theorem word_eq (i : grid0.Coords) : (tbM0.view.readAt (Elt F) (Rect.unit (s := S360) (k0_off1 i) S1.size (k0_off1_inb i)).toLoadRect (tbl m 0) (Shape.Idx.first (numel1_S1.symm ▸ Nat.one_pos))) = lit0 (i 0) :=
  (tbl_order m _).trans (congrArg lit0 (rowMajor_unit (i 0) _ (congrFun (k0_off1_eq i) 0) _ _))

theorem hc1 (i : grid0.Coords) {v : BitVec 32} (h : lit0 (i 0) = v) : k0_cond1 (tbM0.view.readAt (Elt F) (Rect.unit (s := S360) (k0_off1 i) S1.size (k0_off1_inb i)).toLoadRect (tbl m 0) (Shape.Idx.first (numel1_S1.symm ▸ Nat.one_pos))) = 1#1 ↔ k0_cond1 v = 1#1 := by
  rw [word_eq m i, h]
theorem hc2 (i : grid0.Coords) {v : BitVec 32} (h : lit0 (i 0) = v) : k0_cond2 (tbM0.view.readAt (Elt F) (Rect.unit (s := S360) (k0_off1 i) S1.size (k0_off1_inb i)).toLoadRect (tbl m 0) (Shape.Idx.first (numel1_S1.symm ▸ Nat.one_pos))) = 1#1 ↔ k0_cond2 v = 1#1 := by
  rw [word_eq m i, h]
theorem hc3 (i : grid0.Coords) {v : BitVec 32} (h : lit0 (i 0) = v) : k0_cond3 (tbM0.view.readAt (Elt F) (Rect.unit (s := S360) (k0_off1 i) S1.size (k0_off1_inb i)).toLoadRect (tbl m 0) (Shape.Idx.first (numel1_S1.symm ▸ Nat.one_pos))) = 1#1 ↔ k0_cond3 v = 1#1 := by
  rw [word_eq m i, h]
theorem hc4 (i : grid0.Coords) {v : BitVec 32} (h : lit0 (i 0) = v) : k0_cond4 (tbM0.view.readAt (Elt F) (Rect.unit (s := S360) (k0_off1 i) S1.size (k0_off1_inb i)).toLoadRect (tbl m 0) (Shape.Idx.first (numel1_S1.symm ▸ Nat.one_pos))) = 1#1 ↔ k0_cond4 v = 1#1 := by
  rw [word_eq m i, h]
theorem hc5 (i : grid0.Coords) {v : BitVec 32} (h : lit0 (i 0) = v) : k0_cond5 (tbM0.view.readAt (Elt F) (Rect.unit (s := S360) (k0_off1 i) S1.size (k0_off1_inb i)).toLoadRect (tbl m 0) (Shape.Idx.first (numel1_S1.symm ▸ Nat.one_pos))) = 1#1 ↔ k0_cond5 v = 1#1 := by
  rw [word_eq m i, h]
theorem hc6 (i : grid0.Coords) {v : BitVec 32} (h : lit0 (i 0) = v) : k0_cond6 (tbM0.view.readAt (Elt F) (Rect.unit (s := S360) (k0_off1 i) S1.size (k0_off1_inb i)).toLoadRect (tbl m 0) (Shape.Idx.first (numel1_S1.symm ▸ Nat.one_pos))) = 1#1 ↔ k0_cond6 v = 1#1 := by
  rw [word_eq m i, h]

/-- A word below 6 is one of the six orders. -/
theorem ord_cases (v : BitVec 32) (h : v.toNat < 6) : v = 0#32 ∨ v = 1#32 ∨ v = 2#32 ∨ v = 3#32 ∨ v = 4#32 ∨ v = 5#32 := by
  have h' : v.toNat = 0 ∨ v.toNat = 1 ∨ v.toNat = 2 ∨ v.toNat = 3 ∨ v.toNat = 4 ∨ v.toNat = 5 := by omega
  rcases h' with h | h | h | h | h | h
  · exact .inl (BitVec.eq_of_toNat_eq (by rw [h]; rfl))
  · exact .inr (.inl (BitVec.eq_of_toNat_eq (by rw [h]; rfl)))
  · exact .inr (.inr (.inl (BitVec.eq_of_toNat_eq (by rw [h]; rfl))))
  · exact .inr (.inr (.inr (.inl (BitVec.eq_of_toNat_eq (by rw [h]; rfl)))))
  · exact .inr (.inr (.inr (.inr (.inl (BitVec.eq_of_toNat_eq (by rw [h]; rfl))))))
  · exact .inr (.inr (.inr (.inr (.inr (BitVec.eq_of_toNat_eq (by rw [h]; rfl))))))

/-! ## What each case leaves in the output's staging buffer -/

/-- One staging buffer of the output window, through which its contents are stated (the choice does not matter). -/
abbrev VO : View sig .tc .vmem S2000x256 .f32 := (Memref.whole cc0_stg7_0 : Memref sig .tc .vmem S2000x256 .f32).view

/-- The one store of case 0 covers the whole output block. -/
theorem cover0 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : (k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run0 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run0 c i arg3 harg3 arg4 harg4 arg5 harg5 arg6 harg6 arg7 harg7 arg8 harg8 arg9 harg9 arg10 harg10 x xw xt0 xt1 hc1 hc2 hc3 hc4 hc5 hc6).1 (by sl_whole_mem) y

/-- What case 0 leaves in the output's staging buffer: its stores read back. -/
def out0 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : (k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run0 c i arg3 harg3 arg4 harg4 arg5 harg5 arg6 harg6 arg7 harg7 arg8 harg8 arg9 harg9 arg10 harg10 x xw xt0 xt1 hc1 hc2 hc3 hc4 hc5 hc6).1)

/-- The one store of case 1 covers the whole output block. -/
theorem cover1 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : (k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run1 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run1 c i arg3 harg3 arg4 harg4 arg5 harg5 arg6 harg6 arg7 harg7 arg8 harg8 arg9 harg9 arg10 harg10 x xw xt0 xt1 hc1 hc2 hc3 hc4 hc5 hc6).1 (by sl_whole_mem) y

/-- What case 1 leaves in the output's staging buffer: its stores read back. -/
def out1 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : (k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run1 c i arg3 harg3 arg4 harg4 arg5 harg5 arg6 harg6 arg7 harg7 arg8 harg8 arg9 harg9 arg10 harg10 x xw xt0 xt1 hc1 hc2 hc3 hc4 hc5 hc6).1)

/-- The one store of case 2 covers the whole output block. -/
theorem cover2 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : (k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run2 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run2 c i arg3 harg3 arg4 harg4 arg5 harg5 arg6 harg6 arg7 harg7 arg8 harg8 arg9 harg9 arg10 harg10 x xw xt0 xt1 hc1 hc2 hc3 hc4 hc5 hc6).1 (by sl_whole_mem) y

/-- What case 2 leaves in the output's staging buffer: its stores read back. -/
def out2 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : (k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run2 c i arg3 harg3 arg4 harg4 arg5 harg5 arg6 harg6 arg7 harg7 arg8 harg8 arg9 harg9 arg10 harg10 x xw xt0 xt1 hc1 hc2 hc3 hc4 hc5 hc6).1)

/-- The one store of case 3 covers the whole output block. -/
theorem cover3 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : (k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run3 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run3 c i arg3 harg3 arg4 harg4 arg5 harg5 arg6 harg6 arg7 harg7 arg8 harg8 arg9 harg9 arg10 harg10 x xw xt0 xt1 hc1 hc2 hc3 hc4 hc5 hc6).1 (by sl_whole_mem) y

/-- What case 3 leaves in the output's staging buffer: its stores read back. -/
def out3 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : (k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run3 c i arg3 harg3 arg4 harg4 arg5 harg5 arg6 harg6 arg7 harg7 arg8 harg8 arg9 harg9 arg10 harg10 x xw xt0 xt1 hc1 hc2 hc3 hc4 hc5 hc6).1)

/-- The one store of case 4 covers the whole output block. -/
theorem cover4 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : (k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run4 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run4 c i arg3 harg3 arg4 harg4 arg5 harg5 arg6 harg6 arg7 harg7 arg8 harg8 arg9 harg9 arg10 harg10 x xw xt0 xt1 hc1 hc2 hc3 hc4 hc5 hc6).1 (by sl_whole_mem) y

/-- What case 4 leaves in the output's staging buffer: its stores read back. -/
def out4 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : (k0_cond5 (tbM0.view.readAt (Elt F) (Rect.unit (s := S360) (k0_off1 i) S1.size (k0_off1_inb i)).toLoadRect xt0 (Shape.Idx.first (numel1_S1.symm ▸ Nat.one_pos))) = 1#1)) (hc6 : ¬(k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run4 c i arg3 harg3 arg4 harg4 arg5 harg5 arg6 harg6 arg7 harg7 arg8 harg8 arg9 harg9 arg10 harg10 x xw xt0 xt1 hc1 hc2 hc3 hc4 hc5 hc6).1)

/-- The one store of case 5 covers the whole output block. -/
theorem cover5 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : (k0_cond6 (tbM0.view.readAt (Elt F) (Rect.unit (s := S360) (k0_off1 i) S1.size (k0_off1_inb i)).toLoadRect xt0 (Shape.Idx.first (numel1_S1.symm ▸ Nat.one_pos))) = 1#1)) (y : S2000x256.Idx) :
    ∃ pc ∈ (run5 c i arg3 harg3 arg4 harg4 arg5 harg5 arg6 harg6 arg7 harg7 arg8 harg8 arg9 harg9 arg10 harg10 x xw xt0 xt1 hc1 hc2 hc3 hc4 hc5 hc6).1, y ∈ pc.1.set :=
  View.cover_of_wholeMem (run5 c i arg3 harg3 arg4 harg4 arg5 harg5 arg6 harg6 arg7 harg7 arg8 harg8 arg9 harg9 arg10 harg10 x xw xt0 xt1 hc1 hc2 hc3 hc4 hc5 hc6).1 (by sl_whole_mem) y

/-- What case 5 leaves in the output's staging buffer: its stores read back. -/
def out5 (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec F S2000x128 .f32) (xw : Vec F S1x128x256 .f32) (xt0 : TbBuf (F := F) c tbM0) (xt1 : TbBuf (F := F) c tbM1)
    (hc1 : ¬(k0_cond1 (tbM0.view.readAt (Elt F) (Rect.unit (s := S360) (k0_off1 i) S1.size (k0_off1_inb i)).toLoadRect xt0 (Shape.Idx.first (numel1_S1.symm ▸ Nat.one_pos))) = 1#1)) (hc2 : ¬(k0_cond2 (tbM0.view.readAt (Elt F) (Rect.unit (s := S360) (k0_off1 i) S1.size (k0_off1_inb i)).toLoadRect xt0 (Shape.Idx.first (numel1_S1.symm ▸ Nat.one_pos))) = 1#1)) (hc3 : ¬(k0_cond3 (tbM0.view.readAt (Elt F) (Rect.unit (s := S360) (k0_off1 i) S1.size (k0_off1_inb i)).toLoadRect xt0 (Shape.Idx.first (numel1_S1.symm ▸ Nat.one_pos))) = 1#1)) (hc4 : ¬(k0_cond4 (tbM0.view.readAt (Elt F) (Rect.unit (s := S360) (k0_off1 i) S1.size (k0_off1_inb i)).toLoadRect xt0 (Shape.Idx.first (numel1_S1.symm ▸ Nat.one_pos))) = 1#1)) (hc5 : ¬(k0_cond5 (tbM0.view.readAt (Elt F) (Rect.unit (s := S360) (k0_off1 i) S1.size (k0_off1_inb i)).toLoadRect xt0 (Shape.Idx.first (numel1_S1.symm ▸ Nat.one_pos))) = 1#1)) (hc6 : (k0_cond6 (tbM0.view.readAt (Elt F) (Rect.unit (s := S360) (k0_off1 i) S1.size (k0_off1_inb i)).toLoadRect xt0 (Shape.Idx.first (numel1_S1.symm ▸ Nat.one_pos))) = 1#1)) : Vec F S2000x256 .f32 :=
  VO.read (Elt F) (VO.writes (Elt F) VO.junk (run5 c i arg3 harg3 arg4 harg4 arg5 harg5 arg6 harg6 arg7 harg7 arg8 harg8 arg9 harg9 arg10 harg10 x xw xt0 xt1 hc1 hc2 hc3 hc4 hc5 hc6).1)

/-- What the output's staging buffer holds after the body at tile `t`: the case of the tile's order, at the tile's blocks. -/
def outAt (c : Dev nD) (t : Fin (cfgM m).N) : Vec F S2000x256 .f32 :=
  if h0 : lit0 (grid0.coords t 0) = 0#32 then
    out0 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 0 t) (iblk m c 6 t) (tbl m 0) (tbl m 1) ((hc1 m (grid0.coords t) h0).mpr (by decide)) (fun e => absurd ((hc2 m (grid0.coords t) h0).mp e) (by decide)) (fun e => absurd ((hc3 m (grid0.coords t) h0).mp e) (by decide)) (fun e => absurd ((hc4 m (grid0.coords t) h0).mp e) (by decide)) (fun e => absurd ((hc5 m (grid0.coords t) h0).mp e) (by decide)) (fun e => absurd ((hc6 m (grid0.coords t) h0).mp e) (by decide))
  else if h1 : lit0 (grid0.coords t 0) = 1#32 then
    out1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 1 t) (iblk m c 6 t) (tbl m 0) (tbl m 1) (fun e => absurd ((hc1 m (grid0.coords t) h1).mp e) (by decide)) ((hc2 m (grid0.coords t) h1).mpr (by decide)) (fun e => absurd ((hc3 m (grid0.coords t) h1).mp e) (by decide)) (fun e => absurd ((hc4 m (grid0.coords t) h1).mp e) (by decide)) (fun e => absurd ((hc5 m (grid0.coords t) h1).mp e) (by decide)) (fun e => absurd ((hc6 m (grid0.coords t) h1).mp e) (by decide))
  else if h2 : lit0 (grid0.coords t 0) = 2#32 then
    out2 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 2 t) (iblk m c 6 t) (tbl m 0) (tbl m 1) (fun e => absurd ((hc1 m (grid0.coords t) h2).mp e) (by decide)) (fun e => absurd ((hc2 m (grid0.coords t) h2).mp e) (by decide)) ((hc3 m (grid0.coords t) h2).mpr (by decide)) (fun e => absurd ((hc4 m (grid0.coords t) h2).mp e) (by decide)) (fun e => absurd ((hc5 m (grid0.coords t) h2).mp e) (by decide)) (fun e => absurd ((hc6 m (grid0.coords t) h2).mp e) (by decide))
  else if h3 : lit0 (grid0.coords t 0) = 3#32 then
    out3 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 3 t) (iblk m c 6 t) (tbl m 0) (tbl m 1) (fun e => absurd ((hc1 m (grid0.coords t) h3).mp e) (by decide)) (fun e => absurd ((hc2 m (grid0.coords t) h3).mp e) (by decide)) (fun e => absurd ((hc3 m (grid0.coords t) h3).mp e) (by decide)) ((hc4 m (grid0.coords t) h3).mpr (by decide)) (fun e => absurd ((hc5 m (grid0.coords t) h3).mp e) (by decide)) (fun e => absurd ((hc6 m (grid0.coords t) h3).mp e) (by decide))
  else if h4 : lit0 (grid0.coords t 0) = 4#32 then
    out4 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 4 t) (iblk m c 6 t) (tbl m 0) (tbl m 1) (fun e => absurd ((hc1 m (grid0.coords t) h4).mp e) (by decide)) (fun e => absurd ((hc2 m (grid0.coords t) h4).mp e) (by decide)) (fun e => absurd ((hc3 m (grid0.coords t) h4).mp e) (by decide)) (fun e => absurd ((hc4 m (grid0.coords t) h4).mp e) (by decide)) ((hc5 m (grid0.coords t) h4).mpr (by decide)) (fun e => absurd ((hc6 m (grid0.coords t) h4).mp e) (by decide))
  else if h5 : lit0 (grid0.coords t 0) = 5#32 then
    out5 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 5 t) (iblk m c 6 t) (tbl m 0) (tbl m 1) (fun e => absurd ((hc1 m (grid0.coords t) h5).mp e) (by decide)) (fun e => absurd ((hc2 m (grid0.coords t) h5).mp e) (by decide)) (fun e => absurd ((hc3 m (grid0.coords t) h5).mp e) (by decide)) (fun e => absurd ((hc4 m (grid0.coords t) h5).mp e) (by decide)) (fun e => absurd ((hc5 m (grid0.coords t) h5).mp e) (by decide)) ((hc6 m (grid0.coords t) h5).mpr (by decide))
  else VO.read (Elt F) VO.junk

theorem outAt_0 (c : Dev nD) (t : Fin (cfgM m).N) (h : lit0 (grid0.coords t 0) = 0#32) :
    outAt m c t = out0 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 0 t) (iblk m c 6 t) (tbl m 0) (tbl m 1) ((hc1 m (grid0.coords t) h).mpr (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide)) := by
  unfold outAt
  rw [dif_pos h]
theorem outAt_1 (c : Dev nD) (t : Fin (cfgM m).N) (h : lit0 (grid0.coords t 0) = 1#32) :
    outAt m c t = out1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 1 t) (iblk m c 6 t) (tbl m 0) (tbl m 1) (fun e => absurd ((hc1 m (grid0.coords t) h).mp e) (by decide)) ((hc2 m (grid0.coords t) h).mpr (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide)) := by
  unfold outAt
  rw [dif_neg (by rw [h]; decide), dif_pos h]
theorem outAt_2 (c : Dev nD) (t : Fin (cfgM m).N) (h : lit0 (grid0.coords t 0) = 2#32) :
    outAt m c t = out2 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 2 t) (iblk m c 6 t) (tbl m 0) (tbl m 1) (fun e => absurd ((hc1 m (grid0.coords t) h).mp e) (by decide)) (fun e => absurd ((hc2 m (grid0.coords t) h).mp e) (by decide)) ((hc3 m (grid0.coords t) h).mpr (by decide)) (fun e => absurd ((hc4 m (grid0.coords t) h).mp e) (by decide)) (fun e => absurd ((hc5 m (grid0.coords t) h).mp e) (by decide)) (fun e => absurd ((hc6 m (grid0.coords t) h).mp e) (by decide)) := by
  unfold outAt
  rw [dif_neg (by rw [h]; decide), dif_neg (by rw [h]; decide), dif_pos h]
theorem outAt_3 (c : Dev nD) (t : Fin (cfgM m).N) (h : lit0 (grid0.coords t 0) = 3#32) :
    outAt m c t = out3 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 3 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) ((hc4 m (grid0.coords t) h).mpr (by decide)) (fun e => absurd ((hc5 m (grid0.coords t) h).mp e) (by decide)) (fun e => absurd ((hc6 m (grid0.coords t) h).mp e) (by decide)) := by
  unfold outAt
  rw [dif_neg (by rw [h]; decide), dif_neg (by rw [h]; decide), dif_neg (by rw [h]; decide), dif_pos h]
theorem outAt_4 (c : Dev nD) (t : Fin (cfgM m).N) (h : lit0 (grid0.coords t 0) = 4#32) :
    outAt m c t = out4 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 4 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) ((hc5 m (grid0.coords t) h).mpr (by decide)) (fun e => absurd ((hc6 m (grid0.coords t) h).mp e) (by decide)) := by
  unfold outAt
  rw [dif_neg (by rw [h]; decide), dif_neg (by rw [h]; decide), dif_neg (by rw [h]; decide), dif_neg (by rw [h]; decide), dif_pos h]
theorem outAt_5 (c : Dev nD) (t : Fin (cfgM m).N) (h : lit0 (grid0.coords t 0) = 5#32) :
    outAt m c t = out5 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 5 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) ((hc6 m (grid0.coords t) h).mpr (by decide)) := by
  unfold outAt
  rw [dif_neg (by rw [h]; decide), dif_neg (by rw [h]; decide), dif_neg (by rw [h]; decide), dif_neg (by rw [h]; decide), dif_neg (by rw [h]; decide), dif_pos h]

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = iblk m c 6 t := by dsimp only [dats]; try rfl
theorem after7 (c : Dev nD) (t : Fin (cfgM m).N) : (dats m 0 c).after 7 t = outAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d
theorem before4 (c : Dev nD) (t : Fin (cfgM m).N) (d) : (dats m 0 c).before 4 t d = iblk m c 4 t :=
  before4_of m (dats m 0 c) (A_eq m c 4) (after4 m c) t d
theorem before5 (c : Dev nD) (t : Fin (cfgM m).N) (d) : (dats m 0 c).before 5 t d = iblk m c 5 t :=
  before5_of m (dats m 0 c) (A_eq m c 5) (after5 m c) t d
theorem before6 (c : Dev nD) (t : Fin (cfgM m).N) (d) : (dats m 0 c).before 6 t d = iblk m c 6 t :=
  before6_of m (dats m 0 c) (A_eq m c 6) (after6 m c) t d

/-! ## The body obligation -/

/-- What the output window's buffer is handed back as: the library's statement for a window that may be idle, which for a
    window written back at every tile is `after` either way. -/
def post7 (c : Dev nD) (t : Fin (cfgM m).N) : sProp 𝕄 :=
  match (cfgM m).idle 7 ((cfgM m).grid.coords t) with
  | true =>
    match ((cfgM m).win 7).flush t with
    | false => iprop(∃ d, owns (c : Thread nD τ) (ms7 m t) fullShare ((dats m 0 c).before 7 t d))
    | true => owns (c : Thread nD τ) (ms7 m t) fullShare ((dats m 0 c).after 7 t)
  | false => owns (c : Thread nD τ) (ms7 m t) fullShare ((dats m 0 c).after 7 t)

theorem post7_intro (c : Dev nD) (t : Fin (cfgM m).N) :
    owns (c : Thread nD τ) (ms7 m t) fullShare ((dats m 0 c).after 7 t) ⊢ post7 m c t := by
  unfold post7
  split
  · split
    · rename_i hf; exact absurd (flush7 (adm m) t) (by rw [hf]; decide)
    · exact .rfl
  · exact .rfl

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ post7 m c t)

/-- The body at a tile of order 0. -/
theorem sound_body0 (c : Dev nD) (t : Fin (cfgM m).N) (h : lit0 (grid0.coords t 0) = 0#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 0 t) (iblk m c 6 t) (tbl m 0) (tbl m 1) ((hc1 m (grid0.coords t) h).mpr (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide))).2 Set.univ _)
  isplitl [H0]; · iexact H0
  isplitl [H6]; · iexact H6
  isplitl [H7]; · iexists _; iexact H7
  isplitl [HT0]; · iexact HT0
  isplitl [HT1]; · iexact HT1
  iintro ⟨H0, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_0 m c t h]
  unfold out0
  unfold owns; iexists _; isplitr
  swap; · iexact H7
  ipureintro; exact View.read_writes_of_cover _ _ _ _ _ (cover0 c _ _ _ _ _ _ _ _ _ _ _ _ _ _ _ _ _ _ _ _ _ _ _ _ _ _ _)

/-- The body at a tile of order 1. -/
theorem sound_body1 (c : Dev nD) (t : Fin (cfgM m).N) (h : lit0 (grid0.coords t 0) = 1#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run1 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 1 t) (iblk m c 6 t) (tbl m 0) (tbl m 1) (fun e => absurd ((hc1 m (grid0.coords t) h).mp e) (by decide)) ((hc2 m (grid0.coords t) h).mpr (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide))).2 Set.univ _)
  isplitl [H1]; · iexact H1
  isplitl [H6]; · iexact H6
  isplitl [H7]; · iexists _; iexact H7
  isplitl [HT0]; · iexact HT0
  isplitl [HT1]; · iexact HT1
  iintro ⟨H1, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_1 m c t h]
  unfold out1
  unfold owns; iexists _; isplitr
  swap; · iexact H7
  ipureintro; exact View.read_writes_of_cover _ _ _ _ _ (cover1 c _ _ _ _ _ _ _ _ _ _ _ _ _ _ _ _ _ _ _ _ _ _ _ _ _ _ _)

/-- The body at a tile of order 2. -/
theorem sound_body2 (c : Dev nD) (t : Fin (cfgM m).N) (h : lit0 (grid0.coords t 0) = 2#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run2 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 2 t) (iblk m c 6 t) (tbl m 0) (tbl m 1) (fun e => absurd ((hc1 m (grid0.coords t) h).mp e) (by decide)) (fun e => absurd ((hc2 m (grid0.coords t) h).mp e) (by decide)) ((hc3 m (grid0.coords t) h).mpr (by decide)) (fun e => absurd ((hc4 m (grid0.coords t) h).mp e) (by decide)) (fun e => absurd ((hc5 m (grid0.coords t) h).mp e) (by decide)) (fun e => absurd ((hc6 m (grid0.coords t) h).mp e) (by decide))).2 Set.univ _)
  isplitl [H2]; · iexact H2
  isplitl [H6]; · iexact H6
  isplitl [H7]; · iexists _; iexact H7
  isplitl [HT0]; · iexact HT0
  isplitl [HT1]; · iexact HT1
  iintro ⟨H2, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_2 m c t h]
  unfold out2
  unfold owns; iexists _; isplitr
  swap; · iexact H7
  ipureintro; exact View.read_writes_of_cover _ _ _ _ _ (cover2 c _ _ _ _ _ _ _ _ _ _ _ _ _ _ _ _ _ _ _ _ _ _ _ _ _ _ _)

/-- The body at a tile of order 3. -/
theorem sound_body3 (c : Dev nD) (t : Fin (cfgM m).N) (h : lit0 (grid0.coords t 0) = 3#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run3 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 3 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) ((hc4 m (grid0.coords t) h).mpr (by decide)) (fun e => absurd ((hc5 m (grid0.coords t) h).mp e) (by decide)) (fun e => absurd ((hc6 m (grid0.coords t) h).mp e) (by decide))).2 Set.univ _)
  isplitl [H3]; · iexact H3
  isplitl [H6]; · iexact H6
  isplitl [H7]; · iexists _; iexact H7
  isplitl [HT0]; · iexact HT0
  isplitl [HT1]; · iexact HT1
  iintro ⟨H3, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_3 m c t h]
  unfold out3
  unfold owns; iexists _; isplitr
  swap; · iexact H7
  ipureintro; exact View.read_writes_of_cover _ _ _ _ _ (cover3 c _ _ _ _ _ _ _ _ _ _ _ _ _ _ _ _ _ _ _ _ _ _ _ _ _ _ _)

/-- The body at a tile of order 4. -/
theorem sound_body4 (c : Dev nD) (t : Fin (cfgM m).N) (h : lit0 (grid0.coords t 0) = 4#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run4 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 4 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) ((hc5 m (grid0.coords t) h).mpr (by decide)) (fun e => absurd ((hc6 m (grid0.coords t) h).mp e) (by decide))).2 Set.univ _)
  isplitl [H4]; · iexact H4
  isplitl [H6]; · iexact H6
  isplitl [H7]; · iexists _; iexact H7
  isplitl [HT0]; · iexact HT0
  isplitl [HT1]; · iexact HT1
  iintro ⟨H4, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_4 m c t h]
  unfold out4
  unfold owns; iexists _; isplitr
  swap; · iexact H7
  ipureintro; exact View.read_writes_of_cover _ _ _ _ _ (cover4 c _ _ _ _ _ _ _ _ _ _ _ _ _ _ _ _ _ _ _ _ _ _ _ _ _ _ _)

/-- The body at a tile of order 5. -/
theorem sound_body5 (c : Dev nD) (t : Fin (cfgM m).N) (h : lit0 (grid0.coords t 0) = 5#32) :
    bodyPre m c t ⊢ wp frame (wpE (defs₀ (F := F)) Variants.none c none) Set.univ (bodyAt m t) (fun _ => bodyPost m c t) := by
  unfold bodyPre bodyPost bodyAt
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run5 c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 5 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) ((hc6 m (grid0.coords t) h).mpr (by decide))).2 Set.univ _)
  isplitl [H5]; · iexact H5
  isplitl [H6]; · iexact H6
  isplitl [H7]; · iexists _; iexact H7
  isplitl [HT0]; · iexact HT0
  isplitl [HT1]; · iexact HT1
  iintro ⟨H5, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m c t)
  rw [after7, outAt_5 m c t h]
  unfold out5
  unfold owns; iexists _; isplitr
  swap; · iexact H7
  ipureintro; exact View.read_writes_of_cover _ _ _ _ _ (cover5 c _ _ _ _ _ _ _ _ _ _ _ _ _ _ _ _ _ _ _ _ _ _ _ _ _ _ _)

/-- The body at any tile: the tile's order is one of the six. -/
theorem sound_body (c : Dev nD) (t : Fin (cfgM m).N) :
    bodyPre m c t ⊢ wp frame (wpE (defs₀ (F := F)) Variants.none c none) Set.univ (bodyAt m t) (fun _ => bodyPost m c t) := by
  rcases ord_cases (lit0 (grid0.coords t 0)) (order_lt _) with h | h | h | h | h | h
  · exact sound_body0 m c t h
  · exact sound_body1 m c t h
  · exact sound_body2 m c t h
  · exact sound_body3 m c t h
  · exact sound_body4 m c t h
  · exact sound_body5 m c t h

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the library computes from
    the proof data, every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame of `KernelIdeal`, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Tiles

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«161469_j48060684042913_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.AtIdeal.Product.lean ====
/-
  What a tile's body leaves in the output block, at the ideal values: a matrix product.

  At a tile of order l the one store of the body writes, over the whole 2000 × 256 output block, the matrix-unit
  product of the order-l value block (2000 × 128) with the weight slice (128 × 256) into a zero accumulator. At the
  ideal values the two changes of float format are the identity, so entry (p, q) of the block is the sum over the
  128 properties k of  value(p, k) · weight(0, k, q).
-/
import proofs.«161469_j48060684042913_2_alg».proof.Proof.AtIdeal.Frame
import proofs.«161469_j48060684042913_2_alg».proof.Proof.LibPlainLists
import Idealize.ShloMosaic.Lib.Pipeline.Value
import Idealize.ShloMosaic.Lib.ValueIdx
import Idealize.ShloMosaic.PureOps.Ideal.Laws

set_option maxRecDepth 16384

noncomputable section

namespace Cert.KernelIdeal.Tiles

open Cert.KernelIdeal Cert.KernelIdeal.Gen
open Idealize.ShloMosaic Idealize.ShloMosaic.TcCoe Idealize.ShloMosaic.Tactic Idealize.ShloMosaic.ValueIdx
open Idealize.SL Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stores of each case read back are the case's payload -/

theorem out0_eq (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec Ideal S2000x128 .f32) (xw : Vec Ideal S1x128x256 .f32) (xt0 : TbBuf (F := Ideal) c tbM0) (xt1 : TbBuf (F := Ideal) c tbM1)
    (hc1 : (k0_cond1 (tbM0.view.readAt (Elt Ideal) (Rect.unit (s := S360) (k0_off1 i) S1.size (k0_off1_inb i)).toLoadRect xt0 (Shape.Idx.first (numel1_S1.symm ▸ Nat.one_pos))) = 1#1)) (hc2 : ¬(k0_cond2 (tbM0.view.readAt (Elt Ideal) (Rect.unit (s := S360) (k0_off1 i) S1.size (k0_off1_inb i)).toLoadRect xt0 (Shape.Idx.first (numel1_S1.symm ▸ Nat.one_pos))) = 1#1)) (hc3 : ¬(k0_cond3 (tbM0.view.readAt (Elt Ideal) (Rect.unit (s := S360) (k0_off1 i) S1.size (k0_off1_inb i)).toLoadRect xt0 (Shape.Idx.first (numel1_S1.symm ▸ Nat.one_pos))) = 1#1)) (hc4 : ¬(k0_cond4 (tbM0.view.readAt (Elt Ideal) (Rect.unit (s := S360) (k0_off1 i) S1.size (k0_off1_inb i)).toLoadRect xt0 (Shape.Idx.first (numel1_S1.symm ▸ Nat.one_pos))) = 1#1)) (hc5 : ¬(k0_cond5 (tbM0.view.readAt (Elt Ideal) (Rect.unit (s := S360) (k0_off1 i) S1.size (k0_off1_inb i)).toLoadRect xt0 (Shape.Idx.first (numel1_S1.symm ▸ Nat.one_pos))) = 1#1)) (hc6 : ¬(k0_cond6 (tbM0.view.readAt (Elt Ideal) (Rect.unit (s := S360) (k0_off1 i) S1.size (k0_off1_inb i)).toLoadRect xt0 (Shape.Idx.first (numel1_S1.symm ▸ Nat.one_pos))) = 1#1)) :
    out0 c i arg3 harg3 arg4 harg4 arg5 harg5 arg6 harg6 arg7 harg7 arg8 harg8 arg9 harg9 arg10 harg10 x xw xt0 xt1 hc1 hc2 hc3 hc4 hc5 hc6 = k0_pay2 xw x := by
  unfold out0
  rw [View.read_writes_eq_canon _ _ _ (cover0 c i arg3 harg3 arg4 harg4 arg5 harg5 arg6 harg6 arg7 harg7 arg8 harg8 arg9 harg9 arg10 harg10 x xw xt0 xt1 hc1 hc2 hc3 hc4 hc5 hc6)]
  unfold run0
  dsimp only
  rw [View.canon_unit_zero hz2]
  simp only [View.readAt_eq_ld, harg3.read_unread, harg9.read_unread, View.ld_unit_zero (S := S2000x128) hz2, View.ld_unit_zero (S := S1x128x256) hz3]

theorem out1_eq (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec Ideal S2000x128 .f32) (xw : Vec Ideal S1x128x256 .f32) (xt0 : TbBuf (F := Ideal) c tbM0) (xt1 : TbBuf (F := Ideal) c tbM1)
    (hc1 : ¬(k0_cond1 (tbM0.view.readAt (Elt Ideal) (Rect.unit (s := S360) (k0_off1 i) S1.size (k0_off1_inb i)).toLoadRect xt0 (Shape.Idx.first (numel1_S1.symm ▸ Nat.one_pos))) = 1#1)) (hc2 : (k0_cond2 (tbM0.view.readAt (Elt Ideal) (Rect.unit (s := S360) (k0_off1 i) S1.size (k0_off1_inb i)).toLoadRect xt0 (Shape.Idx.first (numel1_S1.symm ▸ Nat.one_pos))) = 1#1)) (hc3 : ¬(k0_cond3 (tbM0.view.readAt (Elt Ideal) (Rect.unit (s := S360) (k0_off1 i) S1.size (k0_off1_inb i)).toLoadRect xt0 (Shape.Idx.first (numel1_S1.symm ▸ Nat.one_pos))) = 1#1)) (hc4 : ¬(k0_cond4 (tbM0.view.readAt (Elt Ideal) (Rect.unit (s := S360) (k0_off1 i) S1.size (k0_off1_inb i)).toLoadRect xt0 (Shape.Idx.first (numel1_S1.symm ▸ Nat.one_pos))) = 1#1)) (hc5 : ¬(k0_cond5 (tbM0.view.readAt (Elt Ideal) (Rect.unit (s := S360) (k0_off1 i) S1.size (k0_off1_inb i)).toLoadRect xt0 (Shape.Idx.first (numel1_S1.symm ▸ Nat.one_pos))) = 1#1)) (hc6 : ¬(k0_cond6 (tbM0.view.readAt (Elt Ideal) (Rect.unit (s := S360) (k0_off1 i) S1.size (k0_off1_inb i)).toLoadRect xt0 (Shape.Idx.first (numel1_S1.symm ▸ Nat.one_pos))) = 1#1)) :
    out1 c i arg3 harg3 arg4 harg4 arg5 harg5 arg6 harg6 arg7 harg7 arg8 harg8 arg9 harg9 arg10 harg10 x xw xt0 xt1 hc1 hc2 hc3 hc4 hc5 hc6 = k0_pay3 xw x := by
  unfold out1
  rw [View.read_writes_eq_canon _ _ _ (cover1 c i arg3 harg3 arg4 harg4 arg5 harg5 arg6 harg6 arg7 harg7 arg8 harg8 arg9 harg9 arg10 harg10 x xw xt0 xt1 hc1 hc2 hc3 hc4 hc5 hc6)]
  unfold run1
  dsimp only
  rw [View.canon_unit_zero hz2]
  simp only [View.readAt_eq_ld, harg4.read_unread, harg9.read_unread, View.ld_unit_zero (S := S2000x128) hz2, View.ld_unit_zero (S := S1x128x256) hz3]

theorem out2_eq (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec Ideal S2000x128 .f32) (xw : Vec Ideal S1x128x256 .f32) (xt0 : TbBuf (F := Ideal) c tbM0) (xt1 : TbBuf (F := Ideal) c tbM1)
    (hc1 : ¬(k0_cond1 (tbM0.view.readAt (Elt Ideal) (Rect.unit (s := S360) (k0_off1 i) S1.size (k0_off1_inb i)).toLoadRect xt0 (Shape.Idx.first (numel1_S1.symm ▸ Nat.one_pos))) = 1#1)) (hc2 : ¬(k0_cond2 (tbM0.view.readAt (Elt Ideal) (Rect.unit (s := S360) (k0_off1 i) S1.size (k0_off1_inb i)).toLoadRect xt0 (Shape.Idx.first (numel1_S1.symm ▸ Nat.one_pos))) = 1#1)) (hc3 : (k0_cond3 (tbM0.view.readAt (Elt Ideal) (Rect.unit (s := S360) (k0_off1 i) S1.size (k0_off1_inb i)).toLoadRect xt0 (Shape.Idx.first (numel1_S1.symm ▸ Nat.one_pos))) = 1#1)) (hc4 : ¬(k0_cond4 (tbM0.view.readAt (Elt Ideal) (Rect.unit (s := S360) (k0_off1 i) S1.size (k0_off1_inb i)).toLoadRect xt0 (Shape.Idx.first (numel1_S1.symm ▸ Nat.one_pos))) = 1#1)) (hc5 : ¬(k0_cond5 (tbM0.view.readAt (Elt Ideal) (Rect.unit (s := S360) (k0_off1 i) S1.size (k0_off1_inb i)).toLoadRect xt0 (Shape.Idx.first (numel1_S1.symm ▸ Nat.one_pos))) = 1#1)) (hc6 : ¬(k0_cond6 (tbM0.view.readAt (Elt Ideal) (Rect.unit (s := S360) (k0_off1 i) S1.size (k0_off1_inb i)).toLoadRect xt0 (Shape.Idx.first (numel1_S1.symm ▸ Nat.one_pos))) = 1#1)) :
    out2 c i arg3 harg3 arg4 harg4 arg5 harg5 arg6 harg6 arg7 harg7 arg8 harg8 arg9 harg9 arg10 harg10 x xw xt0 xt1 hc1 hc2 hc3 hc4 hc5 hc6 = k0_pay4 xw x := by
  unfold out2
  rw [View.read_writes_eq_canon _ _ _ (cover2 c i arg3 harg3 arg4 harg4 arg5 harg5 arg6 harg6 arg7 harg7 arg8 harg8 arg9 harg9 arg10 harg10 x xw xt0 xt1 hc1 hc2 hc3 hc4 hc5 hc6)]
  unfold run2
  dsimp only
  rw [View.canon_unit_zero hz2]
  simp only [View.readAt_eq_ld, harg5.read_unread, harg9.read_unread, View.ld_unit_zero (S := S2000x128) hz2, View.ld_unit_zero (S := S1x128x256) hz3]

theorem out3_eq (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec Ideal S2000x128 .f32) (xw : Vec Ideal S1x128x256 .f32) (xt0 : TbBuf (F := Ideal) c tbM0) (xt1 : TbBuf (F := Ideal) c tbM1)
    (hc1 : ¬(k0_cond1 (tbM0.view.readAt (Elt Ideal) (Rect.unit (s := S360) (k0_off1 i) S1.size (k0_off1_inb i)).toLoadRect xt0 (Shape.Idx.first (numel1_S1.symm ▸ Nat.one_pos))) = 1#1)) (hc2 : ¬(k0_cond2 (tbM0.view.readAt (Elt Ideal) (Rect.unit (s := S360) (k0_off1 i) S1.size (k0_off1_inb i)).toLoadRect xt0 (Shape.Idx.first (numel1_S1.symm ▸ Nat.one_pos))) = 1#1)) (hc3 : ¬(k0_cond3 (tbM0.view.readAt (Elt Ideal) (Rect.unit (s := S360) (k0_off1 i) S1.size (k0_off1_inb i)).toLoadRect xt0 (Shape.Idx.first (numel1_S1.symm ▸ Nat.one_pos))) = 1#1)) (hc4 : (k0_cond4 (tbM0.view.readAt (Elt Ideal) (Rect.unit (s := S360) (k0_off1 i) S1.size (k0_off1_inb i)).toLoadRect xt0 (Shape.Idx.first (numel1_S1.symm ▸ Nat.one_pos))) = 1#1)) (hc5 : ¬(k0_cond5 (tbM0.view.readAt (Elt Ideal) (Rect.unit (s := S360) (k0_off1 i) S1.size (k0_off1_inb i)).toLoadRect xt0 (Shape.Idx.first (numel1_S1.symm ▸ Nat.one_pos))) = 1#1)) (hc6 : ¬(k0_cond6 (tbM0.view.readAt (Elt Ideal) (Rect.unit (s := S360) (k0_off1 i) S1.size (k0_off1_inb i)).toLoadRect xt0 (Shape.Idx.first (numel1_S1.symm ▸ Nat.one_pos))) = 1#1)) :
    out3 c i arg3 harg3 arg4 harg4 arg5 harg5 arg6 harg6 arg7 harg7 arg8 harg8 arg9 harg9 arg10 harg10 x xw xt0 xt1 hc1 hc2 hc3 hc4 hc5 hc6 = k0_pay5 xw x := by
  unfold out3
  rw [View.read_writes_eq_canon _ _ _ (cover3 c i arg3 harg3 arg4 harg4 arg5 harg5 arg6 harg6 arg7 harg7 arg8 harg8 arg9 harg9 arg10 harg10 x xw xt0 xt1 hc1 hc2 hc3 hc4 hc5 hc6)]
  unfold run3
  dsimp only
  rw [View.canon_unit_zero hz2]
  simp only [View.readAt_eq_ld, harg6.read_unread, harg9.read_unread, View.ld_unit_zero (S := S2000x128) hz2, View.ld_unit_zero (S := S1x128x256) hz3]

theorem out4_eq (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec Ideal S2000x128 .f32) (xw : Vec Ideal S1x128x256 .f32) (xt0 : TbBuf (F := Ideal) c tbM0) (xt1 : TbBuf (F := Ideal) c tbM1)
    (hc1 : ¬(k0_cond1 (tbM0.view.readAt (Elt Ideal) (Rect.unit (s := S360) (k0_off1 i) S1.size (k0_off1_inb i)).toLoadRect xt0 (Shape.Idx.first (numel1_S1.symm ▸ Nat.one_pos))) = 1#1)) (hc2 : ¬(k0_cond2 (tbM0.view.readAt (Elt Ideal) (Rect.unit (s := S360) (k0_off1 i) S1.size (k0_off1_inb i)).toLoadRect xt0 (Shape.Idx.first (numel1_S1.symm ▸ Nat.one_pos))) = 1#1)) (hc3 : ¬(k0_cond3 (tbM0.view.readAt (Elt Ideal) (Rect.unit (s := S360) (k0_off1 i) S1.size (k0_off1_inb i)).toLoadRect xt0 (Shape.Idx.first (numel1_S1.symm ▸ Nat.one_pos))) = 1#1)) (hc4 : ¬(k0_cond4 (tbM0.view.readAt (Elt Ideal) (Rect.unit (s := S360) (k0_off1 i) S1.size (k0_off1_inb i)).toLoadRect xt0 (Shape.Idx.first (numel1_S1.symm ▸ Nat.one_pos))) = 1#1)) (hc5 : (k0_cond5 (tbM0.view.readAt (Elt Ideal) (Rect.unit (s := S360) (k0_off1 i) S1.size (k0_off1_inb i)).toLoadRect xt0 (Shape.Idx.first (numel1_S1.symm ▸ Nat.one_pos))) = 1#1)) (hc6 : ¬(k0_cond6 (tbM0.view.readAt (Elt Ideal) (Rect.unit (s := S360) (k0_off1 i) S1.size (k0_off1_inb i)).toLoadRect xt0 (Shape.Idx.first (numel1_S1.symm ▸ Nat.one_pos))) = 1#1)) :
    out4 c i arg3 harg3 arg4 harg4 arg5 harg5 arg6 harg6 arg7 harg7 arg8 harg8 arg9 harg9 arg10 harg10 x xw xt0 xt1 hc1 hc2 hc3 hc4 hc5 hc6 = k0_pay6 xw x := by
  unfold out4
  rw [View.read_writes_eq_canon _ _ _ (cover4 c i arg3 harg3 arg4 harg4 arg5 harg5 arg6 harg6 arg7 harg7 arg8 harg8 arg9 harg9 arg10 harg10 x xw xt0 xt1 hc1 hc2 hc3 hc4 hc5 hc6)]
  unfold run4
  dsimp only
  rw [View.canon_unit_zero hz2]
  simp only [View.readAt_eq_ld, harg7.read_unread, harg9.read_unread, View.ld_unit_zero (S := S2000x128) hz2, View.ld_unit_zero (S := S1x128x256) hz3]

theorem out5_eq (c : Dev nD) (i : grid0.Coords) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128x256 .f32) (harg9 : arg9.IsWhole) (arg10 : Memref sig .tc .vmem S2000x256 .f32) (harg10 : arg10.IsWhole)
    (x : Vec Ideal S2000x128 .f32) (xw : Vec Ideal S1x128x256 .f32) (xt0 : TbBuf (F := Ideal) c tbM0) (xt1 : TbBuf (F := Ideal) c tbM1)
    (hc1 : ¬(k0_cond1 (tbM0.view.readAt (Elt Ideal) (Rect.unit (s := S360) (k0_off1 i) S1.size (k0_off1_inb i)).toLoadRect xt0 (Shape.Idx.first (numel1_S1.symm ▸ Nat.one_pos))) = 1#1)) (hc2 : ¬(k0_cond2 (tbM0.view.readAt (Elt Ideal) (Rect.unit (s := S360) (k0_off1 i) S1.size (k0_off1_inb i)).toLoadRect xt0 (Shape.Idx.first (numel1_S1.symm ▸ Nat.one_pos))) = 1#1)) (hc3 : ¬(k0_cond3 (tbM0.view.readAt (Elt Ideal) (Rect.unit (s := S360) (k0_off1 i) S1.size (k0_off1_inb i)).toLoadRect xt0 (Shape.Idx.first (numel1_S1.symm ▸ Nat.one_pos))) = 1#1)) (hc4 : ¬(k0_cond4 (tbM0.view.readAt (Elt Ideal) (Rect.unit (s := S360) (k0_off1 i) S1.size (k0_off1_inb i)).toLoadRect xt0 (Shape.Idx.first (numel1_S1.symm ▸ Nat.one_pos))) = 1#1)) (hc5 : ¬(k0_cond5 (tbM0.view.readAt (Elt Ideal) (Rect.unit (s := S360) (k0_off1 i) S1.size (k0_off1_inb i)).toLoadRect xt0 (Shape.Idx.first (numel1_S1.symm ▸ Nat.one_pos))) = 1#1)) (hc6 : (k0_cond6 (tbM0.view.readAt (Elt Ideal) (Rect.unit (s := S360) (k0_off1 i) S1.size (k0_off1_inb i)).toLoadRect xt0 (Shape.Idx.first (numel1_S1.symm ▸ Nat.one_pos))) = 1#1)) :
    out5 c i arg3 harg3 arg4 harg4 arg5 harg5 arg6 harg6 arg7 harg7 arg8 harg8 arg9 harg9 arg10 harg10 x xw xt0 xt1 hc1 hc2 hc3 hc4 hc5 hc6 = k0_pay7 xw x := by
  unfold out5
  rw [View.read_writes_eq_canon _ _ _ (cover5 c i arg3 harg3 arg4 harg4 arg5 harg5 arg6 harg6 arg7 harg7 arg8 harg8 arg9 harg9 arg10 harg10 x xw xt0 xt1 hc1 hc2 hc3 hc4 hc5 hc6)]
  unfold run5
  dsimp only
  rw [View.canon_unit_zero hz2]
  simp only [View.readAt_eq_ld, harg8.read_unread, harg9.read_unread, View.ld_unit_zero (S := S2000x128) hz2, View.ld_unit_zero (S := S1x128x256) hz3]

/-! ## The payload at an entry -/

/-- The product's dimension numbers are the plain ones: left contracted on its axis 1, right on its axis 0. -/
theorem plain : Cert.LibMatmulSum.Plain dot_S2000x128_S128x256_S2000x256_1_0_0_1_n_n :=
  Cert.LibMatmulSum.Plain.of_lists _ rfl rfl rfl rfl rfl rfl

/-- The weight window's one slice, cast to a matrix, at entry (k, q). -/
theorem slice_at (xw : Vec Ideal S1x128x256 .f32) (k : Fin 128) (q : Fin 256) :
    shapeCast S128x256 xw shapeCasts_S1x128x256_S128x256 (ix2 k q) = xw (ix3 (0 : Fin 1) k q) :=
  shapeCast_apply xw shapeCasts_S1x128x256_S128x256 (ix2 k q) (ix3 (0 : Fin 1) k q) (by
    rw [Shape.rowMajor_val_three, Shape.rowMajor_val_two]
    show ((0 : ℕ) * 128 + k.val) * 256 + q.val = k.val * 256 + q.val
    omega)

theorem pay2_at (xw : Vec Ideal S1x128x256 .f32) (x : Vec Ideal S2000x128 .f32) (p : Fin 2000) (q : Fin 256) :
    k0_pay2 (F := Ideal) xw x (ix2 p q) = ∑ k : Fin 128, x (ix2 p k) * xw (ix3 (0 : Fin 1) k q) := by
  unfold k0_pay2 k0_pay1
  rw [shapeCast_self]
  refine (Cert.LibMatmulSum.matmul_zero_at plain none _ _ p q).trans (Finset.sum_congr rfl fun k _ => ?_)
  rw [truncf_apply, truncf_apply, slice_at]

theorem pay3_at (xw : Vec Ideal S1x128x256 .f32) (x : Vec Ideal S2000x128 .f32) (p : Fin 2000) (q : Fin 256) :
    k0_pay3 (F := Ideal) xw x (ix2 p q) = ∑ k : Fin 128, x (ix2 p k) * xw (ix3 (0 : Fin 1) k q) := by
  unfold k0_pay3 k0_pay1
  rw [shapeCast_self]
  refine (Cert.LibMatmulSum.matmul_zero_at plain none _ _ p q).trans (Finset.sum_congr rfl fun k _ => ?_)
  rw [truncf_apply, truncf_apply, slice_at]

theorem pay4_at (xw : Vec Ideal S1x128x256 .f32) (x : Vec Ideal S2000x128 .f32) (p : Fin 2000) (q : Fin 256) :
    k0_pay4 (F := Ideal) xw x (ix2 p q) = ∑ k : Fin 128, x (ix2 p k) * xw (ix3 (0 : Fin 1) k q) := by
  unfold k0_pay4 k0_pay1
  rw [shapeCast_self]
  refine (Cert.LibMatmulSum.matmul_zero_at plain none _ _ p q).trans (Finset.sum_congr rfl fun k _ => ?_)
  rw [truncf_apply, truncf_apply, slice_at]

theorem pay5_at (xw : Vec Ideal S1x128x256 .f32) (x : Vec Ideal S2000x128 .f32) (p : Fin 2000) (q : Fin 256) :
    k0_pay5 (F := Ideal) xw x (ix2 p q) = ∑ k : Fin 128, x (ix2 p k) * xw (ix3 (0 : Fin 1) k q) := by
  unfold k0_pay5 k0_pay1
  rw [shapeCast_self]
  refine (Cert.LibMatmulSum.matmul_zero_at plain none _ _ p q).trans (Finset.sum_congr rfl fun k _ => ?_)
  rw [truncf_apply, truncf_apply, slice_at]

theorem pay6_at (xw : Vec Ideal S1x128x256 .f32) (x : Vec Ideal S2000x128 .f32) (p : Fin 2000) (q : Fin 256) :
    k0_pay6 (F := Ideal) xw x (ix2 p q) = ∑ k : Fin 128, x (ix2 p k) * xw (ix3 (0 : Fin 1) k q) := by
  unfold k0_pay6 k0_pay1
  rw [shapeCast_self]
  refine (Cert.LibMatmulSum.matmul_zero_at plain none _ _ p q).trans (Finset.sum_congr rfl fun k _ => ?_)
  rw [truncf_apply, truncf_apply, slice_at]

theorem pay7_at (xw : Vec Ideal S1x128x256 .f32) (x : Vec Ideal S2000x128 .f32) (p : Fin 2000) (q : Fin 256) :
    k0_pay7 (F := Ideal) xw x (ix2 p q) = ∑ k : Fin 128, x (ix2 p k) * xw (ix3 (0 : Fin 1) k q) := by
  unfold k0_pay7 k0_pay1
  rw [shapeCast_self]
  refine (Cert.LibMatmulSum.matmul_zero_at plain none _ _ p q).trans (Finset.sum_congr rfl fun k _ => ?_)
  rw [truncf_apply, truncf_apply, slice_at]

end Cert.KernelIdeal.Tiles

end
-- ==== Proof.AtIdeal.Rows.lean ====
/-
  The blocks a tile reads, as entries of the argument arrays (at the ideal values).

  The value array of order l reaches the kernel reshaped to 20000·(2l+1) rows of 128: row R is sample R / (2l+1),
  component R mod (2l+1). At a tile t of order l the order-l window holds rows 2000·pos … 2000·pos + 1999 of that
  array, where pos is the tile's position among the tiles of its order (the second table's word; the tiles of order
  l are tiles 10·l² … 10·(l+1)² − 1, so pos = t − 10·l²), and the weight window holds slice l of the weights.
-/
import proofs.«161469_j48060684042913_2_alg».proof.Proof.AtIdeal.Frame
import Idealize.ShloMosaic.Lib.Pipeline.Value
import Idealize.ShloMosaic.Lib.ValueIdx

set_option maxRecDepth 16384

noncomputable section

namespace Cert.KernelIdeal.Tiles

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-! ## The tiles of each order, from the literal tables -/

theorem tiles0 : ∀ n : Fin 360, lit0 n = 0#32 → 0 ≤ n.val ∧ n.val < 10 ∧ (lit1 n).toNat + 0 = n.val := by decide +kernel
theorem tiles1 : ∀ n : Fin 360, lit0 n = 1#32 → 10 ≤ n.val ∧ n.val < 40 ∧ (lit1 n).toNat + 10 = n.val := by decide +kernel
theorem tiles2 : ∀ n : Fin 360, lit0 n = 2#32 → 40 ≤ n.val ∧ n.val < 90 ∧ (lit1 n).toNat + 40 = n.val := by decide +kernel
theorem tiles3 : ∀ n : Fin 360, lit0 n = 3#32 → 90 ≤ n.val ∧ n.val < 160 ∧ (lit1 n).toNat + 90 = n.val := by decide +kernel
theorem tiles4 : ∀ n : Fin 360, lit0 n = 4#32 → 160 ≤ n.val ∧ n.val < 250 ∧ (lit1 n).toNat + 160 = n.val := by decide +kernel
theorem tiles5 : ∀ n : Fin 360, lit0 n = 5#32 → 250 ≤ n.val ∧ n.val < 360 ∧ (lit1 n).toNat + 250 = n.val := by decide +kernel

/-! ## The reshaped value arrays -/

theorem V_v0 (c : Dev nD) : (V m c main_v0 : S20000x128.Idx → Elt Ideal .f32)
    = shapeCast S20000x128 (m ((c : Thread nD τ).loc main_arg0)) shapeCasts_S20000x1x128_S20000x128 := by
  dsimp only [V]; after_results <;> rfl

/-- Row R of the reshaped array of order 0 is sample R / 1, component R mod 1. -/
theorem V_v0_at (c : Dev nD) (R : Fin 20000) (k : Fin 128) :
    (V m c main_v0 : S20000x128.Idx → Elt Ideal .f32) (ix2 R k)
      = m ((c : Thread nD τ).loc main_arg0) (ix3 (⟨R.val / 1, by omega⟩ : Fin 20000) (⟨R.val % 1, by omega⟩ : Fin 1) k) := by
  rw [V_v0]
  exact shapeCast_apply _ shapeCasts_S20000x1x128_S20000x128 (ix2 R k) _ (by
    rw [Shape.rowMajor_val_three, Shape.rowMajor_val_two]
    show (R.val / 1 * 1 + R.val % 1) * 128 + k.val = R.val * 128 + k.val
    omega)

theorem V_v1 (c : Dev nD) : (V m c main_v1 : S60000x128.Idx → Elt Ideal .f32)
    = shapeCast S60000x128 (m ((c : Thread nD τ).loc main_arg1)) shapeCasts_S20000x3x128_S60000x128 := by
  dsimp only [V]; after_results <;> rfl

/-- Row R of the reshaped array of order 1 is sample R / 3, component R mod 3. -/
theorem V_v1_at (c : Dev nD) (R : Fin 60000) (k : Fin 128) :
    (V m c main_v1 : S60000x128.Idx → Elt Ideal .f32) (ix2 R k)
      = m ((c : Thread nD τ).loc main_arg1) (ix3 (⟨R.val / 3, by omega⟩ : Fin 20000) (⟨R.val % 3, by omega⟩ : Fin 3) k) := by
  rw [V_v1]
  exact shapeCast_apply _ shapeCasts_S20000x3x128_S60000x128 (ix2 R k) _ (by
    rw [Shape.rowMajor_val_three, Shape.rowMajor_val_two]
    show (R.val / 3 * 3 + R.val % 3) * 128 + k.val = R.val * 128 + k.val
    omega)

theorem V_v2 (c : Dev nD) : (V m c main_v2 : S100000x128.Idx → Elt Ideal .f32)
    = shapeCast S100000x128 (m ((c : Thread nD τ).loc main_arg2)) shapeCasts_S20000x5x128_S100000x128 := by
  dsimp only [V]; after_results <;> rfl

/-- Row R of the reshaped array of order 2 is sample R / 5, component R mod 5. -/
theorem V_v2_at (c : Dev nD) (R : Fin 100000) (k : Fin 128) :
    (V m c main_v2 : S100000x128.Idx → Elt Ideal .f32) (ix2 R k)
      = m ((c : Thread nD τ).loc main_arg2) (ix3 (⟨R.val / 5, by omega⟩ : Fin 20000) (⟨R.val % 5, by omega⟩ : Fin 5) k) := by
  rw [V_v2]
  exact shapeCast_apply _ shapeCasts_S20000x5x128_S100000x128 (ix2 R k) _ (by
    rw [Shape.rowMajor_val_three, Shape.rowMajor_val_two]
    show (R.val / 5 * 5 + R.val % 5) * 128 + k.val = R.val * 128 + k.val
    omega)

theorem V_v3 (c : Dev nD) : (V m c main_v3 : S140000x128.Idx → Elt Ideal .f32)
    = shapeCast S140000x128 (m ((c : Thread nD τ).loc main_arg3)) shapeCasts_S20000x7x128_S140000x128 := by
  dsimp only [V]; after_results <;> rfl

/-- Row R of the reshaped array of order 3 is sample R / 7, component R mod 7. -/
theorem V_v3_at (c : Dev nD) (R : Fin 140000) (k : Fin 128) :
    (V m c main_v3 : S140000x128.Idx → Elt Ideal .f32) (ix2 R k)
      = m ((c : Thread nD τ).loc main_arg3) (ix3 (⟨R.val / 7, by omega⟩ : Fin 20000) (⟨R.val % 7, by omega⟩ : Fin 7) k) := by
  rw [V_v3]
  exact shapeCast_apply _ shapeCasts_S20000x7x128_S140000x128 (ix2 R k) _ (by
    rw [Shape.rowMajor_val_three, Shape.rowMajor_val_two]
    show (R.val / 7 * 7 + R.val % 7) * 128 + k.val = R.val * 128 + k.val
    omega)

theorem V_v4 (c : Dev nD) : (V m c main_v4 : S180000x128.Idx → Elt Ideal .f32)
    = shapeCast S180000x128 (m ((c : Thread nD τ).loc main_arg4)) shapeCasts_S20000x9x128_S180000x128 := by
  dsimp only [V]; after_results <;> rfl

/-- Row R of the reshaped array of order 4 is sample R / 9, component R mod 9. -/
theorem V_v4_at (c : Dev nD) (R : Fin 180000) (k : Fin 128) :
    (V m c main_v4 : S180000x128.Idx → Elt Ideal .f32) (ix2 R k)
      = m ((c : Thread nD τ).loc main_arg4) (ix3 (⟨R.val / 9, by omega⟩ : Fin 20000) (⟨R.val % 9, by omega⟩ : Fin 9) k) := by
  rw [V_v4]
  exact shapeCast_apply _ shapeCasts_S20000x9x128_S180000x128 (ix2 R k) _ (by
    rw [Shape.rowMajor_val_three, Shape.rowMajor_val_two]
    show (R.val / 9 * 9 + R.val % 9) * 128 + k.val = R.val * 128 + k.val
    omega)

theorem V_v5 (c : Dev nD) : (V m c main_v5 : S220000x128.Idx → Elt Ideal .f32)
    = shapeCast S220000x128 (m ((c : Thread nD τ).loc main_arg5)) shapeCasts_S20000x11x128_S220000x128 := by
  dsimp only [V]; after_results <;> rfl

/-- Row R of the reshaped array of order 5 is sample R / 11, component R mod 11. -/
theorem V_v5_at (c : Dev nD) (R : Fin 220000) (k : Fin 128) :
    (V m c main_v5 : S220000x128.Idx → Elt Ideal .f32) (ix2 R k)
      = m ((c : Thread nD τ).loc main_arg5) (ix3 (⟨R.val / 11, by omega⟩ : Fin 20000) (⟨R.val % 11, by omega⟩ : Fin 11) k) := by
  rw [V_v5]
  exact shapeCast_apply _ shapeCasts_S20000x11x128_S220000x128 (ix2 R k) _ (by
    rw [Shape.rowMajor_val_three, Shape.rowMajor_val_two]
    show (R.val / 11 * 11 + R.val % 11) * 128 + k.val = R.val * 128 + k.val
    omega)

/-! ## The index maps at the tables the region holds -/

theorem index0 (a : (pcfg0 (F := Ideal)).Adm) (t : Fin (cfg0 a).N) :
    ((cfg0 a).win 0).index t = cc0_transform_0 k0_off1_inb numel1_S1 a.1 (grid0.coords t) := rfl
theorem index0_1 (a : (pcfg0 (F := Ideal)).Adm) (t : Fin (cfg0 a).N) : ((cfg0 a).win 0).index t (1 : Fin 2) = 0 := rfl

/-- At a tile of order 0 the order-0 window's block index is the tile's position. -/
theorem index0_0 (t : Fin (cfgM m).N) (h : lit0 (grid0.coords t 0) = 0#32) :
    ((cfgM m).win 0).index t (0 : Fin 2) = (lit1 (grid0.coords t 0)).toNat := by
  rw [index0 (adm m) t]
  show (Scalar.select (Scalar.cmpi .eq ((tbl m).at 0 (Rect.unit (s := S360) (k0_off1 (grid0.coords t)) S1.size (k0_off1_inb _)) numel1_S1) 0#32)
      ((tbl m).at 1 (Rect.unit (s := S360) (k0_off1 (grid0.coords t)) S1.size (k0_off1_inb _)) numel1_S1) 0#32).toNat = _
  rw [at_order, at_pos, h]; rfl

theorem index1 (a : (pcfg0 (F := Ideal)).Adm) (t : Fin (cfg0 a).N) :
    ((cfg0 a).win 1).index t = cc0_transform_1 k0_off1_inb numel1_S1 a.1 (grid0.coords t) := rfl
theorem index1_1 (a : (pcfg0 (F := Ideal)).Adm) (t : Fin (cfg0 a).N) : ((cfg0 a).win 1).index t (1 : Fin 2) = 0 := rfl

/-- At a tile of order 1 the order-1 window's block index is the tile's position. -/
theorem index1_0 (t : Fin (cfgM m).N) (h : lit0 (grid0.coords t 0) = 1#32) :
    ((cfgM m).win 1).index t (0 : Fin 2) = (lit1 (grid0.coords t 0)).toNat := by
  rw [index1 (adm m) t]
  show (Scalar.select (Scalar.cmpi .eq ((tbl m).at 0 (Rect.unit (s := S360) (k0_off1 (grid0.coords t)) S1.size (k0_off1_inb _)) numel1_S1) 1#32)
      ((tbl m).at 1 (Rect.unit (s := S360) (k0_off1 (grid0.coords t)) S1.size (k0_off1_inb _)) numel1_S1) 0#32).toNat = _
  rw [at_order, at_pos, h]; rfl

theorem index2 (a : (pcfg0 (F := Ideal)).Adm) (t : Fin (cfg0 a).N) :
    ((cfg0 a).win 2).index t = cc0_transform_2 k0_off1_inb numel1_S1 a.1 (grid0.coords t) := rfl
theorem index2_1 (a : (pcfg0 (F := Ideal)).Adm) (t : Fin (cfg0 a).N) : ((cfg0 a).win 2).index t (1 : Fin 2) = 0 := rfl

/-- At a tile of order 2 the order-2 window's block index is the tile's position. -/
theorem index2_0 (t : Fin (cfgM m).N) (h : lit0 (grid0.coords t 0) = 2#32) :
    ((cfgM m).win 2).index t (0 : Fin 2) = (lit1 (grid0.coords t 0)).toNat := by
  rw [index2 (adm m) t]
  show (Scalar.select (Scalar.cmpi .eq ((tbl m).at 0 (Rect.unit (s := S360) (k0_off1 (grid0.coords t)) S1.size (k0_off1_inb _)) numel1_S1) 2#32)
      ((tbl m).at 1 (Rect.unit (s := S360) (k0_off1 (grid0.coords t)) S1.size (k0_off1_inb _)) numel1_S1) 0#32).toNat = _
  rw [at_order, at_pos, h]; rfl

theorem index3 (a : (pcfg0 (F := Ideal)).Adm) (t : Fin (cfg0 a).N) :
    ((cfg0 a).win 3).index t = cc0_transform_3 k0_off1_inb numel1_S1 a.1 (grid0.coords t) := rfl
theorem index3_1 (a : (pcfg0 (F := Ideal)).Adm) (t : Fin (cfg0 a).N) : ((cfg0 a).win 3).index t (1 : Fin 2) = 0 := rfl

/-- At a tile of order 3 the order-3 window's block index is the tile's position. -/
theorem index3_0 (t : Fin (cfgM m).N) (h : lit0 (grid0.coords t 0) = 3#32) :
    ((cfgM m).win 3).index t (0 : Fin 2) = (lit1 (grid0.coords t 0)).toNat := by
  rw [index3 (adm m) t]
  show (Scalar.select (Scalar.cmpi .eq ((tbl m).at 0 (Rect.unit (s := S360) (k0_off1 (grid0.coords t)) S1.size (k0_off1_inb _)) numel1_S1) 3#32)
      ((tbl m).at 1 (Rect.unit (s := S360) (k0_off1 (grid0.coords t)) S1.size (k0_off1_inb _)) numel1_S1) 0#32).toNat = _
  rw [at_order, at_pos, h]; rfl

theorem index4 (a : (pcfg0 (F := Ideal)).Adm) (t : Fin (cfg0 a).N) :
    ((cfg0 a).win 4).index t = cc0_transform_4 k0_off1_inb numel1_S1 a.1 (grid0.coords t) := rfl
theorem index4_1 (a : (pcfg0 (F := Ideal)).Adm) (t : Fin (cfg0 a).N) : ((cfg0 a).win 4).index t (1 : Fin 2) = 0 := rfl

/-- At a tile of order 4 the order-4 window's block index is the tile's position. -/
theorem index4_0 (t : Fin (cfgM m).N) (h : lit0 (grid0.coords t 0) = 4#32) :
    ((cfgM m).win 4).index t (0 : Fin 2) = (lit1 (grid0.coords t 0)).toNat := by
  rw [index4 (adm m) t]
  show (Scalar.select (Scalar.cmpi .eq ((tbl m).at 0 (Rect.unit (s := S360) (k0_off1 (grid0.coords t)) S1.size (k0_off1_inb _)) numel1_S1) 4#32)
      ((tbl m).at 1 (Rect.unit (s := S360) (k0_off1 (grid0.coords t)) S1.size (k0_off1_inb _)) numel1_S1) 0#32).toNat = _
  rw [at_order, at_pos, h]; rfl

theorem index5 (a : (pcfg0 (F := Ideal)).Adm) (t : Fin (cfg0 a).N) :
    ((cfg0 a).win 5).index t = cc0_transform_5 k0_off1_inb numel1_S1 a.1 (grid0.coords t) := rfl
theorem index5_1 (a : (pcfg0 (F := Ideal)).Adm) (t : Fin (cfg0 a).N) : ((cfg0 a).win 5).index t (1 : Fin 2) = 0 := rfl

/-- At a tile of order 5 the order-5 window's block index is the tile's position. -/
theorem index5_0 (t : Fin (cfgM m).N) (h : lit0 (grid0.coords t 0) = 5#32) :
    ((cfgM m).win 5).index t (0 : Fin 2) = (lit1 (grid0.coords t 0)).toNat := by
  rw [index5 (adm m) t]
  show (Scalar.select (Scalar.cmpi .eq ((tbl m).at 0 (Rect.unit (s := S360) (k0_off1 (grid0.coords t)) S1.size (k0_off1_inb _)) numel1_S1) 5#32)
      ((tbl m).at 1 (Rect.unit (s := S360) (k0_off1 (grid0.coords t)) S1.size (k0_off1_inb _)) numel1_S1) 0#32).toNat = _
  rw [at_order, at_pos, h]; rfl

theorem index6 (a : (pcfg0 (F := Ideal)).Adm) (t : Fin (cfg0 a).N) :
    ((cfg0 a).win 6).index t = cc0_transform_6 k0_off1_inb numel1_S1 a.1 (grid0.coords t) := rfl
theorem index6_1 (a : (pcfg0 (F := Ideal)).Adm) (t : Fin (cfg0 a).N) : ((cfg0 a).win 6).index t (1 : Fin 3) = 0 := rfl
theorem index6_2 (a : (pcfg0 (F := Ideal)).Adm) (t : Fin (cfg0 a).N) : ((cfg0 a).win 6).index t (2 : Fin 3) = 0 := rfl
/-- The weight window's block index is the tile's order. -/
theorem index6_0 (t : Fin (cfgM m).N) : ((cfgM m).win 6).index t (0 : Fin 3) = (lit0 (grid0.coords t 0)).toNat := by
  rw [index6 (adm m) t]
  show ((tbl m).at 0 (Rect.unit (s := S360) (k0_off1 (grid0.coords t)) S1.size (k0_off1_inb _)) numel1_S1).toNat = _
  rw [at_order]

theorem index7 (a : (pcfg0 (F := Ideal)).Adm) (t : Fin (cfg0 a).N) : ((cfg0 a).win 7).index t = cc0_transform_7 (grid0.coords t) := rfl
theorem index7_1 (a : (pcfg0 (F := Ideal)).Adm) (t : Fin (cfg0 a).N) : ((cfg0 a).win 7).index t (1 : Fin 2) = 0 := rfl
/-- The output window's block index is the tile's number. -/
theorem index7_0 : ∀ t : Fin grid0.N, cc0_transform_7 (grid0.coords t) (0 : Fin 2) = t.val := by decide +kernel

/-! ## The blocks at an entry -/

theorem iblk0_at (c : Dev nD) (t : Fin (cfgM m).N) (h : lit0 (grid0.coords t 0) = 0#32) (p : Fin 2000) (k : Fin 128)
    (R : Fin 20000) (hR : R.val = (lit1 (grid0.coords t 0)).toNat * 2000 + p.val) :
    iblk m c 0 t (ix2 p k) = m ((c : Thread nD τ).loc main_arg0) (ix3 (⟨R.val / 1, by omega⟩ : Fin 20000) (⟨R.val % 1, by omega⟩ : Fin 1) k) := by
  have hidx : (((cfgM m).win 0).blk t).view.emb (ix2 p k) = (ix2 R k : S20000x128.Idx) := funext fun a => Fin.ext (by
    match a with
    | ⟨0, _⟩ =>
      show ((cfgM m).win 0).index t (0 : Fin 2) * 2000 + 1 * p.val = R.val
      rw [index0_0 m t h, hR]; omega
    | ⟨1, _⟩ =>
      show ((cfgM m).win 0).index t (1 : Fin 2) * 128 + 1 * k.val = k.val
      rw [index0_1 (adm m) t]; omega)
  have e : iblk m c 0 t (ix2 p k) = V m c main_v0 ((((cfgM m).win 0).blk t).view.emb (ix2 p k)) := rfl
  rw [e, hidx]
  exact V_v0_at m c R k

theorem iblk1_at (c : Dev nD) (t : Fin (cfgM m).N) (h : lit0 (grid0.coords t 0) = 1#32) (p : Fin 2000) (k : Fin 128)
    (R : Fin 60000) (hR : R.val = (lit1 (grid0.coords t 0)).toNat * 2000 + p.val) :
    iblk m c 1 t (ix2 p k) = m ((c : Thread nD τ).loc main_arg1) (ix3 (⟨R.val / 3, by omega⟩ : Fin 20000) (⟨R.val % 3, by omega⟩ : Fin 3) k) := by
  have hidx : (((cfgM m).win 1).blk t).view.emb (ix2 p k) = (ix2 R k : S60000x128.Idx) := funext fun a => Fin.ext (by
    match a with
    | ⟨0, _⟩ =>
      show ((cfgM m).win 1).index t (0 : Fin 2) * 2000 + 1 * p.val = R.val
      rw [index1_0 m t h, hR]; omega
    | ⟨1, _⟩ =>
      show ((cfgM m).win 1).index t (1 : Fin 2) * 128 + 1 * k.val = k.val
      rw [index1_1 (adm m) t]; omega)
  have e : iblk m c 1 t (ix2 p k) = V m c main_v1 ((((cfgM m).win 1).blk t).view.emb (ix2 p k)) := rfl
  rw [e, hidx]
  exact V_v1_at m c R k

theorem iblk2_at (c : Dev nD) (t : Fin (cfgM m).N) (h : lit0 (grid0.coords t 0) = 2#32) (p : Fin 2000) (k : Fin 128)
    (R : Fin 100000) (hR : R.val = (lit1 (grid0.coords t 0)).toNat * 2000 + p.val) :
    iblk m c 2 t (ix2 p k) = m ((c : Thread nD τ).loc main_arg2) (ix3 (⟨R.val / 5, by omega⟩ : Fin 20000) (⟨R.val % 5, by omega⟩ : Fin 5) k) := by
  have hidx : (((cfgM m).win 2).blk t).view.emb (ix2 p k) = (ix2 R k : S100000x128.Idx) := funext fun a => Fin.ext (by
    match a with
    | ⟨0, _⟩ =>
      show ((cfgM m).win 2).index t (0 : Fin 2) * 2000 + 1 * p.val = R.val
      rw [index2_0 m t h, hR]; omega
    | ⟨1, _⟩ =>
      show ((cfgM m).win 2).index t (1 : Fin 2) * 128 + 1 * k.val = k.val
      rw [index2_1 (adm m) t]; omega)
  have e : iblk m c 2 t (ix2 p k) = V m c main_v2 ((((cfgM m).win 2).blk t).view.emb (ix2 p k)) := rfl
  rw [e, hidx]
  exact V_v2_at m c R k

theorem iblk3_at (c : Dev nD) (t : Fin (cfgM m).N) (h : lit0 (grid0.coords t 0) = 3#32) (p : Fin 2000) (k : Fin 128)
    (R : Fin 140000) (hR : R.val = (lit1 (grid0.coords t 0)).toNat * 2000 + p.val) :
    iblk m c 3 t (ix2 p k) = m ((c : Thread nD τ).loc main_arg3) (ix3 (⟨R.val / 7, by omega⟩ : Fin 20000) (⟨R.val % 7, by omega⟩ : Fin 7) k) := by
  have hidx : (((cfgM m).win 3).blk t).view.emb (ix2 p k) = (ix2 R k : S140000x128.Idx) := funext fun a => Fin.ext (by
    match a with
    | ⟨0, _⟩ =>
      show ((cfgM m).win 3).index t (0 : Fin 2) * 2000 + 1 * p.val = R.val
      rw [index3_0 m t h, hR]; omega
    | ⟨1, _⟩ =>
      show ((cfgM m).win 3).index t (1 : Fin 2) * 128 + 1 * k.val = k.val
      rw [index3_1 (adm m) t]; omega)
  have e : iblk m c 3 t (ix2 p k) = V m c main_v3 ((((cfgM m).win 3).blk t).view.emb (ix2 p k)) := rfl
  rw [e, hidx]
  exact V_v3_at m c R k

theorem iblk4_at (c : Dev nD) (t : Fin (cfgM m).N) (h : lit0 (grid0.coords t 0) = 4#32) (p : Fin 2000) (k : Fin 128)
    (R : Fin 180000) (hR : R.val = (lit1 (grid0.coords t 0)).toNat * 2000 + p.val) :
    iblk m c 4 t (ix2 p k) = m ((c : Thread nD τ).loc main_arg4) (ix3 (⟨R.val / 9, by omega⟩ : Fin 20000) (⟨R.val % 9, by omega⟩ : Fin 9) k) := by
  have hidx : (((cfgM m).win 4).blk t).view.emb (ix2 p k) = (ix2 R k : S180000x128.Idx) := funext fun a => Fin.ext (by
    match a with
    | ⟨0, _⟩ =>
      show ((cfgM m).win 4).index t (0 : Fin 2) * 2000 + 1 * p.val = R.val
      rw [index4_0 m t h, hR]; omega
    | ⟨1, _⟩ =>
      show ((cfgM m).win 4).index t (1 : Fin 2) * 128 + 1 * k.val = k.val
      rw [index4_1 (adm m) t]; omega)
  have e : iblk m c 4 t (ix2 p k) = V m c main_v4 ((((cfgM m).win 4).blk t).view.emb (ix2 p k)) := rfl
  rw [e, hidx]
  exact V_v4_at m c R k

theorem iblk5_at (c : Dev nD) (t : Fin (cfgM m).N) (h : lit0 (grid0.coords t 0) = 5#32) (p : Fin 2000) (k : Fin 128)
    (R : Fin 220000) (hR : R.val = (lit1 (grid0.coords t 0)).toNat * 2000 + p.val) :
    iblk m c 5 t (ix2 p k) = m ((c : Thread nD τ).loc main_arg5) (ix3 (⟨R.val / 11, by omega⟩ : Fin 20000) (⟨R.val % 11, by omega⟩ : Fin 11) k) := by
  have hidx : (((cfgM m).win 5).blk t).view.emb (ix2 p k) = (ix2 R k : S220000x128.Idx) := funext fun a => Fin.ext (by
    match a with
    | ⟨0, _⟩ =>
      show ((cfgM m).win 5).index t (0 : Fin 2) * 2000 + 1 * p.val = R.val
      rw [index5_0 m t h, hR]; omega
    | ⟨1, _⟩ =>
      show ((cfgM m).win 5).index t (1 : Fin 2) * 128 + 1 * k.val = k.val
      rw [index5_1 (adm m) t]; omega)
  have e : iblk m c 5 t (ix2 p k) = V m c main_v5 ((((cfgM m).win 5).blk t).view.emb (ix2 p k)) := rfl
  rw [e, hidx]
  exact V_v5_at m c R k

theorem iblkW0_at (c : Dev nD) (t : Fin (cfgM m).N) (h : lit0 (grid0.coords t 0) = 0#32) (k : Fin 128) (q : Fin 256) :
    iblk m c 6 t (ix3 (0 : Fin 1) k q) = m ((c : Thread nD τ).loc main_arg6) (ix3 (0 : Fin 6) k q) := by
  have hidx : (((cfgM m).win 6).blk t).view.emb (ix3 (0 : Fin 1) k q) = (ix3 (0 : Fin 6) k q : S6x128x256.Idx) := funext fun a => Fin.ext (by
    match a with
    | ⟨0, _⟩ =>
      show ((cfgM m).win 6).index t (0 : Fin 3) * 1 + 1 * 0 = 0
      rw [index6_0 m t, h]; rfl
    | ⟨1, _⟩ =>
      show ((cfgM m).win 6).index t (1 : Fin 3) * 128 + 1 * k.val = k.val
      rw [index6_1 (adm m) t]; omega
    | ⟨2, _⟩ =>
      show ((cfgM m).win 6).index t (2 : Fin 3) * 256 + 1 * q.val = q.val
      rw [index6_2 (adm m) t]; omega)
  have e : iblk m c 6 t (ix3 (0 : Fin 1) k q) = V m c main_arg6 ((((cfgM m).win 6).blk t).view.emb (ix3 (0 : Fin 1) k q)) := rfl
  rw [e, hidx]
  exact congrFun (V_main_arg6 m c) _

theorem iblkW1_at (c : Dev nD) (t : Fin (cfgM m).N) (h : lit0 (grid0.coords t 0) = 1#32) (k : Fin 128) (q : Fin 256) :
    iblk m c 6 t (ix3 (0 : Fin 1) k q) = m ((c : Thread nD τ).loc main_arg6) (ix3 (1 : Fin 6) k q) := by
  have hidx : (((cfgM m).win 6).blk t).view.emb (ix3 (0 : Fin 1) k q) = (ix3 (1 : Fin 6) k q : S6x128x256.Idx) := funext fun a => Fin.ext (by
    match a with
    | ⟨0, _⟩ =>
      show ((cfgM m).win 6).index t (0 : Fin 3) * 1 + 1 * 0 = 1
      rw [index6_0 m t, h]; rfl
    | ⟨1, _⟩ =>
      show ((cfgM m).win 6).index t (1 : Fin 3) * 128 + 1 * k.val = k.val
      rw [index6_1 (adm m) t]; omega
    | ⟨2, _⟩ =>
      show ((cfgM m).win 6).index t (2 : Fin 3) * 256 + 1 * q.val = q.val
      rw [index6_2 (adm m) t]; omega)
  have e : iblk m c 6 t (ix3 (0 : Fin 1) k q) = V m c main_arg6 ((((cfgM m).win 6).blk t).view.emb (ix3 (0 : Fin 1) k q)) := rfl
  rw [e, hidx]
  exact congrFun (V_main_arg6 m c) _

theorem iblkW2_at (c : Dev nD) (t : Fin (cfgM m).N) (h : lit0 (grid0.coords t 0) = 2#32) (k : Fin 128) (q : Fin 256) :
    iblk m c 6 t (ix3 (0 : Fin 1) k q) = m ((c : Thread nD τ).loc main_arg6) (ix3 (2 : Fin 6) k q) := by
  have hidx : (((cfgM m).win 6).blk t).view.emb (ix3 (0 : Fin 1) k q) = (ix3 (2 : Fin 6) k q : S6x128x256.Idx) := funext fun a => Fin.ext (by
    match a with
    | ⟨0, _⟩ =>
      show ((cfgM m).win 6).index t (0 : Fin 3) * 1 + 1 * 0 = 2
      rw [index6_0 m t, h]; rfl
    | ⟨1, _⟩ =>
      show ((cfgM m).win 6).index t (1 : Fin 3) * 128 + 1 * k.val = k.val
      rw [index6_1 (adm m) t]; omega
    | ⟨2, _⟩ =>
      show ((cfgM m).win 6).index t (2 : Fin 3) * 256 + 1 * q.val = q.val
      rw [index6_2 (adm m) t]; omega)
  have e : iblk m c 6 t (ix3 (0 : Fin 1) k q) = V m c main_arg6 ((((cfgM m).win 6).blk t).view.emb (ix3 (0 : Fin 1) k q)) := rfl
  rw [e, hidx]
  exact congrFun (V_main_arg6 m c) _

theorem iblkW3_at (c : Dev nD) (t : Fin (cfgM m).N) (h : lit0 (grid0.coords t 0) = 3#32) (k : Fin 128) (q : Fin 256) :
    iblk m c 6 t (ix3 (0 : Fin 1) k q) = m ((c : Thread nD τ).loc main_arg6) (ix3 (3 : Fin 6) k q) := by
  have hidx : (((cfgM m).win 6).blk t).view.emb (ix3 (0 : Fin 1) k q) = (ix3 (3 : Fin 6) k q : S6x128x256.Idx) := funext fun a => Fin.ext (by
    match a with
    | ⟨0, _⟩ =>
      show ((cfgM m).win 6).index t (0 : Fin 3) * 1 + 1 * 0 = 3
      rw [index6_0 m t, h]; rfl
    | ⟨1, _⟩ =>
      show ((cfgM m).win 6).index t (1 : Fin 3) * 128 + 1 * k.val = k.val
      rw [index6_1 (adm m) t]; omega
    | ⟨2, _⟩ =>
      show ((cfgM m).win 6).index t (2 : Fin 3) * 256 + 1 * q.val = q.val
      rw [index6_2 (adm m) t]; omega)
  have e : iblk m c 6 t (ix3 (0 : Fin 1) k q) = V m c main_arg6 ((((cfgM m).win 6).blk t).view.emb (ix3 (0 : Fin 1) k q)) := rfl
  rw [e, hidx]
  exact congrFun (V_main_arg6 m c) _

theorem iblkW4_at (c : Dev nD) (t : Fin (cfgM m).N) (h : lit0 (grid0.coords t 0) = 4#32) (k : Fin 128) (q : Fin 256) :
    iblk m c 6 t (ix3 (0 : Fin 1) k q) = m ((c : Thread nD τ).loc main_arg6) (ix3 (4 : Fin 6) k q) := by
  have hidx : (((cfgM m).win 6).blk t).view.emb (ix3 (0 : Fin 1) k q) = (ix3 (4 : Fin 6) k q : S6x128x256.Idx) := funext fun a => Fin.ext (by
    match a with
    | ⟨0, _⟩ =>
      show ((cfgM m).win 6).index t (0 : Fin 3) * 1 + 1 * 0 = 4
      rw [index6_0 m t, h]; rfl
    | ⟨1, _⟩ =>
      show ((cfgM m).win 6).index t (1 : Fin 3) * 128 + 1 * k.val = k.val
      rw [index6_1 (adm m) t]; omega
    | ⟨2, _⟩ =>
      show ((cfgM m).win 6).index t (2 : Fin 3) * 256 + 1 * q.val = q.val
      rw [index6_2 (adm m) t]; omega)
  have e : iblk m c 6 t (ix3 (0 : Fin 1) k q) = V m c main_arg6 ((((cfgM m).win 6).blk t).view.emb (ix3 (0 : Fin 1) k q)) := rfl
  rw [e, hidx]
  exact congrFun (V_main_arg6 m c) _

theorem iblkW5_at (c : Dev nD) (t : Fin (cfgM m).N) (h : lit0 (grid0.coords t 0) = 5#32) (k : Fin 128) (q : Fin 256) :
    iblk m c 6 t (ix3 (0 : Fin 1) k q) = m ((c : Thread nD τ).loc main_arg6) (ix3 (5 : Fin 6) k q) := by
  have hidx : (((cfgM m).win 6).blk t).view.emb (ix3 (0 : Fin 1) k q) = (ix3 (5 : Fin 6) k q : S6x128x256.Idx) := funext fun a => Fin.ext (by
    match a with
    | ⟨0, _⟩ =>
      show ((cfgM m).win 6).index t (0 : Fin 3) * 1 + 1 * 0 = 5
      rw [index6_0 m t, h]; rfl
    | ⟨1, _⟩ =>
      show ((cfgM m).win 6).index t (1 : Fin 3) * 128 + 1 * k.val = k.val
      rw [index6_1 (adm m) t]; omega
    | ⟨2, _⟩ =>
      show ((cfgM m).win 6).index t (2 : Fin 3) * 256 + 1 * q.val = q.val
      rw [index6_2 (adm m) t]; omega)
  have e : iblk m c 6 t (ix3 (0 : Fin 1) k q) = V m c main_arg6 ((((cfgM m).win 6).blk t).view.emb (ix3 (0 : Fin 1) k q)) := rfl
  rw [e, hidx]
  exact congrFun (V_main_arg6 m c) _

end Cert.KernelIdeal.Tiles

end
-- ==== Proof.Spec.lean ====
/-
  The result both programs compute, as one function of the seven argument arrays, entry by entry.

  The output has 720000 rows of 256 entries. Its rows fall into six consecutive stretches, one per angular order
  l = 0, …, 5; the stretch of order l has 20000·(2l+1) rows and begins at row 20000·l². Row r of that stretch is
  sample r / (2l+1), component r mod (2l+1) of the value array of order l, and its entry q is the sum over the
  128 properties k of  value(sample, component, k) · W(l, k, q).
-/
import Idealize.ShloMosaic.PureOps.Ideal
import Idealize.ShloMosaic.Lib.ValueIdx

noncomputable section

namespace Cert.TileSpec

open Idealize.ShloMosaic Idealize.ShloMosaic.ValueIdx

/-- Entry q of row r of the stretch of order 0. -/
def row0 (x : (⟨3, ![20000, 1, 128]⟩ : Shape).Idx → EReal) (w : (⟨3, ![6, 128, 256]⟩ : Shape).Idx → EReal)
    (r : ℕ) (hr : r < 20000) (q : Fin 256) : EReal :=
  ∑ k : Fin 128, x (ix3 (⟨r / 1, by omega⟩ : Fin 20000) (⟨r % 1, by omega⟩ : Fin 1) k) * w (ix3 (0 : Fin 6) k q)

/-- Entry q of row r of the stretch of order 1. -/
def row1 (x : (⟨3, ![20000, 3, 128]⟩ : Shape).Idx → EReal) (w : (⟨3, ![6, 128, 256]⟩ : Shape).Idx → EReal)
    (r : ℕ) (hr : r < 60000) (q : Fin 256) : EReal :=
  ∑ k : Fin 128, x (ix3 (⟨r / 3, by omega⟩ : Fin 20000) (⟨r % 3, by omega⟩ : Fin 3) k) * w (ix3 (1 : Fin 6) k q)

/-- Entry q of row r of the stretch of order 2. -/
def row2 (x : (⟨3, ![20000, 5, 128]⟩ : Shape).Idx → EReal) (w : (⟨3, ![6, 128, 256]⟩ : Shape).Idx → EReal)
    (r : ℕ) (hr : r < 100000) (q : Fin 256) : EReal :=
  ∑ k : Fin 128, x (ix3 (⟨r / 5, by omega⟩ : Fin 20000) (⟨r % 5, by omega⟩ : Fin 5) k) * w (ix3 (2 : Fin 6) k q)

/-- Entry q of row r of the stretch of order 3. -/
def row3 (x : (⟨3, ![20000, 7, 128]⟩ : Shape).Idx → EReal) (w : (⟨3, ![6, 128, 256]⟩ : Shape).Idx → EReal)
    (r : ℕ) (hr : r < 140000) (q : Fin 256) : EReal :=
  ∑ k : Fin 128, x (ix3 (⟨r / 7, by omega⟩ : Fin 20000) (⟨r % 7, by omega⟩ : Fin 7) k) * w (ix3 (3 : Fin 6) k q)

/-- Entry q of row r of the stretch of order 4. -/
def row4 (x : (⟨3, ![20000, 9, 128]⟩ : Shape).Idx → EReal) (w : (⟨3, ![6, 128, 256]⟩ : Shape).Idx → EReal)
    (r : ℕ) (hr : r < 180000) (q : Fin 256) : EReal :=
  ∑ k : Fin 128, x (ix3 (⟨r / 9, by omega⟩ : Fin 20000) (⟨r % 9, by omega⟩ : Fin 9) k) * w (ix3 (4 : Fin 6) k q)

/-- Entry q of row r of the stretch of order 5. -/
def row5 (x : (⟨3, ![20000, 11, 128]⟩ : Shape).Idx → EReal) (w : (⟨3, ![6, 128, 256]⟩ : Shape).Idx → EReal)
    (r : ℕ) (hr : r < 220000) (q : Fin 256) : EReal :=
  ∑ k : Fin 128, x (ix3 (⟨r / 11, by omega⟩ : Fin 20000) (⟨r % 11, by omega⟩ : Fin 11) k) * w (ix3 (5 : Fin 6) k q)

theorem row0_congr (x : (⟨3, ![20000, 1, 128]⟩ : Shape).Idx → EReal) (w : (⟨3, ![6, 128, 256]⟩ : Shape).Idx → EReal)
    (r r' : ℕ) (h : r = r') (hr : r < 20000) (hr' : r' < 20000) (q : Fin 256) : row0 x w r hr q = row0 x w r' hr' q := by
  subst h; rfl

theorem row1_congr (x : (⟨3, ![20000, 3, 128]⟩ : Shape).Idx → EReal) (w : (⟨3, ![6, 128, 256]⟩ : Shape).Idx → EReal)
    (r r' : ℕ) (h : r = r') (hr : r < 60000) (hr' : r' < 60000) (q : Fin 256) : row1 x w r hr q = row1 x w r' hr' q := by
  subst h; rfl

theorem row2_congr (x : (⟨3, ![20000, 5, 128]⟩ : Shape).Idx → EReal) (w : (⟨3, ![6, 128, 256]⟩ : Shape).Idx → EReal)
    (r r' : ℕ) (h : r = r') (hr : r < 100000) (hr' : r' < 100000) (q : Fin 256) : row2 x w r hr q = row2 x w r' hr' q := by
  subst h; rfl

theorem row3_congr (x : (⟨3, ![20000, 7, 128]⟩ : Shape).Idx → EReal) (w : (⟨3, ![6, 128, 256]⟩ : Shape).Idx → EReal)
    (r r' : ℕ) (h : r = r') (hr : r < 140000) (hr' : r' < 140000) (q : Fin 256) : row3 x w r hr q = row3 x w r' hr' q := by
  subst h; rfl

theorem row4_congr (x : (⟨3, ![20000, 9, 128]⟩ : Shape).Idx → EReal) (w : (⟨3, ![6, 128, 256]⟩ : Shape).Idx → EReal)
    (r r' : ℕ) (h : r = r') (hr : r < 180000) (hr' : r' < 180000) (q : Fin 256) : row4 x w r hr q = row4 x w r' hr' q := by
  subst h; rfl

theorem row5_congr (x : (⟨3, ![20000, 11, 128]⟩ : Shape).Idx → EReal) (w : (⟨3, ![6, 128, 256]⟩ : Shape).Idx → EReal)
    (r r' : ℕ) (h : r = r') (hr : r < 220000) (hr' : r' < 220000) (q : Fin 256) : row5 x w r hr q = row5 x w r' hr' q := by
  subst h; rfl

/-- The whole result. -/
def G (x0 : (⟨3, ![20000, 1, 128]⟩ : Shape).Idx → EReal) (x1 : (⟨3, ![20000, 3, 128]⟩ : Shape).Idx → EReal) (x2 : (⟨3, ![20000, 5, 128]⟩ : Shape).Idx → EReal) (x3 : (⟨3, ![20000, 7, 128]⟩ : Shape).Idx → EReal) (x4 : (⟨3, ![20000, 9, 128]⟩ : Shape).Idx → EReal) (x5 : (⟨3, ![20000, 11, 128]⟩ : Shape).Idx → EReal)
    (w : (⟨3, ![6, 128, 256]⟩ : Shape).Idx → EReal) : (⟨2, ![720000, 256]⟩ : Shape).Idx → EReal := fun j =>
  have hj : (j 0).val < 720000 := (j 0).isLt
  if h0 : (j 0).val < 20000 then row0 x0 w ((j 0).val - 0) (by omega) (j 1)
  else if h1 : (j 0).val < 80000 then row1 x1 w ((j 0).val - 20000) (by omega) (j 1)
  else if h2 : (j 0).val < 180000 then row2 x2 w ((j 0).val - 80000) (by omega) (j 1)
  else if h3 : (j 0).val < 320000 then row3 x3 w ((j 0).val - 180000) (by omega) (j 1)
  else if h4 : (j 0).val < 500000 then row4 x4 w ((j 0).val - 320000) (by omega) (j 1)
  else row5 x5 w ((j 0).val - 500000) (by omega) (j 1)

/-- The result at a row of the stretch of order 0. -/
theorem G_row0 (x0 : (⟨3, ![20000, 1, 128]⟩ : Shape).Idx → EReal) (x1 : (⟨3, ![20000, 3, 128]⟩ : Shape).Idx → EReal) (x2 : (⟨3, ![20000, 5, 128]⟩ : Shape).Idx → EReal) (x3 : (⟨3, ![20000, 7, 128]⟩ : Shape).Idx → EReal) (x4 : (⟨3, ![20000, 9, 128]⟩ : Shape).Idx → EReal) (x5 : (⟨3, ![20000, 11, 128]⟩ : Shape).Idx → EReal)
    (w : (⟨3, ![6, 128, 256]⟩ : Shape).Idx → EReal) (j : (⟨2, ![720000, 256]⟩ : Shape).Idx) (r : ℕ) (hr : r < 20000) (q : Fin 256)
    (hj0 : (j 0).val = 0 + r) (hj1 : j 1 = q) : G x0 x1 x2 x3 x4 x5 w j = row0 x0 w r hr q := by
  subst hj1
  unfold G
  dsimp only
  rw [dif_pos (by omega)]
  exact row0_congr x0 w _ _ (by omega) _ _ (j 1)

/-- The result at a row of the stretch of order 1. -/
theorem G_row1 (x0 : (⟨3, ![20000, 1, 128]⟩ : Shape).Idx → EReal) (x1 : (⟨3, ![20000, 3, 128]⟩ : Shape).Idx → EReal) (x2 : (⟨3, ![20000, 5, 128]⟩ : Shape).Idx → EReal) (x3 : (⟨3, ![20000, 7, 128]⟩ : Shape).Idx → EReal) (x4 : (⟨3, ![20000, 9, 128]⟩ : Shape).Idx → EReal) (x5 : (⟨3, ![20000, 11, 128]⟩ : Shape).Idx → EReal)
    (w : (⟨3, ![6, 128, 256]⟩ : Shape).Idx → EReal) (j : (⟨2, ![720000, 256]⟩ : Shape).Idx) (r : ℕ) (hr : r < 60000) (q : Fin 256)
    (hj0 : (j 0).val = 20000 + r) (hj1 : j 1 = q) : G x0 x1 x2 x3 x4 x5 w j = row1 x1 w r hr q := by
  subst hj1
  unfold G
  dsimp only
  rw [dif_neg (by omega), dif_pos (by omega)]
  exact row1_congr x1 w _ _ (by omega) _ _ (j 1)

/-- The result at a row of the stretch of order 2. -/
theorem G_row2 (x0 : (⟨3, ![20000, 1, 128]⟩ : Shape).Idx → EReal) (x1 : (⟨3, ![20000, 3, 128]⟩ : Shape).Idx → EReal) (x2 : (⟨3, ![20000, 5, 128]⟩ : Shape).Idx → EReal) (x3 : (⟨3, ![20000, 7, 128]⟩ : Shape).Idx → EReal) (x4 : (⟨3, ![20000, 9, 128]⟩ : Shape).Idx → EReal) (x5 : (⟨3, ![20000, 11, 128]⟩ : Shape).Idx → EReal)
    (w : (⟨3, ![6, 128, 256]⟩ : Shape).Idx → EReal) (j : (⟨2, ![720000, 256]⟩ : Shape).Idx) (r : ℕ) (hr : r < 100000) (q : Fin 256)
    (hj0 : (j 0).val = 80000 + r) (hj1 : j 1 = q) : G x0 x1 x2 x3 x4 x5 w j = row2 x2 w r hr q := by
  subst hj1
  unfold G
  dsimp only
  rw [dif_neg (by omega), dif_neg (by omega), dif_pos (by omega)]
  exact row2_congr x2 w _ _ (by omega) _ _ (j 1)

/-- The result at a row of the stretch of order 3. -/
theorem G_row3 (x0 : (⟨3, ![20000, 1, 128]⟩ : Shape).Idx → EReal) (x1 : (⟨3, ![20000, 3, 128]⟩ : Shape).Idx → EReal) (x2 : (⟨3, ![20000, 5, 128]⟩ : Shape).Idx → EReal) (x3 : (⟨3, ![20000, 7, 128]⟩ : Shape).Idx → EReal) (x4 : (⟨3, ![20000, 9, 128]⟩ : Shape).Idx → EReal) (x5 : (⟨3, ![20000, 11, 128]⟩ : Shape).Idx → EReal)
    (w : (⟨3, ![6, 128, 256]⟩ : Shape).Idx → EReal) (j : (⟨2, ![720000, 256]⟩ : Shape).Idx) (r : ℕ) (hr : r < 140000) (q : Fin 256)
    (hj0 : (j 0).val = 180000 + r) (hj1 : j 1 = q) : G x0 x1 x2 x3 x4 x5 w j = row3 x3 w r hr q := by
  subst hj1
  unfold G
  dsimp only
  rw [dif_neg (by omega), dif_neg (by omega), dif_neg (by omega), dif_pos (by omega)]
  exact row3_congr x3 w _ _ (by omega) _ _ (j 1)

/-- The result at a row of the stretch of order 4. -/
theorem G_row4 (x0 : (⟨3, ![20000, 1, 128]⟩ : Shape).Idx → EReal) (x1 : (⟨3, ![20000, 3, 128]⟩ : Shape).Idx → EReal) (x2 : (⟨3, ![20000, 5, 128]⟩ : Shape).Idx → EReal) (x3 : (⟨3, ![20000, 7, 128]⟩ : Shape).Idx → EReal) (x4 : (⟨3, ![20000, 9, 128]⟩ : Shape).Idx → EReal) (x5 : (⟨3, ![20000, 11, 128]⟩ : Shape).Idx → EReal)
    (w : (⟨3, ![6, 128, 256]⟩ : Shape).Idx → EReal) (j : (⟨2, ![720000, 256]⟩ : Shape).Idx) (r : ℕ) (hr : r < 180000) (q : Fin 256)
    (hj0 : (j 0).val = 320000 + r) (hj1 : j 1 = q) : G x0 x1 x2 x3 x4 x5 w j = row4 x4 w r hr q := by
  subst hj1
  unfold G
  dsimp only
  rw [dif_neg (by omega), dif_neg (by omega), dif_neg (by omega), dif_neg (by omega), dif_pos (by omega)]
  exact row4_congr x4 w _ _ (by omega) _ _ (j 1)

/-- The result at a row of the stretch of order 5. -/
theorem G_row5 (x0 : (⟨3, ![20000, 1, 128]⟩ : Shape).Idx → EReal) (x1 : (⟨3, ![20000, 3, 128]⟩ : Shape).Idx → EReal) (x2 : (⟨3, ![20000, 5, 128]⟩ : Shape).Idx → EReal) (x3 : (⟨3, ![20000, 7, 128]⟩ : Shape).Idx → EReal) (x4 : (⟨3, ![20000, 9, 128]⟩ : Shape).Idx → EReal) (x5 : (⟨3, ![20000, 11, 128]⟩ : Shape).Idx → EReal)
    (w : (⟨3, ![6, 128, 256]⟩ : Shape).Idx → EReal) (j : (⟨2, ![720000, 256]⟩ : Shape).Idx) (r : ℕ) (hr : r < 220000) (q : Fin 256)
    (hj0 : (j 0).val = 500000 + r) (hj1 : j 1 = q) : G x0 x1 x2 x3 x4 x5 w j = row5 x5 w r hr q := by
  subst hj1
  unfold G
  dsimp only
  rw [dif_neg (by omega), dif_neg (by omega), dif_neg (by omega), dif_neg (by omega), dif_neg (by omega)]
  exact row5_congr x5 w _ _ (by omega) _ _ (j 1)

end Cert.TileSpec

end
-- ==== Proof.AtIdeal.Final.lean ====
/-
  The output array after the run is the specified result (at the ideal values).

  Tile t of order l writes back, as rows 2000·t … 2000·t + 1999 of the output, the product of rows
  2000·(t − 10·l²) … of the order-l value array with weight slice l. Since the tiles of order l are tiles
  10·l² … 10·(l+1)² − 1, output row 2000·t + p is row 2000·(t − 10·l²) + p of the stretch of order l, which begins at
  row 20000·l²: exactly the specified row. The 360 blocks tile the 720000 rows, so the whole array is specified.
-/
import proofs.«161469_j48060684042913_2_alg».proof.Proof.AtIdeal.Product
import proofs.«161469_j48060684042913_2_alg».proof.Proof.AtIdeal.Rows
import proofs.«161469_j48060684042913_2_alg».proof.Proof.Spec

set_option maxRecDepth 16384

noncomputable section

namespace Cert.KernelIdeal.Tiles

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The specified result of the launch memory's argument arrays. -/
abbrev Gm (c : Dev nD) : S720000x256.Idx → Elt Ideal .f32 :=
  Cert.TileSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- A tile's number is its one grid coordinate. -/
theorem coords_val : ∀ t : Fin grid0.N, (grid0.coords t 0).val = t.val := by decide +kernel

/-- Entry (p, q) of what a tile of order 0 leaves. -/
theorem outAt_at0 (c : Dev nD) (t : Fin (cfgM m).N) (h : lit0 (grid0.coords t 0) = 0#32) (p : Fin 2000) (q : Fin 256)
    (hb : (lit1 (grid0.coords t 0)).toNat * 2000 + p.val < 20000) :
    outAt m c t (ix2 p q) = Cert.TileSpec.row0 (m ((c : Thread nD τ).loc main_arg0)) (m ((c : Thread nD τ).loc main_arg6))
      ((lit1 (grid0.coords t 0)).toNat * 2000 + p.val) hb q := by
  rw [outAt_0 m c t h]
  refine (congrFun (out0_eq c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 0 t) (iblk m c 6 t) (tbl m 0) (tbl m 1) ((hc1 m (grid0.coords t) h).mpr (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide))) (ix2 p q)).trans ?_
  refine (pay2_at (iblk m c 6 t) (iblk m c 0 t) p q).trans ?_
  unfold Cert.TileSpec.row0
  refine Finset.sum_congr rfl fun k _ => ?_
  exact congrArg₂ (· * ·) (iblk0_at m c t h p k ⟨(lit1 (grid0.coords t 0)).toNat * 2000 + p.val, hb⟩ rfl) (iblkW0_at m c t h k q)

/-- Entry (p, q) of what a tile of order 1 leaves. -/
theorem outAt_at1 (c : Dev nD) (t : Fin (cfgM m).N) (h : lit0 (grid0.coords t 0) = 1#32) (p : Fin 2000) (q : Fin 256)
    (hb : (lit1 (grid0.coords t 0)).toNat * 2000 + p.val < 60000) :
    outAt m c t (ix2 p q) = Cert.TileSpec.row1 (m ((c : Thread nD τ).loc main_arg1)) (m ((c : Thread nD τ).loc main_arg6))
      ((lit1 (grid0.coords t 0)).toNat * 2000 + p.val) hb q := by
  rw [outAt_1 m c t h]
  refine (congrFun (out1_eq c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 1 t) (iblk m c 6 t) (tbl m 0) (tbl m 1) (fun e => absurd ((hc1 m (grid0.coords t) h).mp e) (by decide)) ((hc2 m (grid0.coords t) h).mpr (by decide)) (fun e => absurd ((hc3 m (grid0.coords t) h).mp e) (by decide)) (fun e => absurd ((hc4 m (grid0.coords t) h).mp e) (by decide)) (fun e => absurd ((hc5 m (grid0.coords t) h).mp e) (by decide)) (fun e => absurd ((hc6 m (grid0.coords t) h).mp e) (by decide))) (ix2 p q)).trans ?_
  refine (pay3_at (iblk m c 6 t) (iblk m c 1 t) p q).trans ?_
  unfold Cert.TileSpec.row1
  refine Finset.sum_congr rfl fun k _ => ?_
  exact congrArg₂ (· * ·) (iblk1_at m c t h p k ⟨(lit1 (grid0.coords t 0)).toNat * 2000 + p.val, hb⟩ rfl) (iblkW1_at m c t h k q)

/-- Entry (p, q) of what a tile of order 2 leaves. -/
theorem outAt_at2 (c : Dev nD) (t : Fin (cfgM m).N) (h : lit0 (grid0.coords t 0) = 2#32) (p : Fin 2000) (q : Fin 256)
    (hb : (lit1 (grid0.coords t 0)).toNat * 2000 + p.val < 100000) :
    outAt m c t (ix2 p q) = Cert.TileSpec.row2 (m ((c : Thread nD τ).loc main_arg2)) (m ((c : Thread nD τ).loc main_arg6))
      ((lit1 (grid0.coords t 0)).toNat * 2000 + p.val) hb q := by
  rw [outAt_2 m c t h]
  refine (congrFun (out2_eq c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 2 t) (iblk m c 6 t) (tbl m 0) (tbl m 1) (fun e => absurd ((hc1 m (grid0.coords t) h).mp e) (by decide)) (fun e => absurd ((hc2 m (grid0.coords t) h).mp e) (by decide)) ((hc3 m (grid0.coords t) h).mpr (by decide)) (fun e => absurd ((hc4 m (grid0.coords t) h).mp e) (by decide)) (fun e => absurd ((hc5 m (grid0.coords t) h).mp e) (by decide)) (fun e => absurd ((hc6 m (grid0.coords t) h).mp e) (by decide))) (ix2 p q)).trans ?_
  refine (pay4_at (iblk m c 6 t) (iblk m c 2 t) p q).trans ?_
  unfold Cert.TileSpec.row2
  refine Finset.sum_congr rfl fun k _ => ?_
  exact congrArg₂ (· * ·) (iblk2_at m c t h p k ⟨(lit1 (grid0.coords t 0)).toNat * 2000 + p.val, hb⟩ rfl) (iblkW2_at m c t h k q)

/-- Entry (p, q) of what a tile of order 3 leaves. -/
theorem outAt_at3 (c : Dev nD) (t : Fin (cfgM m).N) (h : lit0 (grid0.coords t 0) = 3#32) (p : Fin 2000) (q : Fin 256)
    (hb : (lit1 (grid0.coords t 0)).toNat * 2000 + p.val < 140000) :
    outAt m c t (ix2 p q) = Cert.TileSpec.row3 (m ((c : Thread nD τ).loc main_arg3)) (m ((c : Thread nD τ).loc main_arg6))
      ((lit1 (grid0.coords t 0)).toNat * 2000 + p.val) hb q := by
  rw [outAt_3 m c t h]
  refine (congrFun (out3_eq c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 3 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) ((hc4 m (grid0.coords t) h).mpr (by decide)) (fun e => absurd ((hc5 m (grid0.coords t) h).mp e) (by decide)) (fun e => absurd ((hc6 m (grid0.coords t) h).mp e) (by decide))) (ix2 p q)).trans ?_
  refine (pay5_at (iblk m c 6 t) (iblk m c 3 t) p q).trans ?_
  unfold Cert.TileSpec.row3
  refine Finset.sum_congr rfl fun k _ => ?_
  exact congrArg₂ (· * ·) (iblk3_at m c t h p k ⟨(lit1 (grid0.coords t 0)).toNat * 2000 + p.val, hb⟩ rfl) (iblkW3_at m c t h k q)

/-- Entry (p, q) of what a tile of order 4 leaves. -/
theorem outAt_at4 (c : Dev nD) (t : Fin (cfgM m).N) (h : lit0 (grid0.coords t 0) = 4#32) (p : Fin 2000) (q : Fin 256)
    (hb : (lit1 (grid0.coords t 0)).toNat * 2000 + p.val < 180000) :
    outAt m c t (ix2 p q) = Cert.TileSpec.row4 (m ((c : Thread nD τ).loc main_arg4)) (m ((c : Thread nD τ).loc main_arg6))
      ((lit1 (grid0.coords t 0)).toNat * 2000 + p.val) hb q := by
  rw [outAt_4 m c t h]
  refine (congrFun (out4_eq c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 4 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) ((hc5 m (grid0.coords t) h).mpr (by decide)) (fun e => absurd ((hc6 m (grid0.coords t) h).mp e) (by decide))) (ix2 p q)).trans ?_
  refine (pay6_at (iblk m c 6 t) (iblk m c 4 t) p q).trans ?_
  unfold Cert.TileSpec.row4
  refine Finset.sum_congr rfl fun k _ => ?_
  exact congrArg₂ (· * ·) (iblk4_at m c t h p k ⟨(lit1 (grid0.coords t 0)).toNat * 2000 + p.val, hb⟩ rfl) (iblkW4_at m c t h k q)

/-- Entry (p, q) of what a tile of order 5 leaves. -/
theorem outAt_at5 (c : Dev nD) (t : Fin (cfgM m).N) (h : lit0 (grid0.coords t 0) = 5#32) (p : Fin 2000) (q : Fin 256)
    (hb : (lit1 (grid0.coords t 0)).toNat * 2000 + p.val < 220000) :
    outAt m c t (ix2 p q) = Cert.TileSpec.row5 (m ((c : Thread nD τ).loc main_arg5)) (m ((c : Thread nD τ).loc main_arg6))
      ((lit1 (grid0.coords t 0)).toNat * 2000 + p.val) hb q := by
  rw [outAt_5 m c t h]
  refine (congrFun (out5_eq c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (iblk m c 5 t) (iblk m c 6 t) (tbl m 0) (tbl m 1) (fun e => absurd ((hc1 m (grid0.coords t) h).mp e) (by decide)) (fun e => absurd ((hc2 m (grid0.coords t) h).mp e) (by decide)) (fun e => absurd ((hc3 m (grid0.coords t) h).mp e) (by decide)) (fun e => absurd ((hc4 m (grid0.coords t) h).mp e) (by decide)) (fun e => absurd ((hc5 m (grid0.coords t) h).mp e) (by decide)) ((hc6 m (grid0.coords t) h).mpr (by decide))) (ix2 p q)).trans ?_
  refine (pay7_at (iblk m c 6 t) (iblk m c 5 t) p q).trans ?_
  unfold Cert.TileSpec.row5
  refine Finset.sum_congr rfl fun k _ => ?_
  exact congrArg₂ (· * ·) (iblk5_at m c t h p k ⟨(lit1 (grid0.coords t 0)).toNat * 2000 + p.val, hb⟩ rfl) (iblkW5_at m c t h k q)

/-- What tile `t` writes back is block `t` of the specified result. -/
theorem flushed_eq (c : Dev nD) (t : Fin (cfgM m).N) :
    (dats m 0 c).flushed 7 t = (((cfgM m).win 7).blk t).view.read (Elt Ideal) (Gm m c) := by
  show ((cfgM m).win 7).cut (grid0.coords t) ((dats m 0 c).after 7 t) = _
  rw [after7]
  refine funext fun (y : S2000x256.Idx) => ?_
  obtain ⟨p, q, rfl⟩ : ∃ (p : Fin 2000) (q : Fin 256), y = ix2 p q := ⟨y 0, y 1, eq_ix2 y⟩
  show outAt m c t (ix2 p q) = Gm m c ((((cfgM m).win 7).blk t).view.emb (ix2 p q))
  have hp := p.isLt
  have hcv := coords_val t
  rcases ord_cases (lit0 (grid0.coords t 0)) (order_lt _) with h | h | h | h | h | h
  · obtain ⟨t0, t1, t2⟩ := tiles0 (grid0.coords t 0) h
    have hb : (lit1 (grid0.coords t 0)).toNat * 2000 + p.val < 20000 := by omega
    rw [outAt_at0 m c t h p q hb]
    exact (Cert.TileSpec.G_row0 _ _ _ _ _ _ _ ((((cfgM m).win 7).blk t).view.emb (ix2 p q)) _ hb q
      (by
        show ((cfgM m).win 7).index t (0 : Fin 2) * 2000 + 1 * p.val = 0 + ((lit1 (grid0.coords t 0)).toNat * 2000 + p.val)
        rw [index7 (adm m) t, index7_0 t]; omega)
      (Fin.ext (by
        show ((cfgM m).win 7).index t (1 : Fin 2) * 256 + 1 * q.val = q.val
        rw [index7_1 (adm m) t]; omega))).symm
  · obtain ⟨t0, t1, t2⟩ := tiles1 (grid0.coords t 0) h
    have hb : (lit1 (grid0.coords t 0)).toNat * 2000 + p.val < 60000 := by omega
    rw [outAt_at1 m c t h p q hb]
    exact (Cert.TileSpec.G_row1 _ _ _ _ _ _ _ ((((cfgM m).win 7).blk t).view.emb (ix2 p q)) _ hb q
      (by
        show ((cfgM m).win 7).index t (0 : Fin 2) * 2000 + 1 * p.val = 20000 + ((lit1 (grid0.coords t 0)).toNat * 2000 + p.val)
        rw [index7 (adm m) t, index7_0 t]; omega)
      (Fin.ext (by
        show ((cfgM m).win 7).index t (1 : Fin 2) * 256 + 1 * q.val = q.val
        rw [index7_1 (adm m) t]; omega))).symm
  · obtain ⟨t0, t1, t2⟩ := tiles2 (grid0.coords t 0) h
    have hb : (lit1 (grid0.coords t 0)).toNat * 2000 + p.val < 100000 := by omega
    rw [outAt_at2 m c t h p q hb]
    exact (Cert.TileSpec.G_row2 _ _ _ _ _ _ _ ((((cfgM m).win 7).blk t).view.emb (ix2 p q)) _ hb q
      (by
        show ((cfgM m).win 7).index t (0 : Fin 2) * 2000 + 1 * p.val = 80000 + ((lit1 (grid0.coords t 0)).toNat * 2000 + p.val)
        rw [index7 (adm m) t, index7_0 t]; omega)
      (Fin.ext (by
        show ((cfgM m).win 7).index t (1 : Fin 2) * 256 + 1 * q.val = q.val
        rw [index7_1 (adm m) t]; omega))).symm
  · obtain ⟨t0, t1, t2⟩ := tiles3 (grid0.coords t 0) h
    have hb : (lit1 (grid0.coords t 0)).toNat * 2000 + p.val < 140000 := by omega
    rw [outAt_at3 m c t h p q hb]
    exact (Cert.TileSpec.G_row3 _ _ _ _ _ _ _ ((((cfgM m).win 7).blk t).view.emb (ix2 p q)) _ hb q
      (by
        show ((cfgM m).win 7).index t (0 : Fin 2) * 2000 + 1 * p.val = 180000 + ((lit1 (grid0.coords t 0)).toNat * 2000 + p.val)
        rw [index7 (adm m) t, index7_0 t]; omega)
      (Fin.ext (by
        show ((cfgM m).win 7).index t (1 : Fin 2) * 256 + 1 * q.val = q.val
        rw [index7_1 (adm m) t]; omega))).symm
  · obtain ⟨t0, t1, t2⟩ := tiles4 (grid0.coords t 0) h
    have hb : (lit1 (grid0.coords t 0)).toNat * 2000 + p.val < 180000 := by omega
    rw [outAt_at4 m c t h p q hb]
    exact (Cert.TileSpec.G_row4 _ _ _ _ _ _ _ ((((cfgM m).win 7).blk t).view.emb (ix2 p q)) _ hb q
      (by
        show ((cfgM m).win 7).index t (0 : Fin 2) * 2000 + 1 * p.val = 320000 + ((lit1 (grid0.coords t 0)).toNat * 2000 + p.val)
        rw [index7 (adm m) t, index7_0 t]; omega)
      (Fin.ext (by
        show ((cfgM m).win 7).index t (1 : Fin 2) * 256 + 1 * q.val = q.val
        rw [index7_1 (adm m) t]; omega))).symm
  · obtain ⟨t0, t1, t2⟩ := tiles5 (grid0.coords t 0) h
    have hb : (lit1 (grid0.coords t 0)).toNat * 2000 + p.val < 220000 := by omega
    rw [outAt_at5 m c t h p q hb]
    exact (Cert.TileSpec.G_row5 _ _ _ _ _ _ _ ((((cfgM m).win 7).blk t).view.emb (ix2 p q)) _ hb q
      (by
        show ((cfgM m).win 7).index t (0 : Fin 2) * 2000 + 1 * p.val = 500000 + ((lit1 (grid0.coords t 0)).toNat * 2000 + p.val)
        rw [index7 (adm m) t, index7_0 t]; omega)
      (Fin.ext (by
        show ((cfgM m).win 7).index t (1 : Fin 2) * 256 + 1 * q.val = q.val
        rw [index7_1 (adm m) t]; omega))).symm

/-- Every row of the output is in the block of the tile numbered row / 2000 (at any admissible tables: the output's
    index map reads none). -/
theorem cover7_at (a : (pcfg0 (F := Ideal)).Adm) (i : S720000x256.Idx) :
    ∃ t : Fin (cfg0 a).N, ((cfg0 a).win 7).flush t = true ∧ i ∈ (((cfg0 a).win 7).blk t).view.set := by
  have hi0 : (i 0).val < 720000 := (i 0).isLt
  have hi1 : (i 1).val < 256 := (i 1).isLt
  have hN : (i 0).val / 2000 < grid0.N := by rw [N_0]; omega
  have hidx : (((cfg0 a).win 7).blk ⟨(i 0).val / 2000, hN⟩).view.emb
      (ix2 (⟨(i 0).val % 2000, by omega⟩ : Fin 2000) (⟨(i 1).val, hi1⟩ : Fin 256)) = i := funext fun b => Fin.ext (by
    match b with
    | ⟨0, _⟩ =>
      show ((cfg0 a).win 7).index ⟨(i 0).val / 2000, hN⟩ (0 : Fin 2) * 2000 + 1 * ((i 0).val % 2000) = (i 0).val
      rw [index7 a _, index7_0 ⟨(i 0).val / 2000, hN⟩]
      show (i 0).val / 2000 * 2000 + 1 * ((i 0).val % 2000) = (i 0).val
      omega
    | ⟨1, _⟩ =>
      show ((cfg0 a).win 7).index ⟨(i 0).val / 2000, hN⟩ (1 : Fin 2) * 256 + 1 * (i 1).val = (i 1).val
      rw [index7_1 a _]; omega)
  exact ⟨⟨(i 0).val / 2000, hN⟩, flush7 a _,
    (congrArg (fun j => j ∈ (((cfg0 a).win 7).blk ⟨(i 0).val / 2000, hN⟩).view.set) hidx).mp (View.emb_mem_set _ _)⟩

theorem cover7 (i : S720000x256.Idx) :
    ∃ t : Fin (cfgM m).N, ((cfgM m).win 7).flush t = true ∧ i ∈ (((cfgM m).win 7).blk t).view.set := cover7_at (adm m) i

/-- The output array after the run. -/
theorem final7 (c : Dev nD) : (dats m 0 c).arrAt 7 (cfgM m).N = Gm m c :=
  (dats m 0 c).arrAt_eq_of_cover 7 (Gm m c) (fun t _ => flushed_eq m c t) (cover7 m)

/-- The run of `KernelIdeal` at the ideal values: the result array ends at the specified result, the arguments unchanged. -/
theorem run : θ_run defs (onTc (τ := τ) (main (F := Ideal))) ⟨m, fun _ => 0, ρ⟩ (fun r => ∀ c : Dev nD,
      r.2.mem ((c.tc : Thread nD τ).loc main_v6) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 6).trans (((dats m 0 c).arrAt_in 6 rfl _).trans ((A_eq m c 6).trans (V_main_arg6 m c)))⟩) (run_main m ρ)

end Cert.KernelIdeal.Tiles

end
-- ==== Proof.RefSpec.lean ====
/-
  The reference computes the specified result.

  The reference multiplies each value array [20000, 2l+1, 128] by slice l of the weights (a contraction over the 128
  properties), flattens the product to 20000·(2l+1) rows of 256, and joins the six flattened products along the rows.
  Row R of the stretch of order l is therefore sample R / (2l+1), component R mod (2l+1), and the stretch of order l
  begins after 20000·(1 + 3 + … + (2l−1)) = 20000·l² rows.
-/
import proofs.«161469_j48060684042913_2_alg».proof.Proof.Gen.ReferenceIdeal.Read
import proofs.«161469_j48060684042913_2_alg».proof.Proof.Spec

set_option maxRecDepth 16384

noncomputable section

namespace Cert.ReferenceIdeal.Joined

open Cert.ReferenceIdeal Cert.ReferenceIdeal.Gen Cert.ReferenceIdeal.Read Cert.TileSpec
open Idealize.ShloMosaic Idealize.ShloMosaic.TcCoe Idealize.ShloMosaic.ValueIdx

/-- Row R, entry q of the flattened product of order 0. -/
theorem piece0 (x : (⟨S20000x1x128, .f32⟩ : BufTy).Contents (Elt Ideal)) (w : (⟨S6x128x256, .f32⟩ : BufTy).Contents (Elt Ideal))
    (R : Fin 20000) (q : Fin 256) :
    val_main_v3 (F := Ideal) x w (ix2 R q) = row0 x w R.val R.isLt q := by
  have hR := R.isLt
  have hq := q.isLt
  rw [val_main_v3_apply, val_main_v2_apply]
  unfold row0
  refine Finset.sum_congr rfl fun k _ => ?_
  have hk := k.isLt
  rw [val_main_v1_apply, val_main_v0_apply]
  have el : lidx_main_v2 (idx_main_v3 (ix2 R q)) k = ix3 (⟨R.val / 1, by omega⟩ : Fin 20000) (⟨R.val % 1, by omega⟩ : Fin 1) k :=
    funext fun a => Fin.ext (by
      match a with
      | ⟨0, _⟩ => show (R.val * 256 + q.val) / 256 = R.val / 1; omega
      | ⟨1, _⟩ => show (0 : ℕ) = R.val % 1; omega
      | ⟨2, _⟩ => rfl)
  have er : idx_main_v0 (idx_main_v1 (ridx_main_v2 (idx_main_v3 (ix2 R q)) k)) = ix3 (0 : Fin 6) k q :=
    funext fun a => Fin.ext (by
      match a with
      | ⟨0, _⟩ => rfl
      | ⟨1, _⟩ => show (k.val * 256 + (R.val * 256 + q.val) % 256) / 256 % 128 = k.val; omega
      | ⟨2, _⟩ => show (k.val * 256 + (R.val * 256 + q.val) % 256) % 256 = q.val; omega)
  rw [el, er]

/-- Row R, entry q of the flattened product of order 1. -/
theorem piece1 (x : (⟨S20000x3x128, .f32⟩ : BufTy).Contents (Elt Ideal)) (w : (⟨S6x128x256, .f32⟩ : BufTy).Contents (Elt Ideal))
    (R : Fin 60000) (q : Fin 256) :
    val_main_v7 (F := Ideal) x w (ix2 R q) = row1 x w R.val R.isLt q := by
  have hR := R.isLt
  have hq := q.isLt
  rw [val_main_v7_apply, val_main_v6_apply]
  unfold row1
  refine Finset.sum_congr rfl fun k _ => ?_
  have hk := k.isLt
  rw [val_main_v5_apply, val_main_v4_apply]
  have el : lidx_main_v6 (idx_main_v7 (ix2 R q)) k = ix3 (⟨R.val / 3, by omega⟩ : Fin 20000) (⟨R.val % 3, by omega⟩ : Fin 3) k :=
    funext fun a => Fin.ext (by
      match a with
      | ⟨0, _⟩ => show (R.val * 256 + q.val) / 768 = R.val / 3; omega
      | ⟨1, _⟩ => show (R.val * 256 + q.val) / 256 % 3 = R.val % 3; omega
      | ⟨2, _⟩ => rfl)
  have er : idx_main_v4 (idx_main_v5 (ridx_main_v6 (idx_main_v7 (ix2 R q)) k)) = ix3 (1 : Fin 6) k q :=
    funext fun a => Fin.ext (by
      match a with
      | ⟨0, _⟩ => rfl
      | ⟨1, _⟩ => show (k.val * 256 + (R.val * 256 + q.val) % 256) / 256 % 128 = k.val; omega
      | ⟨2, _⟩ => show (k.val * 256 + (R.val * 256 + q.val) % 256) % 256 = q.val; omega)
  rw [el, er]

/-- Row R, entry q of the flattened product of order 2. -/
theorem piece2 (x : (⟨S20000x5x128, .f32⟩ : BufTy).Contents (Elt Ideal)) (w : (⟨S6x128x256, .f32⟩ : BufTy).Contents (Elt Ideal))
    (R : Fin 100000) (q : Fin 256) :
    val_main_v11 (F := Ideal) x w (ix2 R q) = row2 x w R.val R.isLt q := by
  have hR := R.isLt
  have hq := q.isLt
  rw [val_main_v11_apply, val_main_v10_apply]
  unfold row2
  refine Finset.sum_congr rfl fun k _ => ?_
  have hk := k.isLt
  rw [val_main_v9_apply, val_main_v8_apply]
  have el : lidx_main_v10 (idx_main_v11 (ix2 R q)) k = ix3 (⟨R.val / 5, by omega⟩ : Fin 20000) (⟨R.val % 5, by omega⟩ : Fin 5) k :=
    funext fun a => Fin.ext (by
      match a with
      | ⟨0, _⟩ => show (R.val * 256 + q.val) / 1280 = R.val / 5; omega
      | ⟨1, _⟩ => show (R.val * 256 + q.val) / 256 % 5 = R.val % 5; omega
      | ⟨2, _⟩ => rfl)
  have er : idx_main_v8 (idx_main_v9 (ridx_main_v10 (idx_main_v11 (ix2 R q)) k)) = ix3 (2 : Fin 6) k q :=
    funext fun a => Fin.ext (by
      match a with
      | ⟨0, _⟩ => rfl
      | ⟨1, _⟩ => show (k.val * 256 + (R.val * 256 + q.val) % 256) / 256 % 128 = k.val; omega
      | ⟨2, _⟩ => show (k.val * 256 + (R.val * 256 + q.val) % 256) % 256 = q.val; omega)
  rw [el, er]

/-- Row R, entry q of the flattened product of order 3. -/
theorem piece3 (x : (⟨S20000x7x128, .f32⟩ : BufTy).Contents (Elt Ideal)) (w : (⟨S6x128x256, .f32⟩ : BufTy).Contents (Elt Ideal))
    (R : Fin 140000) (q : Fin 256) :
    val_main_v15 (F := Ideal) x w (ix2 R q) = row3 x w R.val R.isLt q := by
  have hR := R.isLt
  have hq := q.isLt
  rw [val_main_v15_apply, val_main_v14_apply]
  unfold row3
  refine Finset.sum_congr rfl fun k _ => ?_
  have hk := k.isLt
  rw [val_main_v13_apply, val_main_v12_apply]
  have el : lidx_main_v14 (idx_main_v15 (ix2 R q)) k = ix3 (⟨R.val / 7, by omega⟩ : Fin 20000) (⟨R.val % 7, by omega⟩ : Fin 7) k :=
    funext fun a => Fin.ext (by
      match a with
      | ⟨0, _⟩ => show (R.val * 256 + q.val) / 1792 = R.val / 7; omega
      | ⟨1, _⟩ => show (R.val * 256 + q.val) / 256 % 7 = R.val % 7; omega
      | ⟨2, _⟩ => rfl)
  have er : idx_main_v12 (idx_main_v13 (ridx_main_v14 (idx_main_v15 (ix2 R q)) k)) = ix3 (3 : Fin 6) k q :=
    funext fun a => Fin.ext (by
      match a with
      | ⟨0, _⟩ => rfl
      | ⟨1, _⟩ => show (k.val * 256 + (R.val * 256 + q.val) % 256) / 256 % 128 = k.val; omega
      | ⟨2, _⟩ => show (k.val * 256 + (R.val * 256 + q.val) % 256) % 256 = q.val; omega)
  rw [el, er]

/-- Row R, entry q of the flattened product of order 4. -/
theorem piece4 (x : (⟨S20000x9x128, .f32⟩ : BufTy).Contents (Elt Ideal)) (w : (⟨S6x128x256, .f32⟩ : BufTy).Contents (Elt Ideal))
    (R : Fin 180000) (q : Fin 256) :
    val_main_v19 (F := Ideal) x w (ix2 R q) = row4 x w R.val R.isLt q := by
  have hR := R.isLt
  have hq := q.isLt
  rw [val_main_v19_apply, val_main_v18_apply]
  unfold row4
  refine Finset.sum_congr rfl fun k _ => ?_
  have hk := k.isLt
  rw [val_main_v17_apply, val_main_v16_apply]
  have el : lidx_main_v18 (idx_main_v19 (ix2 R q)) k = ix3 (⟨R.val / 9, by omega⟩ : Fin 20000) (⟨R.val % 9, by omega⟩ : Fin 9) k :=
    funext fun a => Fin.ext (by
      match a with
      | ⟨0, _⟩ => show (R.val * 256 + q.val) / 2304 = R.val / 9; omega
      | ⟨1, _⟩ => show (R.val * 256 + q.val) / 256 % 9 = R.val % 9; omega
      | ⟨2, _⟩ => rfl)
  have er : idx_main_v16 (idx_main_v17 (ridx_main_v18 (idx_main_v19 (ix2 R q)) k)) = ix3 (4 : Fin 6) k q :=
    funext fun a => Fin.ext (by
      match a with
      | ⟨0, _⟩ => rfl
      | ⟨1, _⟩ => show (k.val * 256 + (R.val * 256 + q.val) % 256) / 256 % 128 = k.val; omega
      | ⟨2, _⟩ => show (k.val * 256 + (R.val * 256 + q.val) % 256) % 256 = q.val; omega)
  rw [el, er]

/-- Row R, entry q of the flattened product of order 5. -/
theorem piece5 (x : (⟨S20000x11x128, .f32⟩ : BufTy).Contents (Elt Ideal)) (w : (⟨S6x128x256, .f32⟩ : BufTy).Contents (Elt Ideal))
    (R : Fin 220000) (q : Fin 256) :
    val_main_v23 (F := Ideal) x w (ix2 R q) = row5 x w R.val R.isLt q := by
  have hR := R.isLt
  have hq := q.isLt
  rw [val_main_v23_apply, val_main_v22_apply]
  unfold row5
  refine Finset.sum_congr rfl fun k _ => ?_
  have hk := k.isLt
  rw [val_main_v21_apply, val_main_v20_apply]
  have el : lidx_main_v22 (idx_main_v23 (ix2 R q)) k = ix3 (⟨R.val / 11, by omega⟩ : Fin 20000) (⟨R.val % 11, by omega⟩ : Fin 11) k :=
    funext fun a => Fin.ext (by
      match a with
      | ⟨0, _⟩ => show (R.val * 256 + q.val) / 2816 = R.val / 11; omega
      | ⟨1, _⟩ => show (R.val * 256 + q.val) / 256 % 11 = R.val % 11; omega
      | ⟨2, _⟩ => rfl)
  have er : idx_main_v20 (idx_main_v21 (ridx_main_v22 (idx_main_v23 (ix2 R q)) k)) = ix3 (5 : Fin 6) k q :=
    funext fun a => Fin.ext (by
      match a with
      | ⟨0, _⟩ => rfl
      | ⟨1, _⟩ => show (k.val * 256 + (R.val * 256 + q.val) % 256) / 256 % 128 = k.val; omega
      | ⟨2, _⟩ => show (k.val * 256 + (R.val * 256 + q.val) % 256) % 256 = q.val; omega)
  rw [el, er]

/-- The joined result is the specified one. -/
theorem joined_eq (x0 : (⟨S20000x1x128, .f32⟩ : BufTy).Contents (Elt Ideal)) (x1 : (⟨S20000x3x128, .f32⟩ : BufTy).Contents (Elt Ideal)) (x2 : (⟨S20000x5x128, .f32⟩ : BufTy).Contents (Elt Ideal)) (x3 : (⟨S20000x7x128, .f32⟩ : BufTy).Contents (Elt Ideal)) (x4 : (⟨S20000x9x128, .f32⟩ : BufTy).Contents (Elt Ideal)) (x5 : (⟨S20000x11x128, .f32⟩ : BufTy).Contents (Elt Ideal))
    (w : (⟨S6x128x256, .f32⟩ : BufTy).Contents (Elt Ideal)) :
    val_main_v24 (F := Ideal) x0 x1 x2 x3 x4 x5 w = G x0 x1 x2 x3 x4 x5 w := by
  funext j
  have hj0 : (j 0).val < 720000 := (j 0).isLt
  unfold val_main_v24
  by_cases h0 : (j 0).val < 20000
  · obtain ⟨r, hr0⟩ : ∃ r, (j 0).val = 0 + r := ⟨(j 0).val - 0, by omega⟩
    have hr : r < 20000 := by omega
    rw [G_row0 x0 x1 x2 x3 x4 x5 w j r hr (j 1) hr0 rfl, ← piece0 x0 w ⟨r, hr⟩ (j 1)]
    refine concatenate_apply_piece (0 : Fin 2) _ _ j 0 ?_ S20000x256 (val_main_v3 (F := Ideal) x0 w) ?_ rfl 0 ?_ (ix2 (⟨r, hr⟩ : Fin 20000) (j 1)) ?_ ?_
    · simp
    · rfl
    · first | (decide +revert) | simp
    · intro b hb
      match b with
      | ⟨0, _⟩ => exact absurd rfl hb
      | ⟨1, _⟩ => rfl
    · show 0 + r = (j 0).val
      omega
  by_cases h1 : (j 0).val < 80000
  · obtain ⟨r, hr0⟩ : ∃ r, (j 0).val = 20000 + r := ⟨(j 0).val - 20000, by omega⟩
    have hr : r < 60000 := by omega
    rw [G_row1 x0 x1 x2 x3 x4 x5 w j r hr (j 1) hr0 rfl, ← piece1 x1 w ⟨r, hr⟩ (j 1)]
    refine concatenate_apply_piece (0 : Fin 2) _ _ j 1 ?_ S60000x256 (val_main_v7 (F := Ideal) x1 w) ?_ rfl 20000 ?_ (ix2 (⟨r, hr⟩ : Fin 60000) (j 1)) ?_ ?_
    · simp
    · rfl
    · first | (decide +revert) | simp
    · intro b hb
      match b with
      | ⟨0, _⟩ => exact absurd rfl hb
      | ⟨1, _⟩ => rfl
    · show 20000 + r = (j 0).val
      omega
  by_cases h2 : (j 0).val < 180000
  · obtain ⟨r, hr0⟩ : ∃ r, (j 0).val = 80000 + r := ⟨(j 0).val - 80000, by omega⟩
    have hr : r < 100000 := by omega
    rw [G_row2 x0 x1 x2 x3 x4 x5 w j r hr (j 1) hr0 rfl, ← piece2 x2 w ⟨r, hr⟩ (j 1)]
    refine concatenate_apply_piece (0 : Fin 2) _ _ j 2 ?_ S100000x256 (val_main_v11 (F := Ideal) x2 w) ?_ rfl 80000 ?_ (ix2 (⟨r, hr⟩ : Fin 100000) (j 1)) ?_ ?_
    · simp
    · rfl
    · first | (decide +revert) | simp
    · intro b hb
      match b with
      | ⟨0, _⟩ => exact absurd rfl hb
      | ⟨1, _⟩ => rfl
    · show 80000 + r = (j 0).val
      omega
  by_cases h3 : (j 0).val < 320000
  · obtain ⟨r, hr0⟩ : ∃ r, (j 0).val = 180000 + r := ⟨(j 0).val - 180000, by omega⟩
    have hr : r < 140000 := by omega
    rw [G_row3 x0 x1 x2 x3 x4 x5 w j r hr (j 1) hr0 rfl, ← piece3 x3 w ⟨r, hr⟩ (j 1)]
    refine concatenate_apply_piece (0 : Fin 2) _ _ j 3 ?_ S140000x256 (val_main_v15 (F := Ideal) x3 w) ?_ rfl 180000 ?_ (ix2 (⟨r, hr⟩ : Fin 140000) (j 1)) ?_ ?_
    · simp
    · rfl
    · first | (decide +revert) | simp
    · intro b hb
      match b with
      | ⟨0, _⟩ => exact absurd rfl hb
      | ⟨1, _⟩ => rfl
    · show 180000 + r = (j 0).val
      omega
  by_cases h4 : (j 0).val < 500000
  · obtain ⟨r, hr0⟩ : ∃ r, (j 0).val = 320000 + r := ⟨(j 0).val - 320000, by omega⟩
    have hr : r < 180000 := by omega
    rw [G_row4 x0 x1 x2 x3 x4 x5 w j r hr (j 1) hr0 rfl, ← piece4 x4 w ⟨r, hr⟩ (j 1)]
    refine concatenate_apply_piece (0 : Fin 2) _ _ j 4 ?_ S180000x256 (val_main_v19 (F := Ideal) x4 w) ?_ rfl 320000 ?_ (ix2 (⟨r, hr⟩ : Fin 180000) (j 1)) ?_ ?_
    · simp
    · rfl
    · first | (decide +revert) | simp
    · intro b hb
      match b with
      | ⟨0, _⟩ => exact absurd rfl hb
      | ⟨1, _⟩ => rfl
    · show 320000 + r = (j 0).val
      omega
  · obtain ⟨r, hr0⟩ : ∃ r, (j 0).val = 500000 + r := ⟨(j 0).val - 500000, by omega⟩
    have hr : r < 220000 := by omega
    rw [G_row5 x0 x1 x2 x3 x4 x5 w j r hr (j 1) hr0 rfl, ← piece5 x5 w ⟨r, hr⟩ (j 1)]
    refine concatenate_apply_piece (0 : Fin 2) _ _ j 5 ?_ S220000x256 (val_main_v23 (F := Ideal) x5 w) ?_ rfl 500000 ?_ (ix2 (⟨r, hr⟩ : Fin 220000) (j 1)) ?_ ?_
    · simp
    · rfl
    · first | (decide +revert) | simp
    · intro b hb
      match b with
      | ⟨0, _⟩ => exact absurd rfl hb
      | ⟨1, _⟩ => rfl
    · show 500000 + r = (j 0).val
      omega

end Cert.ReferenceIdeal.Joined

end
-- ==== Proof.lean ====
/-
  Six ragged products joined into one array: the kernel against its reference, over the extended reals.

  The reference multiplies each of six value arrays [20000, 2l+1, 128] (l = 0, …, 5) by slice l of the weights
  [6, 128, 256], flattens each product to rows of 256 and joins the six along the rows: 720000 rows. The kernel
  reshapes each value array to rows of 128 and runs one pallas_call over 360 tiles of 2000 output rows; two constant
  tables say, for each tile, the order l whose rows it computes and its position among the tiles of that order, and
  the tile's body multiplies that block of 2000 rows by weight slice l on the matrix unit. At the ideal values the
  changes of float format are the identity and a matrix-unit product into a zero accumulator is the plain sum over
  the 128 properties, so both programs compute, at output row R of the stretch of order l and column q,
      Σ_k value_l(R / (2l+1), R mod (2l+1), k) · W(l, k, q):
  the same sum of the same products in the same order — no law of the extended reals beyond that is used, and the
  precondition (finite inputs) is not needed.

  Frames: each program runs to its end without a fault and leaves its arguments as they were. For the two kernels
  this is the library's frame run of a pipeline with prefetched tables, at the tables the host constants hold (every
  block they name lies inside its array), with the body run once per possible order of a tile; the reference's frame
  is its run with the result dropped. The idealization rewrote no operation, so there is nothing to preserve.
-/
import proofs.«161469_j48060684042913_2_alg».proof.Defs
import proofs.«161469_j48060684042913_2_alg».proof.Proof.Gen.Kernel
import proofs.«161469_j48060684042913_2_alg».proof.Proof.Gen.KernelIdeal
import proofs.«161469_j48060684042913_2_alg».proof.Proof.Gen.ReferenceIdeal
import proofs.«161469_j48060684042913_2_alg».proof.Proof.Gen.Pre_finite_inputs
import proofs.«161469_j48060684042913_2_alg».proof.Proof.Gen.ReferenceIdeal.Run
import proofs.«161469_j48060684042913_2_alg».proof.Proof.Gen.ReferenceIdeal.Read
import proofs.«161469_j48060684042913_2_alg».proof.Proof.AtBits.Frame
import proofs.«161469_j48060684042913_2_alg».proof.Proof.AtIdeal.Final
import proofs.«161469_j48060684042913_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Tiles.frame m ρ

theorem frame_ki : Cert.frame_KernelIdeal := fun m ρ _ => Cert.KernelIdeal.Tiles.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specified function of the (agreeing) argument arrays. -/
theorem algebraic : Cert.algebraic_KernelIdeal_ReferenceIdeal := by
  intro m ρ m' ρ' _ hagree
  refine ⟨fun c => Cert.KernelIdeal.Tiles.Gm m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Joined.joined_eq]
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
